-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S2048x2048 : Shape := ⟨2, ![2048, 2048]⟩
abbrev S512x512 : Shape := ⟨2, ![512, 512]⟩
abbrev S8x2048x2048 : Shape := ⟨3, ![8, 2048, 2048]⟩
abbrev S1x2048x2048 : Shape := ⟨3, ![1, 2048, 2048]⟩
abbrev S_ : Shape := ⟨0, ![]⟩
abbrev S8x2048 : Shape := ⟨2, ![8, 2048]⟩

class Facts : Prop where
  transposes_S2048x2048_S2048x2048_1_0 : S2048x2048.Transposes [1, 0] S2048x2048
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S512x512 : S_.BroadcastsInDim S512x512 (![] : Fin 0 → Fin S512x512.rank)
  reducesTo_S512x512_S_d0_1 : S512x512.ReducesTo [0, 1] S_
  reducesTo_S8x2048x2048_S8x2048_d2 : S8x2048x2048.ReducesTo [2] S8x2048
  bcast_S_S8x2048 : S_.BroadcastsInDim S8x2048 (![] : Fin 0 → Fin S8x2048.rank)
  reducesTo_S8x2048_S_d0_1 : S8x2048.ReducesTo [0, 1] S_
  dot_S8x2048x512_S512x512_S8x2048x512_2_1_01_0_n_n_wf : DotDims.WF S8x2048x512 S512x512 S8x2048x512 [2] [1] [0, 1] [0] [] []
  dot_S8x2048x512_S8x2048x512_S8x2048x2048_2_2_1_1_0_0_wf : DotDims.WF S8x2048x512 S8x2048x512 S8x2048x2048 [2] [2] [1] [1] [0] [0]

variable [Facts]

def dot_S8x2048x512_S512x512_S8x2048x512_2_1_01_0_n_n : DotDims S8x2048x512 S512x512 S8x2048x512 where
  lhsContracting := [2]
  rhsContracting := [1]
  lhsNonContracting := [0, 1]
  rhsNonContracting := [0]
  lhsBatch := []
  rhsBatch := []
  wf := dot_S8x2048x512_S512x512_S8x2048x512_2_1_01_0_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def fn_part2 {F : FTy → Type} [FloatOps F] (main_v30 : IVec S_ 1) (main_v34 : IVec S8x2048 1) (main_c_10 : IVec S_ 1) : IVec S_ 1 :=
  let main_v35 : IVec S_ 1 := (fun x v => Host.reduce IntOp.andi x v reducesTo_S8x2048_S_d0_1 h_S_) main_v34 main_c_10
  let main_v36 : IVec S_ 1 := andi main_v30 main_v35
  main_v36

def fn_part1 {F : FTy → Type} [FloatOps F] (main_arg3 : FVec F S512x512 .f32) (main_arg4 : FVec F S512x512 .f32) (main_v6 : FVec F S8x2048x2048 .f32) (main_v15 : IVec S_ 1) (main_v18 : IVec S512x512 1) : IVec S_ 1 :=
  let main_c_3 : IVec S_ 1 := constantI S_ 1 1#1
  let main_v19 : IVec S_ 1 := (fun x v => Host.reduce IntOp.andi x v reducesTo_S512x512_S_d0_1 h_S_) main_v18 main_c_3
  let main_v20 : IVec S_ 1 := andi main_v15 main_v19
  let main_v21 : FVec F S512x512 .f32 := Host.absf main_arg3
  let main_cst_4 : FVec F S_ .f32 := constant S_ .f32 0x7F800000#32
  let main_v22 : FVec F S512x512 .f32 := broadcastInDim S512x512 ![] bcast_S_S512x512 main_cst_4
  let main_v23 : IVec S512x512 1 := cmpf .olt main_v21 main_v22
  let main_c_5 : IVec S_ 1 := constantI S_ 1 1#1
  let main_v24 : IVec S_ 1 := (fun x v => Host.reduce IntOp.andi x v reducesTo_S512x512_S_d0_1 h_S_) main_v23 main_c_5
  let main_v25 : IVec S_ 1 := andi main_v20 main_v24
  let main_v26 : FVec F S512x512 .f32 := Host.absf main_arg4
  let main_cst_6 : FVec F S_ .f32 := constant S_ .f32 0x7F800000#32
  let main_v27 : FVec F S512x512 .f32 := broadcastInDim S512x512 ![] bcast_S_S512x512 main_cst_6
  let main_v28 : IVec S512x512 1 := cmpf .olt main_v26 main_v27
  let main_c_7 : IVec S_ 1 := constantI S_ 1 1#1
  let main_v29 : IVec S_ 1 := (fun x v => Host.reduce IntOp.andi x v reducesTo_S512x512_S_d0_1 h_S_) main_v28 main_c_7
  let main_v30 : IVec S_ 1 := andi main_v25 main_v29
  let main_v31 : FVec F S8x2048x2048 .f32 := mulf main_v6 main_v6
  let main_cst_8 : FVec F S_ .f32 := constant S_ .f32 0x00000000#32
  let main_v32 : FVec F S8x2048 .f32 := (fun x v => Host.reduceAdd x v reducesTo_S8x2048x2048_S8x2048_d2 h_S_) main_v31 main_cst_8
  let main_cst_9 : FVec F S_ .f32 := constant S_ .f32 0x00000000#32
  let main_v33 : FVec F S8x2048 .f32 := broadcastInDim S8x2048 ![] bcast_S_S8x2048 main_cst_9
  let main_v34 : IVec S8x2048 1 := cmpf .ogt main_v32 main_v33
  let main_c_10 : IVec S_ 1 := constantI S_ 1 1#1
  fn_part2 (F := F) main_v30 main_v34 main_c_10

def fn {F : FTy → Type} [FloatOps F] (main_arg0 : FVec F S8x2048x512 .f32) (main_arg1 : FVec F S2048x2048 .f32) (main_arg2 : FVec F S512x512 .f32) (main_arg3 : FVec F S512x512 .f32) (main_arg4 : FVec F S512x512 .f32) : IVec S_ 1 :=
  let main_v0 : FVec F S8x2048x512 .f32 := (fun l r => Host.dotGeneral dot_S8x2048x512_S512x512_S8x2048x512_2_1_01_0_n_n none l r) main_arg0 main_arg2
  let main_v1 : FVec F S8x2048x512 .f32 := (fun l r => Host.dotGeneral dot_S8x2048x512_S512x512_S8x2048x512_2_1_01_0_n_n none l r) main_arg0 main_arg3
  let main_v2 : FVec F S8x2048x2048 .f32 := (fun l r => Host.dotGeneral dot_S8x2048x512_S8x2048x512_S8x2048x2048_2_2_1_1_0_0 none l r) main_v0 main_v1
  let main_v3 : FVec F S2048x2048 .f32 := (transpose S2048x2048 [1, 0] · transposes_S2048x2048_S2048x2048_1_0) main_arg1
  let main_v4 : FVec F S1x2048x2048 .f32 := broadcastInDim S1x2048x2048 ![1, 2] bcast_S2048x2048_S1x2048x2048_1_2 main_v3
  let main_v5 : FVec F S8x2048x2048 .f32 := broadcastInDim S8x2048x2048 ![0, 1, 2] bcast_S1x2048x2048_S8x2048x2048_0_1_2 main_v4
  let main_v6 : FVec F S8x2048x2048 .f32 := mulf main_v5 main_v2
  let main_v7 : FVec F S8x2048x512 .f32 := Host.absf main_arg0
  let main_cst : FVec F S_ .f32 := constant S_ .f32 0x7F800000#32
  let main_v8 : FVec F S8x2048x512 .f32 := broadcastInDim S8x2048x512 ![] bcast_S_S8x2048x512 main_cst
  let main_v9 : IVec S8x2048x512 1 := cmpf .olt main_v7 main_v8
  let main_c : IVec S_ 1 := constantI S_ 1 1#1
  let main_v10 : IVec S_ 1 := (fun x v => Host.reduce IntOp.andi x v reducesTo_S8x2048x512_S_d0_1_2 h_S_) main_v9 main_c
  let main_v11 : FVec F S2048x2048 .f32 := Host.absf main_arg1
  let main_cst_0 : FVec F S_ .f32 := constant S_ .f32 0x7F800000#32
  let main_v12 : FVec F S2048x2048 .f32 := broadcastInDim S2048x2048 ![] bcast_S_S2048x2048 main_cst_0
  let main_v13 : IVec S2048x2048 1 := cmpf .olt main_v11 main_v12
  let main_c_1 : IVec S_ 1 := constantI S_ 1 1#1
  let main_v14 : IVec S_ 1 := (fun x v => Host.reduce IntOp.andi x v reducesTo_S2048x2048_S_d0_1 h_S_) main_v13 main_c_1
  let main_v15 : IVec S_ 1 := andi main_v10 main_v14
  let main_v16 : FVec F S512x512 .f32 := Host.absf main_arg2
  let main_cst_2 : FVec F S_ .f32 := constant S_ .f32 0x7F800000#32
  let main_v17 : FVec F S512x512 .f32 := broadcastInDim S512x512 ![] bcast_S_S512x512 main_cst_2
  let main_v18 : IVec S512x512 1 := cmpf .olt main_v16 main_v17
  fn_part1 (F := F) main_arg3 main_arg4 main_v6 main_v15 main_v18
-- ==== Kernel.lean ====
abbrev S8x2048x512 : Shape := ⟨3, ![8, 2048, 512]⟩
abbrev S2048x2048 : Shape := ⟨2, ![2048, 2048]⟩
abbrev S512x512 : Shape := ⟨2, ![512, 512]⟩
abbrev S16384x512 : Shape := ⟨2, ![16384, 512]⟩
abbrev S1024x512 : Shape := ⟨2, ![1024, 512]⟩
abbrev S1x1024x512 : Shape := ⟨3, ![1, 1024, 512]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 22
  | .vmem => 23
  | .smem => 0
  | _ => 0

abbrev bufTy : (tb : Table) → Fin (tcTables nBuf tb) → BufTy
  | .hbm, ⟨0, _⟩ => ⟨S8x2048x512, .f32⟩
  | .hbm, ⟨1, _⟩ => ⟨S2048x2048, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S16384x512, .f32⟩
  | .hbm, ⟨6, _⟩ => ⟨S16384x512, .bf16⟩
  | .hbm, ⟨7, _⟩ => ⟨S512x512, .f32⟩
  | .hbm, ⟨8, _⟩ => ⟨S512x512, .bf16⟩
  | .hbm, ⟨9, _⟩ => ⟨S512x512, .f32⟩
  | .hbm, ⟨10, _⟩ => ⟨S512x512, .bf16⟩
  | .hbm, ⟨11, _⟩ => ⟨S512x512, .f32⟩
  | .hbm, ⟨12, _⟩ => ⟨S512x512, .bf16⟩
  | .hbm, ⟨13, _⟩ => ⟨S2048x2048, .f32⟩
  | .hbm, ⟨14, _⟩ => ⟨S2048x2048, .bf16⟩
  | .hbm, ⟨15, _⟩ => ⟨S16384x512, .bf16⟩
  | .hbm, ⟨16, _⟩ => ⟨S16384x512, .bf16⟩
  | .hbm, ⟨17, _⟩ => ⟨S16384x512, .bf16⟩
  | .hbm, ⟨18, _⟩ => ⟨S8x2048x512, .bf16⟩
  | .hbm, ⟨19, _⟩ => ⟨S8x2048x512, .bf16⟩
  | .hbm, ⟨20, _⟩ => ⟨S8x2048x512, .bf16⟩
  | .hbm, ⟨21, _⟩ => ⟨S8x2048x512, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1024x1024, .bf16⟩
  | .local _ .vmem, ⟨18, _⟩ => ⟨S1024x1024, .bf16⟩
  | .local _ .vmem, ⟨19, _⟩ => ⟨S1x1024x512, .f32⟩
  | .local _ .vmem, ⟨20, _⟩ => ⟨S1x1024x512, .f32⟩
  | .local _ .vmem, ⟨21, _⟩ => ⟨S1024x1, .f32⟩
  | .local _ .vmem, ⟨22, _⟩ => ⟨S1024x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc1_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![8, 2, 2], ![false, false, false]⟩

def k1_cond2 (i : grid1.Coords) : BitVec 1 :=
  let arg2 : BitVec 32 := BitVec.ofNat 32 (i 2).val
  let c1_i32 : BitVec 32 := 1#32
  let v29 : BitVec 1 := Scalar.cmpi .eq arg2 c1_i32
  let v30 : BitVec 32 := Scalar.extui v29
  let c0_i32_21 : BitVec 32 := 0#32
  let v31 : BitVec 1 := Scalar.cmpi .ne v30 c0_i32_21
  v31

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S1x1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S8x2048x512_S16384x512 : S8x2048x512.ShapeCasts S16384x512
  bitsLt_bf16_f32 : FTy.bits .bf16 < FTy.bits .f32
  transposes_S512x512_S512x512_1_0 : S512x512.Transposes [1, 0] S512x512
  transposes_S2048x2048_S2048x2048_1_0 : S2048x2048.Transposes [1, 0] S2048x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S1024x512_S1024x512_0_0 : (Rect.unit (s := S1024x512) ![0, 0] S1024x512.size inb_S1024x512_S1024x512_0_0).PackedRows (EltTy.packing .bf16)
  shapeCasts_S16384x512_S8x2048x512 : S16384x512.ShapeCasts S8x2048x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x512 : S1024x1.Broadcasts S1024x512
  shapeCasts_S1024x512_S1x1024x512 : S1024x512.ShapeCasts S1x1024x512
  dot_S1024x512_S512x512_S1024x512_1_0_0_1_n_n_wf : DotDims.WF S1024x512 S512x512 S1024x512 [1] [0] [0] [1] [] []
  dot_S1024x512_S1024x512_S1024x1024_1_1_0_0_n_n_wf : DotDims.WF S1024x512 S1024x512 S1024x1024 [1] [1] [0] [0] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .bf16 = 32 ∨ (Rect.block (s := S16384x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S16384x512.size a
  hwx0_4 : ∀ i : grid0.Coords, EltTy.bits .bf16 = 32 ∨ (Rect.block (s := S16384x512) S1024x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S16384x512.size a
  hwx0_5 : ∀ i : grid0.Coords, EltTy.bits .bf16 = 32 ∨ (Rect.block (s := S16384x512) S1024x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S16384x512.size a
  hwx0_6 : ∀ i : grid0.Coords, EltTy.bits .bf16 = 32 ∨ (Rect.block (s := S16384x512) S1024x512.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S8x2048x512.size a
  hwx1_0 : ∀ i : grid1.Coords, EltTy.bits .bf16 = 32 ∨ (Rect.block (s := S8x2048x512) S1x1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x512.size a ≤ S8x2048x512.size a
  hwx1_1 : ∀ i : grid1.Coords, EltTy.bits .bf16 = 32 ∨ (Rect.block (s := S8x2048x512) S1x1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x512.size a ≤ S8x2048x512.size a
  hwx1_2 : ∀ i : grid1.Coords, EltTy.bits .bf16 = 32 ∨ (Rect.block (s := S8x2048x512) S1x1024x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S2048x2048.size a
  hwx1_3 : ∀ i : grid1.Coords, EltTy.bits .bf16 = 32 ∨ (Rect.block (s := S2048x2048) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x512.size a ≤ S8x2048x512.size a
  hwx1_4 : ∀ i : grid1.Coords, EltTy.bits .f32 = 32 ∨ (Rect.block (s := S8x2048x512) S1x1024x512.size (cc1_transform_4 i) (hinb1_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_2) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v11) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8x2048x512 : Shape := ⟨3, ![8, 2048, 512]⟩
abbrev S2048x2048 : Shape := ⟨2, ![2048, 2048]⟩
abbrev S512x512 : Shape := ⟨2, ![512, 512]⟩
abbrev S8x2048x2048 : Shape := ⟨3, ![8, 2048, 2048]⟩
abbrev S1x2048x2048 : Shape := ⟨3, ![1, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S2048x2048, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S8x2048x512, .f32⟩
  | .hbm, ⟨6, _⟩ => ⟨S8x2048x512, .f32⟩
  | .hbm, ⟨7, _⟩ => ⟨S8x2048x512, .f32⟩
  | .hbm, ⟨8, _⟩ => ⟨S8x2048x2048, .f32⟩
  | .hbm, ⟨9, _⟩ => ⟨S2048x2048, .f32⟩
  | .hbm, ⟨10, _⟩ => ⟨S1x2048x2048, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S512x512_S8x2048x512_2_1_01_0_n_n_wf : DotDims.WF S8x2048x512 S512x512 S8x2048x512 [2] [1] [0, 1] [0] [] []
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S512x512_S8x2048x512_2_1_01_0_n_n : DotDims S8x2048x512 S512x512 S8x2048x512 where
  lhsContracting := [2]
  rhsContracting := [1]
  lhsNonContracting := [0, 1]
  rhsNonContracting := [0]
  lhsBatch := []
  rhsBatch := []
  wf := dot_S8x2048x512_S512x512_S8x2048x512_2_1_01_0_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.KRegion0.lean ====
/- The first kernel call of the program (the q/k/v projection), as a pipeline whose body only loads and stores whole blocks, at any float instance and
   at a PARAMETER `V`: the TensorCore's buffer contents when the call is entered. Each grid point reads a
   1024x512 block of the activations and the three whole 512x512 weights, and writes three 1024x512 blocks: the
   block times each weight, accumulated in f32 from zero and rounded to bf16. Stated here: the windows' blocks at a
   point, what the body leaves in each output's staging buffer as a function of the input blocks, the body's
   triple, the pipeline's proof data and the library's body obligation for it. -/
import proofs.«105555_j55413668053098_1_alg».proof.Proof.Gen.Kernel.Launch
import proofs.«105555_j55413668053098_1_alg».proof.Proof.Gen.Kernel.Skeleton
import proofs.«105555_j55413668053098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered: the parameter everything below is stated at
variable (V : (c : Dev nD) → (b : Ref sig .tc) → Buf (Elt F) ((c : Thread nD τ).loc b))

/-! ## The windows' blocks -/

/-- Window `w`'s block at point `t`, read off its array as the call finds it (`V`): for the activations and the
    outputs the 1024 rows numbered `t`, for a weight the whole matrix. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' current staging buffer holds their block at every point, for any proof data whose array is
    `V`'s and whose body leaves the block in place: the window is uncut, never idle, and fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The first weight's staging buffer holds the whole weight at every point, fetched there or not: fetched at the
    first point only, its block index never moves and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for the second weight. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The same for the third weight. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of a 1024x512 buffer: what the body loads of the activations' block and stores of each output. -/
abbrev rX : Rect S1024x512 := Rect.unit (s := S1024x512) ![0, 0] S1024x512.size inb_S1024x512_S1024x512_0_0
/-- The whole of a 512x512 buffer: what the body loads of each weight. -/
abbrev rW : Rect S512x512 := Rect.unit (s := S512x512) ![0, 0] S512x512.size inb_S512x512_S512x512_0_0

/-! ## What the body leaves in each output's buffer -/

/-- The first output's staging buffer after the body, from the activations' block `x` and the first weight `w`: its
    one whole-buffer store, whose payload is `x` times `w` accumulated in f32 from zero and rounded to bf16. -/
def outQ (x : Vec F S1024x512 .bf16) (w : Vec F S512x512 .bf16) : Vec F S1024x512 .bf16 :=
  View.canon [⟨rX, k0_pay2 (View.ld x rX) (View.ld w rW)⟩]
/-- The second output's, from the activations' block and the second weight. -/
def outK (x : Vec F S1024x512 .bf16) (w : Vec F S512x512 .bf16) : Vec F S1024x512 .bf16 :=
  View.canon [⟨rX, k0_pay3 (View.ld x rX) (View.ld w rW)⟩]
/-- The third output's, from the activations' block and the third weight. -/
def outV (x : Vec F S1024x512 .bf16) (w : Vec F S512x512 .bf16) : Vec F S1024x512 .bf16 :=
  View.canon [⟨rX, k0_pay4 (View.ld x rX) (View.ld w rW)⟩]

/-- A whole-buffer store covers the buffer: every index lies in the one rectangle, whatever is stored. -/
theorem cover0 (p0 : Vec F S1024x512 .bf16) (y : S1024x512.Idx) :
    ∃ pc ∈ ([⟨rX, p0⟩] : List (View.Piece (Elt F) S1024x512 .bf16)), y ∈ pc.1.set :=
  View.cover_of_tiled [⟨rX, p0⟩] S1024x512.size (by rfl) y

/-! ## The body's triple -/

set_option maxHeartbeats 1000000 in
/-- The kernel body on whole staging memrefs, the four inputs' at read contents `x0 … x3` and the outputs' at anything,
    runs to the continuation holding the inputs' as they were and the three outputs' at `outQ x0 x1`, `outK x0 x2`,
    `outV x0 x3`: it loads each input whole and overwrites each output whole, at any grid coordinates. -/
theorem sound_kernel0 (c : Dev nD) (E : Set ℕ) (i : grid0.Coords)
    (arg1 : Memref sig .tc .vmem S1024x512 .bf16) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S512x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x512 .bf16) (harg7 : arg7.IsWhole)
    (x0 : Vec F S1024x512 .bf16) (x1 : Vec F S512x512 .bf16) (x2 : Vec F S512x512 .bf16) (x3 : Vec F S512x512 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outQ x0 x1)
            ∗ owns (c : Thread nD τ) arg6 fullShare (outK x0 x2) ∗ owns (c : Thread nD τ) arg7 fullShare (outV x0 x3)) -∗ K ⟨⟩))
      ⊢ wp frame (wpE (defs₀ (F := F)) Variants.none c none) E (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The pipeline's proof data -/

/-- The proof data of the call on core `c`: the arrays as the call finds them (`V`); after the body at point `t` each
    input's buffer still at its block and each output's at the rounded product of the activations' block with its
    weight; the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outQ (iblk0 V c 0 t) (iblk0 V c 1 t)
    | ⟨5, _⟩ => outK (iblk0 V c 0 t) (iblk0 V c 2 t)
    | ⟨6, _⟩ => outV (iblk0 V c 0 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window: the inputs' blocks in place, -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
/-- and each output at the rounded product of the activations' block with its weight. -/
theorem after0_4 (c : Dev nD) (t : Fin cfg0.N) : (dat0 V c).after 4 t = outQ (iblk0 V c 0 t) (iblk0 V c 1 t) := by dsimp only [dat0]
theorem after0_5 (c : Dev nD) (t : Fin cfg0.N) : (dat0 V c).after 5 t = outK (iblk0 V c 0 t) (iblk0 V c 2 t) := by dsimp only [dat0]
theorem after0_6 (c : Dev nD) (t : Fin cfg0.N) : (dat0 V c).after 6 t = outV (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, what the core owes, and every window's current staging
    buffer at what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: the same invariant and debt, every buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.KConds1.lean ====
/-
  The attention region (the second kernel call): what its runs share.  The grid is (batch, query tile, key tile) =
  (8, 2, 2), walked with the key tile fastest, so a point's key tile is its position modulo 2.  The body resets its
  two accumulators (the running sum of squares of the masked scores, one per query row, and the running
  unnormalised output) at key tile 0, adds this tile's contribution at every point, and writes the output block
  (accumulated output times the reciprocal square root of the accumulated sum of squares) at key tile 1.
-/
import proofs.«105555_j55413668053098_1_alg».proof.Proof.Gen.Kernel.Launch
import proofs.«105555_j55413668053098_1_alg».proof.Proof.Gen.Kernel.Skeleton
import proofs.«105555_j55413668053098_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken exactly when the point's key-tile coordinate is 0 (the accumulators are reset). -/
abbrev cond1_0 (i : grid1.Coords) : Prop := (Scalar.cmpi .ne (Scalar.extui (Scalar.cmpi .eq (BitVec.ofNat 32 (i 2).val) 0#32)) 0#32) = 1#1
/-- Over the grid that is: the point's position is even. -/
theorem hcond1_0 : ∀ t : Fin cfg1.N, cond1_0 (grid1.coords t) ↔ t.val % 2 = 0 :=
  (by decide +kernel : ∀ t : Fin grid1.N, cond1_0 (grid1.coords t) ↔ t.val % 2 = 0)

/-- The body's second branch is taken exactly when the key-tile coordinate is the last one (the output is written). -/
abbrev cond1_1 (i : grid1.Coords) : Prop := k1_cond2 i = 1#1
/-- Over the grid that is: the point's position is odd. -/
theorem hcond1_1 : ∀ t : Fin cfg1.N, cond1_1 (grid1.coords t) ↔ t.val % 2 = 1 :=
  (by decide +kernel : ∀ t : Fin grid1.N, cond1_1 (grid1.coords t) ↔ t.val % 2 = 1)

/-- The two accumulators: whole scoped buffers of the kernel's own, passed beside the windows. -/
abbrev scL : Memref sig .tc .vmem S1024x1 .f32 := Memref.whole cc1_scratch0
abbrev scAcc : Memref sig .tc .vmem S1024x512 .f32 := Memref.whole cc1_scratch1

end Cert.Kernel.R1

end
-- ==== Proof.KRun1A.lean ====
/-
  The attention body at a point whose key tile is the first: both accumulators are reset to zero and then receive this
  tile's contribution; nothing is stored into the output block, which is handed back as it was.
-/
import proofs.«105555_j55413668053098_1_alg».proof.Proof.KConds1

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the stores of a first-key-tile point leave in the two accumulators, as the pieces written (last first), with
    the proof that from whole staging buffers — the four inputs at their blocks, the output's at contents handed back
    untouched, the accumulators at anything — the body runs to its return with exactly those pieces written. -/
noncomputable def kernelRun1_A (c : Dev nD) (i : grid1.Coords) (arg3 : Memref sig .tc .vmem S1x1024x512 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1024x1024 .bf16) (harg6 : arg6.IsWhole) (arg7 : Memref sig .tc .vmem S1x1024x512 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1x1024x512 .bf16) (x1 : Vec F S1x1024x512 .bf16) (x2 : Vec F S1x1024x512 .bf16) (x3 : Vec F S1024x1024 .bf16) :
    Σ' (LS0 : List (View.Piece (Elt F) S1024x1 .f32)), { LS1 : List (View.Piece (Elt F) S1024x512 .f32) //
      ∀ (xi4 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; iexact HS1

end Cert.Kernel.R1

end
-- ==== Proof.KRun1B.lean ====
/-
  The attention body at a point whose key tile is the last: the accumulators, found at what the point before left,
  receive this tile's contribution, and the output block is stored: accumulated output times the reciprocal square
  root of the accumulated sum of squares, row by row.
-/
import proofs.«105555_j55413668053098_1_alg».proof.Proof.KRun1A

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the stores of a last-key-tile point leave in the output block and in the two accumulators, as the pieces
    written (last first), with the proof that from whole staging buffers — the four inputs at their blocks, the
    output's at anything, the accumulators at the carried contents — the body runs to its return with exactly those
    pieces written. -/
noncomputable def kernelRun1_B (c : Dev nD) (i : grid1.Coords) (arg3 : Memref sig .tc .vmem S1x1024x512 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1024x1024 .bf16) (harg6 : arg6.IsWhole) (arg7 : Memref sig .tc .vmem S1x1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1x1024x512 .bf16) (x1 : Vec F S1x1024x512 .bf16) (x2 : Vec F S1x1024x512 .bf16) (x3 : Vec F S1024x1024 .bf16)
    (xs0 : Vec F S1024x1 .f32) (xs1 : Vec F S1024x512 .f32) :
    Σ' (L4 : List (View.Piece (Elt F) S1x1024x512 .f32)) (LS0 : List (View.Piece (Elt F) S1024x1 .f32)), { LS1 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    iexists _; iexact HS1

end Cert.Kernel.R1

end
-- ==== Proof.KPieces1.lean ====
/-
  The attention region's proof data.  At an even position (key tile 0) the body leaves in the two accumulators this
  tile's contribution alone; at the following odd position (key tile 1) it leaves the sum of both tiles' contributions
  there and, in the output block, the accumulated output scaled row by row by the reciprocal square root of the
  accumulated sum of squares.  The invariant carried from point to point says exactly that: after a point the two
  accumulators hold what that point left; every other scoped buffer holds anything.
-/
import proofs.«105555_j55413668053098_1_alg».proof.Proof.KRun1B

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter, which the run instantiates
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At a first-key-tile point the output window is idle (nothing is stored into it) and not written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
/-- At a last-key-tile point it is live. -/
theorem liveAt1_4_B : ∀ t : Fin cfg1.N, ¬cond1_0 (grid1.coords t) → cond1_1 (grid1.coords t) → cfg1.idle 4 (grid1.coords t) = false := by decide +kernel

/-! ## The staging memrefs at a point -/

abbrev VO1_4 : View sig .tc .vmem S1x1024x512 .f32 := (Memref.whole cc1_stg4_0 : Memref sig .tc .vmem S1x1024x512 .f32).view
abbrev ms1_0 (t : Fin cfg1.N) : Memref sig .tc .vmem S1x1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x512 .f32 := win1_4.stage (cfg1.slots t 4)
abbrev hs1_4 (t : Fin cfg1.N) : (ms1_4 t).IsWhole := hstage1_4 ((cfg1.slots t 4).cast nbuf1_4)
abbrev VS1_0 : View sig .tc .vmem S1024x1 .f32 := scL.view
abbrev VS1_1 : View sig .tc .vmem S1024x512 .f32 := scAcc.view

/-! ## What a point leaves -/

/-- The run of a first-key-tile point at position `t`, on that point's staging memrefs and input blocks. -/
def runA (c : Dev nD) (t : Fin cfg1.N) (h0 : t.val % 2 = 0) :=
  kernelRun1_A (F := F) c (grid1.coords t) (ms1_0 t) (hs1_0 t) (ms1_1 t) (hs1_1 t) (ms1_2 t) (hs1_2 t) (ms1_3 t) (hs1_3 t) (ms1_4 t) (hs1_4 t) scL (Memref.isWhole_whole _) scAcc (Memref.isWhole_whole _) ((hcond1_0 t).mpr h0) (fun h => by have := (hcond1_1 t).mp h; omega) (iblk1 V c 0 t) (iblk1 V c 1 t) (iblk1 V c 2 t) (iblk1 V c 3 t)

/-- What such a point leaves in the sum-of-squares accumulator and in the output accumulator: the pieces its stores
    wrote, read back (they cover the buffers, so nothing of the earlier contents shows). -/
def sA_0 (c : Dev nD) (t : Fin cfg1.N) (h0 : t.val % 2 = 0) : Vec F S1024x1 .f32 :=
  VS1_0.read (Elt F) (VS1_0.writes (Elt F) VS1_0.junk (runA V c t h0).1)
def sA_1 (c : Dev nD) (t : Fin cfg1.N) (h0 : t.val % 2 = 0) : Vec F S1024x512 .f32 :=
  VS1_1.read (Elt F) (VS1_1.writes (Elt F) VS1_1.junk (runA V c t h0).2.1)
theorem scoverA_0 (c : Dev nD) (t : Fin cfg1.N) (h0 : t.val % 2 = 0) (y : S1024x1.Idx) : ∃ pc ∈ (runA V c t h0).1, y ∈ pc.1.set :=
  View.cover_of_tiledL (runA V c t h0).1 S1024x1.size (by sl_kernel_rfl) y
theorem scoverA_1 (c : Dev nD) (t : Fin cfg1.N) (h0 : t.val % 2 = 0) (y : S1024x512.Idx) : ∃ pc ∈ (runA V c t h0).2.1, y ∈ pc.1.set :=
  View.cover_of_tiledL (runA V c t h0).2.1 S1024x512.size (by sl_kernel_rfl) y

/-- The run of a last-key-tile point at position `t`, the accumulators found at `xs0`, `xs1`. -/
def runB (c : Dev nD) (t : Fin cfg1.N) (h0 : ¬t.val % 2 = 0) (xs0 : Vec F S1024x1 .f32) (xs1 : Vec F S1024x512 .f32) :=
  kernelRun1_B (F := F) c (grid1.coords t) (ms1_0 t) (hs1_0 t) (ms1_1 t) (hs1_1 t) (ms1_2 t) (hs1_2 t) (ms1_3 t) (hs1_3 t) (ms1_4 t) (hs1_4 t) scL (Memref.isWhole_whole _) scAcc (Memref.isWhole_whole _) (fun h => h0 ((hcond1_0 t).mp h)) ((hcond1_1 t).mpr (by omega)) (iblk1 V c 0 t) (iblk1 V c 1 t) (iblk1 V c 2 t) (iblk1 V c 3 t) xs0 xs1

def outB_4 (c : Dev nD) (t : Fin cfg1.N) (h0 : ¬t.val % 2 = 0) (xs0 : Vec F S1024x1 .f32) (xs1 : Vec F S1024x512 .f32) : Vec F S1x1024x512 .f32 :=
  VO1_4.read (Elt F) (VO1_4.writes (Elt F) VO1_4.junk (runB V c t h0 xs0 xs1).1)
def sB_0 (c : Dev nD) (t : Fin cfg1.N) (h0 : ¬t.val % 2 = 0) (xs0 : Vec F S1024x1 .f32) (xs1 : Vec F S1024x512 .f32) : Vec F S1024x1 .f32 :=
  VS1_0.read (Elt F) (VS1_0.writes (Elt F) VS1_0.junk (runB V c t h0 xs0 xs1).2.1)
def sB_1 (c : Dev nD) (t : Fin cfg1.N) (h0 : ¬t.val % 2 = 0) (xs0 : Vec F S1024x1 .f32) (xs1 : Vec F S1024x512 .f32) : Vec F S1024x512 .f32 :=
  VS1_1.read (Elt F) (VS1_1.writes (Elt F) VS1_1.junk (runB V c t h0 xs0 xs1).2.2.1)
theorem coverB_4 (c : Dev nD) (t : Fin cfg1.N) (h0 : ¬t.val % 2 = 0) (xs0 : Vec F S1024x1 .f32) (xs1 : Vec F S1024x512 .f32) (y : S1x1024x512.Idx) :
    ∃ pc ∈ (runB V c t h0 xs0 xs1).1, y ∈ pc.1.set :=
  View.cover_of_tiledL (runB V c t h0 xs0 xs1).1 S1x1024x512.size (by sl_kernel_rfl) y
theorem scoverB_0 (c : Dev nD) (t : Fin cfg1.N) (h0 : ¬t.val % 2 = 0) (xs0 : Vec F S1024x1 .f32) (xs1 : Vec F S1024x512 .f32) (y : S1024x1.Idx) :
    ∃ pc ∈ (runB V c t h0 xs0 xs1).2.1, y ∈ pc.1.set :=
  View.cover_of_tiledL (runB V c t h0 xs0 xs1).2.1 S1024x1.size (by sl_kernel_rfl) y
theorem scoverB_1 (c : Dev nD) (t : Fin cfg1.N) (h0 : ¬t.val % 2 = 0) (xs0 : Vec F S1024x1 .f32) (xs1 : Vec F S1024x512 .f32) (y : S1024x512.Idx) :
    ∃ pc ∈ (runB V c t h0 xs0 xs1).2.2.1, y ∈ pc.1.set :=
  View.cover_of_tiledL (runB V c t h0 xs0 xs1).2.2.1 S1024x512.size (by sl_kernel_rfl) y

end Cert.Kernel.R1

end
-- ==== Proof.KFrame1.lean ====
/-
  The attention region's proof data and body obligation.  After an even position the two accumulators hold that
  point's own contribution; after an odd position they hold what the last-key-tile run leaves over the even position
  just before it, and the output block holds that run's stored block.  The invariant between points carries exactly
  the accumulators' contents; all other scoped buffers are held at anything.
-/
import proofs.«105555_j55413668053098_1_alg».proof.Proof.KPieces1

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the accumulators and the output block hold after each point -/

attribute [local irreducible] sA_0 sA_1 sB_0 sB_1 outB_4

/-- The accumulators (sum of squares, output) after the body at position `n`: at an even position this tile's
    contribution alone; at an odd one the last-key-tile run over what the even position before it left. -/
def scrAt (c : Dev nD) (n : ℕ) (hn : n < cfg1.N) : Vec F S1024x1 .f32 × Vec F S1024x512 .f32 :=
  if h0 : n % 2 = 0 then (sA_0 V c ⟨n, hn⟩ h0, sA_1 V c ⟨n, hn⟩ h0)
  else (sB_0 V c ⟨n, hn⟩ h0 (sA_0 V c ⟨n - 1, by omega⟩ (by show (n - 1) % 2 = 0; omega)) (sA_1 V c ⟨n - 1, by omega⟩ (by show (n - 1) % 2 = 0; omega)),
        sB_1 V c ⟨n, hn⟩ h0 (sA_0 V c ⟨n - 1, by omega⟩ (by show (n - 1) % 2 = 0; omega)) (sA_1 V c ⟨n - 1, by omega⟩ (by show (n - 1) % 2 = 0; omega)))

/-- The output block after the body at position `n`: stored at odd positions only (a placeholder elsewhere, which
    nothing consults: there the window is neither written back nor read). -/
def outAt (c : Dev nD) (n : ℕ) (hn : n < cfg1.N) : Vec F S1x1024x512 .f32 :=
  if h0 : n % 2 = 0 then VO1_4.read (Elt F) VO1_4.junk
  else outB_4 V c ⟨n, hn⟩ h0 (sA_0 V c ⟨n - 1, by omega⟩ (by show (n - 1) % 2 = 0; omega)) (sA_1 V c ⟨n - 1, by omega⟩ (by show (n - 1) % 2 = 0; omega))

theorem scrAt_A (c : Dev nD) (t : Fin cfg1.N) (h0 : t.val % 2 = 0) : scrAt V c t.val t.isLt = (sA_0 V c t h0, sA_1 V c t h0) := by
  obtain ⟨n, hn⟩ := t; unfold scrAt; rw [dif_pos h0]
theorem scrAt_prev (c : Dev nD) (t : Fin cfg1.N) (h0 : ¬t.val % 2 = 0) (hp : (t.val - 1) % 2 = 0) :
    scrAt V c (t.val - 1) (by omega) = (sA_0 V c ⟨t.val - 1, by omega⟩ hp, sA_1 V c ⟨t.val - 1, by omega⟩ hp) := by
  unfold scrAt; rw [dif_pos hp]
theorem scrAt_B (c : Dev nD) (t : Fin cfg1.N) (h0 : ¬t.val % 2 = 0) :
    scrAt V c t.val t.isLt = (sB_0 V c t h0 (scrAt V c (t.val - 1) (by omega)).1 (scrAt V c (t.val - 1) (by omega)).2,
      sB_1 V c t h0 (scrAt V c (t.val - 1) (by omega)).1 (scrAt V c (t.val - 1) (by omega)).2) := by
  have hp : (t.val - 1) % 2 = 0 := by omega
  rw [scrAt_prev V c t h0 hp]
  obtain ⟨n, hn⟩ := t
  unfold scrAt; rw [dif_neg h0]
theorem outAt_B (c : Dev nD) (t : Fin cfg1.N) (h0 : ¬t.val % 2 = 0) :
    outAt V c t.val t.isLt = outB_4 V c t h0 (scrAt V c (t.val - 1) (by omega)).1 (scrAt V c (t.val - 1) (by omega)).2 := by
  have hp : (t.val - 1) % 2 = 0 := by omega
  rw [scrAt_prev V c t h0 hp]
  obtain ⟨n, hn⟩ := t
  unfold outAt; rw [dif_neg h0]

/-! ## The invariant between points -/

/-- Every scoped buffer that is neither a staging buffer of this call nor one of its two accumulators, at anything. -/
abbrev restBut (c : Dev nD) : sProp 𝕄 :=
  Pipeline.scopedRestBut (Ix := Unit) (Name := ℕ) (U := UR sig nD τ) (Lvl := ℕ) (Val := Elt F) spec1 c [cc1_scratch0, cc1_scratch1]

/-- What the launch hands the region, with the two accumulators split off as memrefs owned at some contents. -/
theorem PhiA1_eq (c : Dev nD) :
    (Pipeline.ΦA spec1 c : sProp 𝕄)
      = iprop((((∃ d, owns (c : Thread nD τ) scL fullShare d) ∗ (∃ d, owns (c : Thread nD τ) scAcc fullShare d)) ∗ restBut (F := F) c) ∗ (∃ r, prngReg c r)) := by
  unfold Pipeline.ΦA
  rw [Pipeline.scopedRest_split_of_list spec1 c [cc1_scratch0, cc1_scratch1] (by decide) (by decide)]
  simp only [bigSepL_cons_cons, bigSepL_singleton, scL, scAcc, owns_whole]; try rfl

/-- Before position `n`: at the start what the launch hands over (the accumulators at anything); afterwards the
    accumulators at what the point before left. -/
def PhiS (c : Dev nD) : (n : ℕ) → n ≤ cfg1.N → sProp 𝕄
  | 0, _ => Pipeline.ΦA spec1 c
  | n + 1, hn => iprop(((owns (c : Thread nD τ) scL fullShare (scrAt V c n hn).1 ∗ owns (c : Thread nD τ) scAcc fullShare (scrAt V c n hn).2) ∗ restBut (F := F) c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(((owns (c : Thread nD τ) scL fullShare (scrAt V c n hn).1 ∗ owns (c : Thread nD τ) scAcc fullShare (scrAt V c n hn).2) ∗ restBut (F := F) c) ∗ (∃ r, prngReg c r)) := rfl
theorem PhiS_pos (c : Dev nD) (n : ℕ) (h : n ≤ cfg1.N) (hz : n ≠ 0) :
    PhiS V c n h = iprop(((owns (c : Thread nD τ) scL fullShare (scrAt V c (n - 1) (by omega)).1 ∗ owns (c : Thread nD τ) scAcc fullShare (scrAt V c (n - 1) (by omega)).2) ∗ restBut (F := F) c) ∗ (∃ r, prngReg c r)) := by
  cases n with
  | zero => exact absurd rfl hz
  | succ n => rfl

/-! ## The proof data -/

/-- The arrays as the region finds them; after the body at a point each input's buffer at its block and the output's
    at `outAt`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t)

set_option maxHeartbeats 4800000 in
/-- The body at any point.  The inputs' staging buffers hold their blocks; the position's parity says which of the two
    runs applies; the invariant hands the run the accumulators (at anything for a first-key-tile point, which resets
    them; at what the point before left for a last-key-tile point) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 2 = 0
  · have hcA : cond1_0 (grid1.coords t) := (hcond1_0 t).mpr h0
    have hcB : ¬cond1_1 (grid1.coords t) := fun h => by have := (hcond1_1 t).mp h; omega
    rw [Dat.leavesExact_idle (dat1 V c) 4 t (idleAt1_4_A t hcA hcB) (noFlush1_4_A t hcA hcB)]
    rw [scrAt_A V c t h0]
    unfold sA_0 sA_1; (try dsimp only)
    have hΦ : (dat1 V c).Φ t.castSucc ⊢ iprop((((∃ d, owns (c : Thread nD τ) scL fullShare d) ∗ (∃ d, owns (c : Thread nD τ) scAcc fullShare d)) ∗ restBut (F := F) c) ∗ (∃ r, prngReg c r)) := by
      by_cases hz : t.val = 0
      · rw [PhiS_castSucc V c t, PhiS_zero V c _ _ hz, PhiA1_eq]; try exact Idealize.SL.BI.Entails.refl _
      · rw [PhiS_castSucc V c t, PhiS_pos V c _ _ hz]
        iintro ⟨⟨⟨HS0, HS1⟩, Hrest⟩, Hg⟩
        isplitl [HS0 HS1 Hrest]
        · isplitl [HS0 HS1]
          · isplitl [HS0]; · iexists _; iexact HS0
            iexists _; iexact HS1
          iexact Hrest
        iexact Hg
    iintro ⟨HΦ, Ho, ⟨%d0, H0⟩, ⟨%d1, H1⟩, ⟨%d2, H2⟩, ⟨%d3, H3⟩, ⟨%d4, H4⟩⟩
    ihave HΦ' := hΦ $$ HΦ
    icases HΦ' with ⟨⟨⟨HS0, HS1⟩, Hrest⟩, Hg⟩
    iapply ((runA V c t h0).2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverA_0 V c t h0)
          · unfold owns; iexists _; isplitr
            swap; · iexact HS1
            ipureintro; exact View.read_writes_of_cover _ _ _ _ _ (scoverA_1 V c t h0)
        iexact Hrest
      iexact Hg
    isplitl [Ho]; · iexact Ho
    isplitl [H0]; · iexact H0
    isplitl [H1]; · iexact H1
    isplitl [H2]; · iexact H2
    isplitl [H3]; · iexact H3
    iexists _; iexact H4
  · have hcA : ¬cond1_0 (grid1.coords t) := fun h => h0 ((hcond1_0 t).mp h)
    have hcB : cond1_1 (grid1.coords t) := (hcond1_1 t).mpr (by omega)
    have hz : t.val ≠ 0 := fun h => h0 (by rw [h])
    rw [show (dat1 V c).leavesExact 4 t = owns (c : Thread nD τ) (ms1_4 t) fullShare ((dat1 V c).after 4 t) from by
      unfold Dat.leavesExact; rw [liveAt1_4_B t hcA hcB], after1_4]
    rw [scrAt_B V c t h0, outAt_B V c t h0]
    unfold sB_0 sB_1 outB_4; (try dsimp only)
    rw [PhiS_castSucc V c t, PhiS_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runB V c t h0 _ _).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverB_0 V c t h0 _ _)
          · unfold owns; iexists _; isplitr
            swap; · iexact HS1
            ipureintro; exact View.read_writes_of_cover _ _ _ _ _ (scoverB_1 V c t h0 _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB_4 V c t h0 _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives it back: the accumulators' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

end Cert.Kernel.R1

end
-- ==== Proof.KMain.lean ====
/-
  The whole program as a run.  @main is: host operations (reshape and narrow the states, transpose and narrow the
  weights and the adjacency), the projection kernel call, host operations (reshape q, k, v back to batches), the
  attention kernel call.  The contents of every unscoped buffer are followed through these four items: a host stretch
  applies its operations; a kernel call replaces its windows' arrays by what its write-backs leave and keeps every
  other buffer.  Every weakly fair execution terminates without fault, and at the end every unscoped buffer holds
  the last contents of that fold: the arguments what they held at launch, the result array what the attention call's
  write-backs left.
-/
import proofs.«105555_j55413668053098_1_alg».proof.Proof.KRegion0
import proofs.«105555_j55413668053098_1_alg».proof.Proof.KFrame1
import Idealize.ShloMosaic.Lib.Pipeline.RegionsLoop

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the projection call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection call: its arrays at what the write-backs leave, every other buffer as entered. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second host stretch (the attention call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention call. -/
def W4 (c : Dev nD) : Valuation τ sig (Elt F) :=
  Pipeline.withArrays spec1 c (W3 m ρ c) fun w => (R1.dat1 (V3 m ρ) c).arrAt w cfg1.N
theorem W4_arr (c : Dev nD) (w : Fin cfg1.W) :
    W4 m ρ c (Proc.devRef .tc (Pipeline.arrRef spec1 w)) = (R1.dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (R1.dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### No item writes an argument: no host operation's result is one, and no kernel call stages one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
/-- Each call's proof data at the contents its region is entered from. -/
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The kernel calls as segments -/

set_option backward.isDefEq.respectTransparency.types false in
/-- The kernel call 0 as a segment: entered from every unscoped buffer at the contents before it, left at the
    contents after it.  Its windows' arrays are split out of the unscoped buffers and put back at what the write-backs
    leave; the generator register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The kernel call 1 as a segment: entered from every unscoped buffer at the contents before it, left at the
    contents after it.  Its windows' arrays are split out of the unscoped buffers and put back at what the write-backs
    leave; the generator register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (R1.hin1 (V3 m ρ) c)
    unfold Pipeline.ΦA
    iintro ⟨Hp, -, Hr⟩
    isplitl [Hr]; · iexact Hr
    iexact Hp
  hout c := by
    rw [Pipeline.ownSems0_none]
    refine (R1.hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.Kernel.Run

end
-- ==== Proof.KIRegion0.lean ====
/- The first kernel call of the program (the q/k/v projection), as a pipeline whose body only loads and stores whole blocks, at any float instance and
   at a PARAMETER `V`: the TensorCore's buffer contents when the call is entered. Each grid point reads a
   1024x512 block of the activations and the three whole 512x512 weights, and writes three 1024x512 blocks: the
   block times each weight, accumulated in f32 from zero and rounded to bf16. Stated here: the windows' blocks at a
   point, what the body leaves in each output's staging buffer as a function of the input blocks, the body's
   triple, the pipeline's proof data and the library's body obligation for it. -/
import proofs.«105555_j55413668053098_1_alg».proof.Proof.Gen.KernelIdeal.Launch
import proofs.«105555_j55413668053098_1_alg».proof.Proof.Gen.KernelIdeal.Skeleton
import proofs.«105555_j55413668053098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered: the parameter everything below is stated at
variable (V : (c : Dev nD) → (b : Ref sig .tc) → Buf (Elt F) ((c : Thread nD τ).loc b))

/-! ## The windows' blocks -/

/-- Window `w`'s block at point `t`, read off its array as the call finds it (`V`): for the activations and the
    outputs the 1024 rows numbered `t`, for a weight the whole matrix. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' current staging buffer holds their block at every point, for any proof data whose array is
    `V`'s and whose body leaves the block in place: the window is uncut, never idle, and fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The first weight's staging buffer holds the whole weight at every point, fetched there or not: fetched at the
    first point only, its block index never moves and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for the second weight. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The same for the third weight. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of a 1024x512 buffer: what the body loads of the activations' block and stores of each output. -/
abbrev rX : Rect S1024x512 := Rect.unit (s := S1024x512) ![0, 0] S1024x512.size inb_S1024x512_S1024x512_0_0
/-- The whole of a 512x512 buffer: what the body loads of each weight. -/
abbrev rW : Rect S512x512 := Rect.unit (s := S512x512) ![0, 0] S512x512.size inb_S512x512_S512x512_0_0

/-! ## What the body leaves in each output's buffer -/

/-- The first output's staging buffer after the body, from the activations' block `x` and the first weight `w`: its
    one whole-buffer store, whose payload is `x` times `w` accumulated in f32 from zero and rounded to bf16. -/
def outQ (x : Vec F S1024x512 .bf16) (w : Vec F S512x512 .bf16) : Vec F S1024x512 .bf16 :=
  View.canon [⟨rX, k0_pay2 (View.ld x rX) (View.ld w rW)⟩]
/-- The second output's, from the activations' block and the second weight. -/
def outK (x : Vec F S1024x512 .bf16) (w : Vec F S512x512 .bf16) : Vec F S1024x512 .bf16 :=
  View.canon [⟨rX, k0_pay3 (View.ld x rX) (View.ld w rW)⟩]
/-- The third output's, from the activations' block and the third weight. -/
def outV (x : Vec F S1024x512 .bf16) (w : Vec F S512x512 .bf16) : Vec F S1024x512 .bf16 :=
  View.canon [⟨rX, k0_pay4 (View.ld x rX) (View.ld w rW)⟩]

/-- A whole-buffer store covers the buffer: every index lies in the one rectangle, whatever is stored. -/
theorem cover0 (p0 : Vec F S1024x512 .bf16) (y : S1024x512.Idx) :
    ∃ pc ∈ ([⟨rX, p0⟩] : List (View.Piece (Elt F) S1024x512 .bf16)), y ∈ pc.1.set :=
  View.cover_of_tiled [⟨rX, p0⟩] S1024x512.size (by rfl) y

/-! ## The body's triple -/

set_option maxHeartbeats 1000000 in
/-- The kernel body on whole staging memrefs, the four inputs' at read contents `x0 … x3` and the outputs' at anything,
    runs to the continuation holding the inputs' as they were and the three outputs' at `outQ x0 x1`, `outK x0 x2`,
    `outV x0 x3`: it loads each input whole and overwrites each output whole, at any grid coordinates. -/
theorem sound_kernel0 (c : Dev nD) (E : Set ℕ) (i : grid0.Coords)
    (arg1 : Memref sig .tc .vmem S1024x512 .bf16) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S512x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x512 .bf16) (harg7 : arg7.IsWhole)
    (x0 : Vec F S1024x512 .bf16) (x1 : Vec F S512x512 .bf16) (x2 : Vec F S512x512 .bf16) (x3 : Vec F S512x512 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outQ x0 x1)
            ∗ owns (c : Thread nD τ) arg6 fullShare (outK x0 x2) ∗ owns (c : Thread nD τ) arg7 fullShare (outV x0 x3)) -∗ K ⟨⟩))
      ⊢ wp frame (wpE (defs₀ (F := F)) Variants.none c none) E (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The pipeline's proof data -/

/-- The proof data of the call on core `c`: the arrays as the call finds them (`V`); after the body at point `t` each
    input's buffer still at its block and each output's at the rounded product of the activations' block with its
    weight; the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outQ (iblk0 V c 0 t) (iblk0 V c 1 t)
    | ⟨5, _⟩ => outK (iblk0 V c 0 t) (iblk0 V c 2 t)
    | ⟨6, _⟩ => outV (iblk0 V c 0 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window: the inputs' blocks in place, -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
/-- and each output at the rounded product of the activations' block with its weight. -/
theorem after0_4 (c : Dev nD) (t : Fin cfg0.N) : (dat0 V c).after 4 t = outQ (iblk0 V c 0 t) (iblk0 V c 1 t) := by dsimp only [dat0]
theorem after0_5 (c : Dev nD) (t : Fin cfg0.N) : (dat0 V c).after 5 t = outK (iblk0 V c 0 t) (iblk0 V c 2 t) := by dsimp only [dat0]
theorem after0_6 (c : Dev nD) (t : Fin cfg0.N) : (dat0 V c).after 6 t = outV (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, what the core owes, and every window's current staging
    buffer at what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: the same invariant and debt, every buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.KIConds1.lean ====
/-
  The attention region (the second kernel call): what its runs share.  The grid is (batch, query tile, key tile) =
  (8, 2, 2), walked with the key tile fastest, so a point's key tile is its position modulo 2.  The body resets its
  two accumulators (the running sum of squares of the masked scores, one per query row, and the running
  unnormalised output) at key tile 0, adds this tile's contribution at every point, and writes the output block
  (accumulated output times the reciprocal square root of the accumulated sum of squares) at key tile 1.
-/
import proofs.«105555_j55413668053098_1_alg».proof.Proof.Gen.KernelIdeal.Launch
import proofs.«105555_j55413668053098_1_alg».proof.Proof.Gen.KernelIdeal.Skeleton
import proofs.«105555_j55413668053098_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken exactly when the point's key-tile coordinate is 0 (the accumulators are reset). -/
abbrev cond1_0 (i : grid1.Coords) : Prop := (Scalar.cmpi .ne (Scalar.extui (Scalar.cmpi .eq (BitVec.ofNat 32 (i 2).val) 0#32)) 0#32) = 1#1
/-- Over the grid that is: the point's position is even. -/
theorem hcond1_0 : ∀ t : Fin cfg1.N, cond1_0 (grid1.coords t) ↔ t.val % 2 = 0 :=
  (by decide +kernel : ∀ t : Fin grid1.N, cond1_0 (grid1.coords t) ↔ t.val % 2 = 0)

/-- The body's second branch is taken exactly when the key-tile coordinate is the last one (the output is written). -/
abbrev cond1_1 (i : grid1.Coords) : Prop := k1_cond2 i = 1#1
/-- Over the grid that is: the point's position is odd. -/
theorem hcond1_1 : ∀ t : Fin cfg1.N, cond1_1 (grid1.coords t) ↔ t.val % 2 = 1 :=
  (by decide +kernel : ∀ t : Fin grid1.N, cond1_1 (grid1.coords t) ↔ t.val % 2 = 1)

/-- The two accumulators: whole scoped buffers of the kernel's own, passed beside the windows. -/
abbrev scL : Memref sig .tc .vmem S1024x1 .f32 := Memref.whole cc1_scratch0
abbrev scAcc : Memref sig .tc .vmem S1024x512 .f32 := Memref.whole cc1_scratch1

end Cert.KernelIdeal.R1

end
-- ==== Proof.KIRun1A.lean ====
/-
  The attention body at a point whose key tile is the first: both accumulators are reset to zero and then receive this
  tile's contribution; nothing is stored into the output block, which is handed back as it was.
-/
import proofs.«105555_j55413668053098_1_alg».proof.Proof.KIConds1

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the stores of a first-key-tile point leave in the two accumulators, as the pieces written (last first), with
    the proof that from whole staging buffers — the four inputs at their blocks, the output's at contents handed back
    untouched, the accumulators at anything — the body runs to its return with exactly those pieces written. -/
noncomputable def kernelRun1_A (c : Dev nD) (i : grid1.Coords) (arg3 : Memref sig .tc .vmem S1x1024x512 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1024x1024 .bf16) (harg6 : arg6.IsWhole) (arg7 : Memref sig .tc .vmem S1x1024x512 .f32) (harg7 : arg7.IsWhole) (arg8 : Memref sig .tc .vmem S1024x1 .f32) (harg8 : arg8.IsWhole) (arg9 : Memref sig .tc .vmem S1024x512 .f32) (harg9 : arg9.IsWhole) (hc0 : cond1_0 i) (hc1 : ¬cond1_1 i)
    (x0 : Vec F S1x1024x512 .bf16) (x1 : Vec F S1x1024x512 .bf16) (x2 : Vec F S1x1024x512 .bf16) (x3 : Vec F S1024x1024 .bf16) :
    Σ' (LS0 : List (View.Piece (Elt F) S1024x1 .f32)), { LS1 : List (View.Piece (Elt F) S1024x512 .f32) //
      ∀ (xi4 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; iexact HS1

end Cert.KernelIdeal.R1

end
-- ==== Proof.KIRun1B.lean ====
/-
  The attention body at a point whose key tile is the last: the accumulators, found at what the point before left,
  receive this tile's contribution, and the output block is stored: accumulated output times the reciprocal square
  root of the accumulated sum of squares, row by row.
-/
import proofs.«105555_j55413668053098_1_alg».proof.Proof.KIRun1A

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the stores of a last-key-tile point leave in the output block and in the two accumulators, as the pieces
    written (last first), with the proof that from whole staging buffers — the four inputs at their blocks, the
    output's at anything, the accumulators at the carried contents — the body runs to its return with exactly those
    pieces written. -/
noncomputable def kernelRun1_B (c : Dev nD) (i : grid1.Coords) (arg3 : Memref sig .tc .vmem S1x1024x512 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1024x1024 .bf16) (harg6 : arg6.IsWhole) (arg7 : Memref sig .tc .vmem S1x1024x512 .f32) (harg7 : arg7.IsWhole) (arg8 : Memref sig .tc .vmem S1024x1 .f32) (harg8 : arg8.IsWhole) (arg9 : Memref sig .tc .vmem S1024x512 .f32) (harg9 : arg9.IsWhole) (hc0 : ¬cond1_0 i) (hc1 : cond1_1 i)
    (x0 : Vec F S1x1024x512 .bf16) (x1 : Vec F S1x1024x512 .bf16) (x2 : Vec F S1x1024x512 .bf16) (x3 : Vec F S1024x1024 .bf16)
    (xs0 : Vec F S1024x1 .f32) (xs1 : Vec F S1024x512 .f32) :
    Σ' (L4 : List (View.Piece (Elt F) S1x1024x512 .f32)) (LS0 : List (View.Piece (Elt F) S1024x1 .f32)), { LS1 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    iexists _; iexact HS1

end Cert.KernelIdeal.R1

end
-- ==== Proof.KIPieces1.lean ====
/-
  The attention region's proof data.  At an even position (key tile 0) the body leaves in the two accumulators this
  tile's contribution alone; at the following odd position (key tile 1) it leaves the sum of both tiles' contributions
  there and, in the output block, the accumulated output scaled row by row by the reciprocal square root of the
  accumulated sum of squares.  The invariant carried from point to point says exactly that: after a point the two
  accumulators hold what that point left; every other scoped buffer holds anything.
-/
import proofs.«105555_j55413668053098_1_alg».proof.Proof.KIRun1B

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter, which the run instantiates
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At a first-key-tile point the output window is idle (nothing is stored into it) and not written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
/-- At a last-key-tile point it is live. -/
theorem liveAt1_4_B : ∀ t : Fin cfg1.N, ¬cond1_0 (grid1.coords t) → cond1_1 (grid1.coords t) → cfg1.idle 4 (grid1.coords t) = false := by decide +kernel

/-! ## The staging memrefs at a point -/

abbrev VO1_4 : View sig .tc .vmem S1x1024x512 .f32 := (Memref.whole cc1_stg4_0 : Memref sig .tc .vmem S1x1024x512 .f32).view
abbrev ms1_0 (t : Fin cfg1.N) : Memref sig .tc .vmem S1x1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x512 .f32 := win1_4.stage (cfg1.slots t 4)
abbrev hs1_4 (t : Fin cfg1.N) : (ms1_4 t).IsWhole := hstage1_4 ((cfg1.slots t 4).cast nbuf1_4)
abbrev VS1_0 : View sig .tc .vmem S1024x1 .f32 := scL.view
abbrev VS1_1 : View sig .tc .vmem S1024x512 .f32 := scAcc.view

/-! ## What a point leaves -/

/-- The run of a first-key-tile point at position `t`, on that point's staging memrefs and input blocks. -/
def runA (c : Dev nD) (t : Fin cfg1.N) (h0 : t.val % 2 = 0) :=
  kernelRun1_A (F := F) c (grid1.coords t) (ms1_0 t) (hs1_0 t) (ms1_1 t) (hs1_1 t) (ms1_2 t) (hs1_2 t) (ms1_3 t) (hs1_3 t) (ms1_4 t) (hs1_4 t) scL (Memref.isWhole_whole _) scAcc (Memref.isWhole_whole _) ((hcond1_0 t).mpr h0) (fun h => by have := (hcond1_1 t).mp h; omega) (iblk1 V c 0 t) (iblk1 V c 1 t) (iblk1 V c 2 t) (iblk1 V c 3 t)

/-- What such a point leaves in the sum-of-squares accumulator and in the output accumulator: the pieces its stores
    wrote, read back (they cover the buffers, so nothing of the earlier contents shows). -/
def sA_0 (c : Dev nD) (t : Fin cfg1.N) (h0 : t.val % 2 = 0) : Vec F S1024x1 .f32 :=
  VS1_0.read (Elt F) (VS1_0.writes (Elt F) VS1_0.junk (runA V c t h0).1)
def sA_1 (c : Dev nD) (t : Fin cfg1.N) (h0 : t.val % 2 = 0) : Vec F S1024x512 .f32 :=
  VS1_1.read (Elt F) (VS1_1.writes (Elt F) VS1_1.junk (runA V c t h0).2.1)
theorem scoverA_0 (c : Dev nD) (t : Fin cfg1.N) (h0 : t.val % 2 = 0) (y : S1024x1.Idx) : ∃ pc ∈ (runA V c t h0).1, y ∈ pc.1.set :=
  View.cover_of_tiledL (runA V c t h0).1 S1024x1.size (by sl_kernel_rfl) y
theorem scoverA_1 (c : Dev nD) (t : Fin cfg1.N) (h0 : t.val % 2 = 0) (y : S1024x512.Idx) : ∃ pc ∈ (runA V c t h0).2.1, y ∈ pc.1.set :=
  View.cover_of_tiledL (runA V c t h0).2.1 S1024x512.size (by sl_kernel_rfl) y

/-- The run of a last-key-tile point at position `t`, the accumulators found at `xs0`, `xs1`. -/
def runB (c : Dev nD) (t : Fin cfg1.N) (h0 : ¬t.val % 2 = 0) (xs0 : Vec F S1024x1 .f32) (xs1 : Vec F S1024x512 .f32) :=
  kernelRun1_B (F := F) c (grid1.coords t) (ms1_0 t) (hs1_0 t) (ms1_1 t) (hs1_1 t) (ms1_2 t) (hs1_2 t) (ms1_3 t) (hs1_3 t) (ms1_4 t) (hs1_4 t) scL (Memref.isWhole_whole _) scAcc (Memref.isWhole_whole _) (fun h => h0 ((hcond1_0 t).mp h)) ((hcond1_1 t).mpr (by omega)) (iblk1 V c 0 t) (iblk1 V c 1 t) (iblk1 V c 2 t) (iblk1 V c 3 t) xs0 xs1

def outB_4 (c : Dev nD) (t : Fin cfg1.N) (h0 : ¬t.val % 2 = 0) (xs0 : Vec F S1024x1 .f32) (xs1 : Vec F S1024x512 .f32) : Vec F S1x1024x512 .f32 :=
  VO1_4.read (Elt F) (VO1_4.writes (Elt F) VO1_4.junk (runB V c t h0 xs0 xs1).1)
def sB_0 (c : Dev nD) (t : Fin cfg1.N) (h0 : ¬t.val % 2 = 0) (xs0 : Vec F S1024x1 .f32) (xs1 : Vec F S1024x512 .f32) : Vec F S1024x1 .f32 :=
  VS1_0.read (Elt F) (VS1_0.writes (Elt F) VS1_0.junk (runB V c t h0 xs0 xs1).2.1)
def sB_1 (c : Dev nD) (t : Fin cfg1.N) (h0 : ¬t.val % 2 = 0) (xs0 : Vec F S1024x1 .f32) (xs1 : Vec F S1024x512 .f32) : Vec F S1024x512 .f32 :=
  VS1_1.read (Elt F) (VS1_1.writes (Elt F) VS1_1.junk (runB V c t h0 xs0 xs1).2.2.1)
theorem coverB_4 (c : Dev nD) (t : Fin cfg1.N) (h0 : ¬t.val % 2 = 0) (xs0 : Vec F S1024x1 .f32) (xs1 : Vec F S1024x512 .f32) (y : S1x1024x512.Idx) :
    ∃ pc ∈ (runB V c t h0 xs0 xs1).1, y ∈ pc.1.set :=
  View.cover_of_tiledL (runB V c t h0 xs0 xs1).1 S1x1024x512.size (by sl_kernel_rfl) y
theorem scoverB_0 (c : Dev nD) (t : Fin cfg1.N) (h0 : ¬t.val % 2 = 0) (xs0 : Vec F S1024x1 .f32) (xs1 : Vec F S1024x512 .f32) (y : S1024x1.Idx) :
    ∃ pc ∈ (runB V c t h0 xs0 xs1).2.1, y ∈ pc.1.set :=
  View.cover_of_tiledL (runB V c t h0 xs0 xs1).2.1 S1024x1.size (by sl_kernel_rfl) y
theorem scoverB_1 (c : Dev nD) (t : Fin cfg1.N) (h0 : ¬t.val % 2 = 0) (xs0 : Vec F S1024x1 .f32) (xs1 : Vec F S1024x512 .f32) (y : S1024x512.Idx) :
    ∃ pc ∈ (runB V c t h0 xs0 xs1).2.2.1, y ∈ pc.1.set :=
  View.cover_of_tiledL (runB V c t h0 xs0 xs1).2.2.1 S1024x512.size (by sl_kernel_rfl) y

end Cert.KernelIdeal.R1

end
-- ==== Proof.KIFrame1.lean ====
/-
  The attention region's proof data and body obligation.  After an even position the two accumulators hold that
  point's own contribution; after an odd position they hold what the last-key-tile run leaves over the even position
  just before it, and the output block holds that run's stored block.  The invariant between points carries exactly
  the accumulators' contents; all other scoped buffers are held at anything.
-/
import proofs.«105555_j55413668053098_1_alg».proof.Proof.KIPieces1

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the accumulators and the output block hold after each point -/

attribute [local irreducible] sA_0 sA_1 sB_0 sB_1 outB_4

/-- The accumulators (sum of squares, output) after the body at position `n`: at an even position this tile's
    contribution alone; at an odd one the last-key-tile run over what the even position before it left. -/
def scrAt (c : Dev nD) (n : ℕ) (hn : n < cfg1.N) : Vec F S1024x1 .f32 × Vec F S1024x512 .f32 :=
  if h0 : n % 2 = 0 then (sA_0 V c ⟨n, hn⟩ h0, sA_1 V c ⟨n, hn⟩ h0)
  else (sB_0 V c ⟨n, hn⟩ h0 (sA_0 V c ⟨n - 1, by omega⟩ (by show (n - 1) % 2 = 0; omega)) (sA_1 V c ⟨n - 1, by omega⟩ (by show (n - 1) % 2 = 0; omega)),
        sB_1 V c ⟨n, hn⟩ h0 (sA_0 V c ⟨n - 1, by omega⟩ (by show (n - 1) % 2 = 0; omega)) (sA_1 V c ⟨n - 1, by omega⟩ (by show (n - 1) % 2 = 0; omega)))

/-- The output block after the body at position `n`: stored at odd positions only (a placeholder elsewhere, which
    nothing consults: there the window is neither written back nor read). -/
def outAt (c : Dev nD) (n : ℕ) (hn : n < cfg1.N) : Vec F S1x1024x512 .f32 :=
  if h0 : n % 2 = 0 then VO1_4.read (Elt F) VO1_4.junk
  else outB_4 V c ⟨n, hn⟩ h0 (sA_0 V c ⟨n - 1, by omega⟩ (by show (n - 1) % 2 = 0; omega)) (sA_1 V c ⟨n - 1, by omega⟩ (by show (n - 1) % 2 = 0; omega))

theorem scrAt_A (c : Dev nD) (t : Fin cfg1.N) (h0 : t.val % 2 = 0) : scrAt V c t.val t.isLt = (sA_0 V c t h0, sA_1 V c t h0) := by
  obtain ⟨n, hn⟩ := t; unfold scrAt; rw [dif_pos h0]
theorem scrAt_prev (c : Dev nD) (t : Fin cfg1.N) (h0 : ¬t.val % 2 = 0) (hp : (t.val - 1) % 2 = 0) :
    scrAt V c (t.val - 1) (by omega) = (sA_0 V c ⟨t.val - 1, by omega⟩ hp, sA_1 V c ⟨t.val - 1, by omega⟩ hp) := by
  unfold scrAt; rw [dif_pos hp]
theorem scrAt_B (c : Dev nD) (t : Fin cfg1.N) (h0 : ¬t.val % 2 = 0) :
    scrAt V c t.val t.isLt = (sB_0 V c t h0 (scrAt V c (t.val - 1) (by omega)).1 (scrAt V c (t.val - 1) (by omega)).2,
      sB_1 V c t h0 (scrAt V c (t.val - 1) (by omega)).1 (scrAt V c (t.val - 1) (by omega)).2) := by
  have hp : (t.val - 1) % 2 = 0 := by omega
  rw [scrAt_prev V c t h0 hp]
  obtain ⟨n, hn⟩ := t
  unfold scrAt; rw [dif_neg h0]
theorem outAt_B (c : Dev nD) (t : Fin cfg1.N) (h0 : ¬t.val % 2 = 0) :
    outAt V c t.val t.isLt = outB_4 V c t h0 (scrAt V c (t.val - 1) (by omega)).1 (scrAt V c (t.val - 1) (by omega)).2 := by
  have hp : (t.val - 1) % 2 = 0 := by omega
  rw [scrAt_prev V c t h0 hp]
  obtain ⟨n, hn⟩ := t
  unfold outAt; rw [dif_neg h0]

/-! ## The invariant between points -/

/-- Every scoped buffer that is neither a staging buffer of this call nor one of its two accumulators, at anything. -/
abbrev restBut (c : Dev nD) : sProp 𝕄 :=
  Pipeline.scopedRestBut (Ix := Unit) (Name := ℕ) (U := UR sig nD τ) (Lvl := ℕ) (Val := Elt F) spec1 c [cc1_scratch0, cc1_scratch1]

/-- What the launch hands the region, with the two accumulators split off as memrefs owned at some contents. -/
theorem PhiA1_eq (c : Dev nD) :
    (Pipeline.ΦA spec1 c : sProp 𝕄)
      = iprop((((∃ d, owns (c : Thread nD τ) scL fullShare d) ∗ (∃ d, owns (c : Thread nD τ) scAcc fullShare d)) ∗ restBut (F := F) c) ∗ (∃ r, prngReg c r)) := by
  unfold Pipeline.ΦA
  rw [Pipeline.scopedRest_split_of_list spec1 c [cc1_scratch0, cc1_scratch1] (by decide) (by decide)]
  simp only [bigSepL_cons_cons, bigSepL_singleton, scL, scAcc, owns_whole]; try rfl

/-- Before position `n`: at the start what the launch hands over (the accumulators at anything); afterwards the
    accumulators at what the point before left. -/
def PhiS (c : Dev nD) : (n : ℕ) → n ≤ cfg1.N → sProp 𝕄
  | 0, _ => Pipeline.ΦA spec1 c
  | n + 1, hn => iprop(((owns (c : Thread nD τ) scL fullShare (scrAt V c n hn).1 ∗ owns (c : Thread nD τ) scAcc fullShare (scrAt V c n hn).2) ∗ restBut (F := F) c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(((owns (c : Thread nD τ) scL fullShare (scrAt V c n hn).1 ∗ owns (c : Thread nD τ) scAcc fullShare (scrAt V c n hn).2) ∗ restBut (F := F) c) ∗ (∃ r, prngReg c r)) := rfl
theorem PhiS_pos (c : Dev nD) (n : ℕ) (h : n ≤ cfg1.N) (hz : n ≠ 0) :
    PhiS V c n h = iprop(((owns (c : Thread nD τ) scL fullShare (scrAt V c (n - 1) (by omega)).1 ∗ owns (c : Thread nD τ) scAcc fullShare (scrAt V c (n - 1) (by omega)).2) ∗ restBut (F := F) c) ∗ (∃ r, prngReg c r)) := by
  cases n with
  | zero => exact absurd rfl hz
  | succ n => rfl

/-! ## The proof data -/

/-- The arrays as the region finds them; after the body at a point each input's buffer at its block and the output's
    at `outAt`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t)

set_option maxHeartbeats 4800000 in
/-- The body at any point.  The inputs' staging buffers hold their blocks; the position's parity says which of the two
    runs applies; the invariant hands the run the accumulators (at anything for a first-key-tile point, which resets
    them; at what the point before left for a last-key-tile point) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 2 = 0
  · have hcA : cond1_0 (grid1.coords t) := (hcond1_0 t).mpr h0
    have hcB : ¬cond1_1 (grid1.coords t) := fun h => by have := (hcond1_1 t).mp h; omega
    rw [Dat.leavesExact_idle (dat1 V c) 4 t (idleAt1_4_A t hcA hcB) (noFlush1_4_A t hcA hcB)]
    rw [scrAt_A V c t h0]
    unfold sA_0 sA_1; (try dsimp only)
    have hΦ : (dat1 V c).Φ t.castSucc ⊢ iprop((((∃ d, owns (c : Thread nD τ) scL fullShare d) ∗ (∃ d, owns (c : Thread nD τ) scAcc fullShare d)) ∗ restBut (F := F) c) ∗ (∃ r, prngReg c r)) := by
      by_cases hz : t.val = 0
      · rw [PhiS_castSucc V c t, PhiS_zero V c _ _ hz, PhiA1_eq]; try exact Idealize.SL.BI.Entails.refl _
      · rw [PhiS_castSucc V c t, PhiS_pos V c _ _ hz]
        iintro ⟨⟨⟨HS0, HS1⟩, Hrest⟩, Hg⟩
        isplitl [HS0 HS1 Hrest]
        · isplitl [HS0 HS1]
          · isplitl [HS0]; · iexists _; iexact HS0
            iexists _; iexact HS1
          iexact Hrest
        iexact Hg
    iintro ⟨HΦ, Ho, ⟨%d0, H0⟩, ⟨%d1, H1⟩, ⟨%d2, H2⟩, ⟨%d3, H3⟩, ⟨%d4, H4⟩⟩
    ihave HΦ' := hΦ $$ HΦ
    icases HΦ' with ⟨⟨⟨HS0, HS1⟩, Hrest⟩, Hg⟩
    iapply ((runA V c t h0).2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverA_0 V c t h0)
          · unfold owns; iexists _; isplitr
            swap; · iexact HS1
            ipureintro; exact View.read_writes_of_cover _ _ _ _ _ (scoverA_1 V c t h0)
        iexact Hrest
      iexact Hg
    isplitl [Ho]; · iexact Ho
    isplitl [H0]; · iexact H0
    isplitl [H1]; · iexact H1
    isplitl [H2]; · iexact H2
    isplitl [H3]; · iexact H3
    iexists _; iexact H4
  · have hcA : ¬cond1_0 (grid1.coords t) := fun h => h0 ((hcond1_0 t).mp h)
    have hcB : cond1_1 (grid1.coords t) := (hcond1_1 t).mpr (by omega)
    have hz : t.val ≠ 0 := fun h => h0 (by rw [h])
    rw [show (dat1 V c).leavesExact 4 t = owns (c : Thread nD τ) (ms1_4 t) fullShare ((dat1 V c).after 4 t) from by
      unfold Dat.leavesExact; rw [liveAt1_4_B t hcA hcB], after1_4]
    rw [scrAt_B V c t h0, outAt_B V c t h0]
    unfold sB_0 sB_1 outB_4; (try dsimp only)
    rw [PhiS_castSucc V c t, PhiS_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runB V c t h0 _ _).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scoverB_0 V c t h0 _ _)
          · unfold owns; iexists _; isplitr
            swap; · iexact HS1
            ipureintro; exact View.read_writes_of_cover _ _ _ _ _ (scoverB_1 V c t h0 _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB_4 V c t h0 _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives it back: the accumulators' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

end Cert.KernelIdeal.R1

end
-- ==== Proof.KIMain.lean ====
/-
  The whole program as a run.  @main is: host operations (reshape and narrow the states, transpose and narrow the
  weights and the adjacency), the projection kernel call, host operations (reshape q, k, v back to batches), the
  attention kernel call.  The contents of every unscoped buffer are followed through these four items: a host stretch
  applies its operations; a kernel call replaces its windows' arrays by what its write-backs leave and keeps every
  other buffer.  Every weakly fair execution terminates without fault, and at the end every unscoped buffer holds
  the last contents of that fold: the arguments what they held at launch, the result array what the attention call's
  write-backs left.
-/
import proofs.«105555_j55413668053098_1_alg».proof.Proof.KIRegion0
import proofs.«105555_j55413668053098_1_alg».proof.Proof.KIFrame1
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the projection call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection call: its arrays at what the write-backs leave, every other buffer as entered. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second host stretch (the attention call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention call. -/
def W4 (c : Dev nD) : Valuation τ sig (Elt F) :=
  Pipeline.withArrays spec1 c (W3 m ρ c) fun w => (R1.dat1 (V3 m ρ) c).arrAt w cfg1.N
theorem W4_arr (c : Dev nD) (w : Fin cfg1.W) :
    W4 m ρ c (Proc.devRef .tc (Pipeline.arrRef spec1 w)) = (R1.dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (R1.dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### No item writes an argument: no host operation's result is one, and no kernel call stages one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
/-- Each call's proof data at the contents its region is entered from. -/
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The kernel calls as segments -/

set_option backward.isDefEq.respectTransparency.types false in
/-- The kernel call 0 as a segment: entered from every unscoped buffer at the contents before it, left at the
    contents after it.  Its windows' arrays are split out of the unscoped buffers and put back at what the write-backs
    leave; the generator register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The kernel call 1 as a segment: entered from every unscoped buffer at the contents before it, left at the
    contents after it.  Its windows' arrays are split out of the unscoped buffers and put back at what the write-backs
    leave; the generator register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (R1.hin1 (V3 m ρ) c)
    unfold Pipeline.ΦA
    iintro ⟨Hp, -, Hr⟩
    isplitl [Hr]; · iexact Hr
    iexact Hp
  hout c := by
    rw [Pipeline.ownSems0_none]
    refine (R1.hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Run

end
-- ==== Proof.Spec.lean ====
/-
  The mathematics both programs compute, stated once over the argument arrays as functions into the extended reals.

  With x the neuron states (batch b, position n, feature d) and W a 512 x 512 weight, the projection is
  (x Wᵀ)[b,n,e] = Σ_d x[b,n,d] · W[e,d].  The masked score of query position n against key position m is
  adj[m,n] · Σ_e q[b,n,e] · k[b,m,e]  (the mask is the transposed adjacency).  Each query row is normalised by the
  Euclidean norm of its masked scores and then combined with the values.  The reference divides every masked score
  by the square root of the row's sum of squares and then sums against the values; the kernel sums the unnormalised
  scores against the values and multiplies once by the reciprocal square root of the row's sum of squares.
-/
import Idealize.ShloMosaic.PureOps.Ideal
import Idealize.ShloMosaic.Lib.ValueIdx

noncomputable section

namespace Cert.Spec

open Idealize.ShloMosaic Idealize.ShloMosaic.ValueIdx

/-- Neuron states and the result: 8 x 2048 x 512. -/
abbrev Arr3 : Type := (⟨3, ![8, 2048, 512]⟩ : Shape).Idx → EReal
/-- The adjacency matrix: 2048 x 2048. -/
abbrev ArrN : Type := (⟨2, ![2048, 2048]⟩ : Shape).Idx → EReal
/-- A projection weight: 512 x 512. -/
abbrev ArrD : Type := (⟨2, ![512, 512]⟩ : Shape).Idx → EReal

/-- The linear projection x Wᵀ at batch b, position n, output feature e. -/
def proj (x : Arr3) (w : ArrD) (b : Fin 8) (n : Fin 2048) (e : Fin 512) : EReal :=
  ∑ d : Fin 512, x (ix3 b n d) * w (ix2 e d)

/-- The raw score of query position n against key position m: the inner product of their projections. -/
def score (x : Arr3) (wq wk : ArrD) (b : Fin 8) (n m : Fin 2048) : EReal :=
  ∑ e : Fin 512, proj x wq b n e * proj x wk b m e

/-- The masked score: the transposed adjacency entry times the raw score. -/
def rel (x : Arr3) (adj : ArrN) (wq wk : ArrD) (b : Fin 8) (n m : Fin 2048) : EReal :=
  adj (ix2 m n) * score x wq wk b n m

/-- The sum of squares of a query row's masked scores. -/
def sumsq (x : Arr3) (adj : ArrN) (wq wk : ArrD) (b : Fin 8) (n : Fin 2048) : EReal :=
  ∑ m : Fin 2048, rel x adj wq wk b n m * rel x adj wq wk b n m

/-- The reference's result at (b, n, d): every masked score divided by the row's norm, then summed against the values. -/
def refAt (x : Arr3) (adj : ArrN) (wq wk wv : ArrD) (b : Fin 8) (n : Fin 2048) (d : Fin 512) : EReal :=
  ∑ m : Fin 2048, Ideal.div (rel x adj wq wk b n m) (Ideal.sqrt (sumsq x adj wq wk b n)) * proj x wv b m d

/-- The kernel's result at (b, n, d): the unnormalised sum against the values, times the reciprocal norm of the row. -/
def kerAt (x : Arr3) (adj : ArrN) (wq wk wv : ArrD) (b : Fin 8) (n : Fin 2048) (d : Fin 512) : EReal :=
  (∑ m : Fin 2048, rel x adj wq wk b n m * proj x wv b m d) * Ideal.rsqrt (sumsq x adj wq wk b n)

/-- The reference's result array. -/
def Gref (x : Arr3) (adj : ArrN) (wq wk wv : ArrD) : Arr3 := fun i => refAt x adj wq wk wv (i 0) (i 1) (i 2)
/-- The kernel's result array. -/
def Gker (x : Arr3) (adj : ArrN) (wq wk wv : ArrD) : Arr3 := fun i => kerAt x adj wq wk wv (i 0) (i 1) (i 2)

end Cert.Spec

end
-- ==== Proof.KIVal0.lean ====
/- The value of the first kernel call's three outputs at the ideal instance (floats are extended reals): each grid
   point's payload read at an index is the row-by-column sum of the activations' block against a weight; the blocks are
   rows t*1024 … t*1024+1023 of the activations and the whole weights; the sixteen row blocks written back cover each
   output array, so each output ends as ONE function of the arrays the call reads: row r, column e is the sum over d of
   the activations' [r, d] times the weight's [d, e]. -/
import proofs.«105555_j55413668053098_1_alg».proof.Proof.KIRegion0
import proofs.«105555_j55413668053098_1_alg».proof.Proof.Spec
import Idealize.ShloMosaic.Lib.ValueIdx
import Idealize.ShloMosaic.Lib.Pipeline.Value
import Idealize.ShloMosaic.PureOps.Ideal.Laws
import Idealize.ShloMosaic.Lib.StableHlo.Run
import Idealize.ShloMosaic.Lib.ValueLayout

set_option maxRecDepth 16384

noncomputable section

namespace Cert.KernelIdeal.Val0

open Cert.KernelIdeal Cert.KernelIdeal.Gen
open Idealize.ShloMosaic Idealize.ShloMosaic.TcCoe Idealize.ShloMosaic.ValueIdx
open Idealize.SL.Sem
open Idealize.ShloMosaic.Pipeline (Dat)

/-- The zero offsets of a whole-buffer rectangle, as a constant function. -/
theorem hz : (![0, 0] : Fin 2 → Nat) = fun _ => 0 := funext fun a => by fin_cases a <;> rfl

/-- The contraction of a 1024x512 block with a 512x512 matrix into a zero accumulator, at row p and column q: the sum over
    the shared axis of the block's row entry times the matrix's column entry. -/
theorem mm_apply (x : FVec Ideal S1024x512 .bf16) (w : FVec Ideal S512x512 .bf16) (p : Fin 1024) (q : Fin 512) :
    FloatOps.matmul dot_S1024x512_S512x512_S1024x512_1_0_0_1_n_n none x w (constant S1024x512 .f32 0x00000000#32) (ix2 p q)
      = ∑ k : Fin 512, x (ix2 p k) * w (ix2 k q) := by
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p q) ((ValueIdx.contrEquiv1 dot_S1024x512_S512x512_S1024x512_1_0_0_1_n_n 512 rfl rfl).symm k) = ix2 p k := funext fun a => Fin.ext (by
    match a with
    | ⟨0, _⟩ =>
      show (dot_S1024x512_S512x512_S1024x512_1_0_0_1_n_n.lhsIdx (ix2 p q) _ 0).val = p.val
      unfold DotDims.lhsIdx
      rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
      rfl
    | ⟨1, _⟩ => exact (dot_S1024x512_S512x512_S1024x512_1_0_0_1_n_n.lhsIdx_val_of_single rfl (ix2 p q) _).trans hk)
  have er : dot_S1024x512_S512x512_S1024x512_1_0_0_1_n_n.rhsIdx (ix2 p q) ((ValueIdx.contrEquiv1 dot_S1024x512_S512x512_S1024x512_1_0_0_1_n_n 512 rfl rfl).symm k) = ix2 k q := funext fun a => Fin.ext (by
    match a with
    | ⟨0, _⟩ => exact (dot_S1024x512_S512x512_S1024x512_1_0_0_1_n_n.rhsIdx_val_of_single rfl (ix2 p q) _).trans hk
    | ⟨1, _⟩ =>
      show (dot_S1024x512_S512x512_S1024x512_1_0_0_1_n_n.rhsIdx (ix2 p q) _ 1).val = q.val
      unfold DotDims.rhsIdx
      rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
      rfl)
  rw [el, er]

/-- The first output's payload at row p and column q: the block's row against the weight's column. -/
theorem pay2_apply (x : Vec Ideal S1024x512 .bf16) (w : Vec Ideal S512x512 .bf16) (p : Fin 1024) (q : Fin 512) :
    k0_pay2 (F := Ideal) x w (ix2 p q) = ∑ k : Fin 512, x (ix2 p k) * w (ix2 k q) := by
  unfold k0_pay2 k0_pay1
  simp only [shapeCast_self]
  exact mm_apply x w p q
/-- The second output's payload, likewise. -/
theorem pay3_apply (x : Vec Ideal S1024x512 .bf16) (w : Vec Ideal S512x512 .bf16) (p : Fin 1024) (q : Fin 512) :
    k0_pay3 (F := Ideal) x w (ix2 p q) = ∑ k : Fin 512, x (ix2 p k) * w (ix2 k q) := by
  unfold k0_pay3 k0_pay1
  simp only [shapeCast_self]
  exact mm_apply x w p q
/-- The third output's payload, likewise. -/
theorem pay4_apply (x : Vec Ideal S1024x512 .bf16) (w : Vec Ideal S512x512 .bf16) (p : Fin 1024) (q : Fin 512) :
    k0_pay4 (F := Ideal) x w (ix2 p q) = ∑ k : Fin 512, x (ix2 p k) * w (ix2 k q) := by
  unfold k0_pay4 k0_pay1
  simp only [shapeCast_self]
  exact mm_apply x w p q

/-! ## From blocks to the arrays -/

/-- What each output array ends holding, as a function of the activations X and a weight W read as whole arrays:
    row r, column e is the sum over d of X[r, d] * W[d, e]. -/
def GP (X : S16384x512.Idx → EReal) (W : S512x512.Idx → EReal) : S16384x512.Idx → EReal :=
  fun i => ∑ d : Fin 512, X (ix2 (i 0) d) * W (ix2 d (i 1))

/-- A payload that is the row-by-column sum on its block, on a block that is rows T*1024 … T*1024+1023 of X and a weight
    block that is all of W, is the array function at the index sitting at that row offset. -/
theorem pay_block (pay : Vec Ideal S1024x512 .bf16 → Vec Ideal S512x512 .bf16 → FVec Ideal S1024x512 .bf16)
    (hpay : ∀ x w (p : Fin 1024) (q : Fin 512), pay x w (ix2 p q) = ∑ k : Fin 512, x (ix2 p k) * w (ix2 k q))
    (X : S16384x512.Idx → EReal) (W : S512x512.Idx → EReal)
    (xb : Vec Ideal S1024x512 .bf16) (wb : Vec Ideal S512x512 .bf16) (T : Nat)
    (hx : ∀ (p : Fin 1024) (k : Fin 512) (h : T * 1024 + p.val < 16384), xb (ix2 p k) = X (ix2 ⟨T * 1024 + p.val, h⟩ k))
    (hw : ∀ (k q : Fin 512), wb (ix2 k q) = W (ix2 k q))
    (y : S1024x512.Idx) (i : S16384x512.Idx) (hi0 : (i 0).val = T * 1024 + (y 0).val) (hi1 : (i 1).val = (y 1).val) :
    pay xb wb y = GP X W i := by
  obtain ⟨p, q, rfl⟩ : ∃ (p : Fin 1024) (q : Fin 512), y = ix2 p q := ⟨y 0, y 1, eq_ix2 y⟩
  obtain ⟨r, e, rfl⟩ : ∃ (r : Fin 16384) (e : Fin 512), i = ix2 r e := ⟨i 0, i 1, eq_ix2 i⟩
  have hr : r.val = T * 1024 + p.val := hi0
  have he : e = q := Fin.ext hi1
  subst he
  rw [hpay]
  unfold GP
  refine Finset.sum_congr rfl fun k _ => ?_
  have hlt : T * 1024 + p.val < 16384 := hr ▸ r.isLt
  have hr' : r = ⟨T * 1024 + p.val, hlt⟩ := Fin.ext hr
  rw [hx p k hlt, hw k e]
  subst hr'
  rfl

/-- The block indices of the call's windows at a grid point: the activations' and the outputs' blocks are row block t,
    the weights' the one whole block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- The activations' block at point t is rows t*1024 … t*1024+1023 of the activations. -/
theorem iblk0_0_apply (c : Dev nD) (t : Fin cfg0.N) (p : Fin 1024) (k : Fin 512) (h : t.val * 1024 + p.val < 16384) :
    (R0.iblk0 (F := Ideal) V c 0 t : Vec Ideal S1024x512 .bf16) (ix2 p k) = (V c main_v1 : S16384x512.Idx → EReal) (ix2 ⟨t.val * 1024 + p.val, h⟩ k) := by
  obtain ⟨e0, e1, -⟩ := idx_facts t
  unfold R0.iblk0
  rw [View.read_apply]
  show (V c main_v1 : S16384x512.Idx → EReal) _ = (V c main_v1 : S16384x512.Idx → EReal) _
  congr 1
  funext a
  apply Fin.ext
  match a with
  | ⟨0, _⟩ => show win0_0.index t (0 : Fin 2) * 1024 + 1 * p.val = t.val * 1024 + p.val; rw [e0]; omega
  | ⟨1, _⟩ => show win0_0.index t (1 : Fin 2) * 512 + 1 * k.val = k.val; rw [e1]; omega

/-- The first weight's block at any point is the whole weight. -/
theorem iblk0_1_apply (c : Dev nD) (t : Fin cfg0.N) (k q : Fin 512) :
    (R0.iblk0 (F := Ideal) V c 1 t : Vec Ideal S512x512 .bf16) (ix2 k q) = (V c main_v3 : S512x512.Idx → EReal) (ix2 k q) := by
  obtain ⟨-, -, e0, e1, -⟩ := idx_facts t
  unfold R0.iblk0
  rw [View.read_apply]
  show (V c main_v3 : S512x512.Idx → EReal) _ = (V c main_v3 : S512x512.Idx → EReal) _
  congr 1
  funext a
  apply Fin.ext
  match a with
  | ⟨0, _⟩ => show win0_1.index t (0 : Fin 2) * 512 + 1 * k.val = k.val; rw [e0]; omega
  | ⟨1, _⟩ => show win0_1.index t (1 : Fin 2) * 512 + 1 * q.val = q.val; rw [e1]; omega
/-- The second weight's block at any point is the whole weight. -/
theorem iblk0_2_apply (c : Dev nD) (t : Fin cfg0.N) (k q : Fin 512) :
    (R0.iblk0 (F := Ideal) V c 2 t : Vec Ideal S512x512 .bf16) (ix2 k q) = (V c main_v5 : S512x512.Idx → EReal) (ix2 k q) := by
  obtain ⟨-, -, -, -, e0, e1, -⟩ := idx_facts t
  unfold R0.iblk0
  rw [View.read_apply]
  show (V c main_v5 : S512x512.Idx → EReal) _ = (V c main_v5 : S512x512.Idx → EReal) _
  congr 1
  funext a
  apply Fin.ext
  match a with
  | ⟨0, _⟩ => show win0_2.index t (0 : Fin 2) * 512 + 1 * k.val = k.val; rw [e0]; omega
  | ⟨1, _⟩ => show win0_2.index t (1 : Fin 2) * 512 + 1 * q.val = q.val; rw [e1]; omega
/-- The third weight's block at any point is the whole weight. -/
theorem iblk0_3_apply (c : Dev nD) (t : Fin cfg0.N) (k q : Fin 512) :
    (R0.iblk0 (F := Ideal) V c 3 t : Vec Ideal S512x512 .bf16) (ix2 k q) = (V c main_v7 : S512x512.Idx → EReal) (ix2 k q) := by
  obtain ⟨-, -, -, -, -, -, e0, e1, -⟩ := idx_facts t
  unfold R0.iblk0
  rw [View.read_apply]
  show (V c main_v7 : S512x512.Idx → EReal) _ = (V c main_v7 : S512x512.Idx → EReal) _
  congr 1
  funext a
  apply Fin.ext
  match a with
  | ⟨0, _⟩ => show win0_3.index t (0 : Fin 2) * 512 + 1 * k.val = k.val; rw [e0]; omega
  | ⟨1, _⟩ => show win0_3.index t (1 : Fin 2) * 512 + 1 * q.val = q.val; rw [e1]; omega

/-- What point t writes back of the first output is block t of the array function of the activations and the first weight. -/
theorem flushedQ_eq (c : Dev nD) (t : Fin cfg0.N) :
    (R0.dat0 (F := Ideal) V c).flushed 4 t
      = ((cfg0.win 4).blk t).view.read (Elt Ideal) (GP (V c main_v1) (V c main_v3)) := by
  show (cfg0.win 4).cut (grid0.coords t) ((R0.dat0 (F := Ideal) V c).after 4 t) = _
  rw [R0.after0_4]
  unfold R0.outQ
  rw [View.canon_unit_zero hz]
  simp only [View.ld_unit_zero (S := S1024x512) hz, View.ld_unit_zero (S := S512x512) hz]
  obtain ⟨-, -, -, -, -, -, -, -, e0, e1, -⟩ := idx_facts t
  funext j
  show k0_pay2 (F := Ideal) (R0.iblk0 V c 0 t) (R0.iblk0 V c 1 t) ((cfg0.win 4).xinj (grid0.coords t) j)
    = GP (V c main_v1) (V c main_v3) (((cfg0.win 4).blk t).view.emb j)
  refine pay_block _ pay2_apply (V c main_v1) (V c main_v3) (R0.iblk0 V c 0 t) (R0.iblk0 V c 1 t) t.val
    (fun p k h => iblk0_0_apply V c t p k h) (fun k q => iblk0_1_apply V c t k q) _ _ ?_ ?_
  · show win0_4.index t (0 : Fin 2) * 1024 + 1 * (j 0).val = t.val * 1024 + (j 0).val; rw [e0]; omega
  · show win0_4.index t (1 : Fin 2) * 512 + 1 * (j 1).val = (j 1).val; rw [e1]; omega

/-- What point t writes back of the second output is block t of the array function of the activations and the second weight. -/
theorem flushedK_eq (c : Dev nD) (t : Fin cfg0.N) :
    (R0.dat0 (F := Ideal) V c).flushed 5 t
      = ((cfg0.win 5).blk t).view.read (Elt Ideal) (GP (V c main_v1) (V c main_v5)) := by
  show (cfg0.win 5).cut (grid0.coords t) ((R0.dat0 (F := Ideal) V c).after 5 t) = _
  rw [R0.after0_5]
  unfold R0.outK
  rw [View.canon_unit_zero hz]
  simp only [View.ld_unit_zero (S := S1024x512) hz, View.ld_unit_zero (S := S512x512) hz]
  obtain ⟨-, -, -, -, -, -, -, -, -, -, e0, e1, -⟩ := idx_facts t
  funext j
  show k0_pay3 (F := Ideal) (R0.iblk0 V c 0 t) (R0.iblk0 V c 2 t) ((cfg0.win 5).xinj (grid0.coords t) j)
    = GP (V c main_v1) (V c main_v5) (((cfg0.win 5).blk t).view.emb j)
  refine pay_block _ pay3_apply (V c main_v1) (V c main_v5) (R0.iblk0 V c 0 t) (R0.iblk0 V c 2 t) t.val
    (fun p k h => iblk0_0_apply V c t p k h) (fun k q => iblk0_2_apply V c t k q) _ _ ?_ ?_
  · show win0_5.index t (0 : Fin 2) * 1024 + 1 * (j 0).val = t.val * 1024 + (j 0).val; rw [e0]; omega
  · show win0_5.index t (1 : Fin 2) * 512 + 1 * (j 1).val = (j 1).val; rw [e1]; omega

/-- What point t writes back of the third output is block t of the array function of the activations and the third weight. -/
theorem flushedV_eq (c : Dev nD) (t : Fin cfg0.N) :
    (R0.dat0 (F := Ideal) V c).flushed 6 t
      = ((cfg0.win 6).blk t).view.read (Elt Ideal) (GP (V c main_v1) (V c main_v7)) := by
  show (cfg0.win 6).cut (grid0.coords t) ((R0.dat0 (F := Ideal) V c).after 6 t) = _
  rw [R0.after0_6]
  unfold R0.outV
  rw [View.canon_unit_zero hz]
  simp only [View.ld_unit_zero (S := S1024x512) hz, View.ld_unit_zero (S := S512x512) hz]
  obtain ⟨-, -, -, -, -, -, -, -, -, -, -, -, e0, e1⟩ := idx_facts t
  funext j
  show k0_pay4 (F := Ideal) (R0.iblk0 V c 0 t) (R0.iblk0 V c 3 t) ((cfg0.win 6).xinj (grid0.coords t) j)
    = GP (V c main_v1) (V c main_v7) (((cfg0.win 6).blk t).view.emb j)
  refine pay_block _ pay4_apply (V c main_v1) (V c main_v7) (R0.iblk0 V c 0 t) (R0.iblk0 V c 3 t) t.val
    (fun p k h => iblk0_0_apply V c t p k h) (fun k q => iblk0_3_apply V c t k q) _ _ ?_ ?_
  · show win0_6.index t (0 : Fin 2) * 1024 + 1 * (j 0).val = t.val * 1024 + (j 0).val; rw [e0]; omega
  · show win0_6.index t (1 : Fin 2) * 512 + 1 * (j 1).val = (j 1).val; rw [e1]; omega

/-- An index of the first output lies in point t's block iff each coordinate lies in the block's range on its axis. -/
theorem mem_blk4 (t : Fin cfg0.N) (i : S16384x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v10_0).slice (win0_4.rect t)).set ↔ _
  rw [View.set_slice_whole, Rect.mem_set_unit]
  exact Iff.rfl
/-- The same for the second output. -/
theorem mem_blk5 (t : Fin cfg0.N) (i : S16384x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v10_1).slice (win0_5.rect t)).set ↔ _
  rw [View.set_slice_whole, Rect.mem_set_unit]
  exact Iff.rfl
/-- The same for the third output. -/
theorem mem_blk6 (t : Fin cfg0.N) (i : S16384x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v10_2).slice (win0_6.rect t)).set ↔ _
  rw [View.set_slice_whole, Rect.mem_set_unit]
  exact Iff.rfl

/-- The grid point whose row block holds row r: r / 1024. -/
def ptOf (i : S16384x512.Idx) : Fin cfg0.N :=
  ⟨(i 0).val / 1024, by have h : (i 0).val < 16384 := (i 0).isLt; rw [show cfg0.N = 16 from N_0]; omega⟩

/-- Every index of the first output lies in the block of the point its row selects, and that point writes back. -/
theorem cover4 (i : S16384x512.Idx) : ∃ t : Fin cfg0.N, (cfg0.win 4).flush t = true ∧ i ∈ ((cfg0.win 4).blk t).view.set := by
  refine ⟨ptOf i, flush0_4 _, ?_⟩
  rw [mem_blk4]
  obtain ⟨-, -, -, -, -, -, -, -, e0, e1, -⟩ := idx_facts (ptOf i)
  have h0 : (i 0).val < 16384 := (i 0).isLt
  have h1 : (i 1).val < 512 := (i 1).isLt
  have hp : (ptOf i).val = (i 0).val / 1024 := rfl
  intro a
  match a with
  | ⟨0, _⟩ => show win0_4.index (ptOf i) (0 : Fin 2) * 1024 ≤ (i 0).val ∧ (i 0).val < win0_4.index (ptOf i) (0 : Fin 2) * 1024 + 1024; rw [e0, hp]; omega
  | ⟨1, _⟩ => show win0_4.index (ptOf i) (1 : Fin 2) * 512 ≤ (i 1).val ∧ (i 1).val < win0_4.index (ptOf i) (1 : Fin 2) * 512 + 512; rw [e1]; omega
/-- The same for the second output. -/
theorem cover5 (i : S16384x512.Idx) : ∃ t : Fin cfg0.N, (cfg0.win 5).flush t = true ∧ i ∈ ((cfg0.win 5).blk t).view.set := by
  refine ⟨ptOf i, flush0_5 _, ?_⟩
  rw [mem_blk5]
  obtain ⟨-, -, -, -, -, -, -, -, -, -, e0, e1, -⟩ := idx_facts (ptOf i)
  have h0 : (i 0).val < 16384 := (i 0).isLt
  have h1 : (i 1).val < 512 := (i 1).isLt
  have hp : (ptOf i).val = (i 0).val / 1024 := rfl
  intro a
  match a with
  | ⟨0, _⟩ => show win0_5.index (ptOf i) (0 : Fin 2) * 1024 ≤ (i 0).val ∧ (i 0).val < win0_5.index (ptOf i) (0 : Fin 2) * 1024 + 1024; rw [e0, hp]; omega
  | ⟨1, _⟩ => show win0_5.index (ptOf i) (1 : Fin 2) * 512 ≤ (i 1).val ∧ (i 1).val < win0_5.index (ptOf i) (1 : Fin 2) * 512 + 512; rw [e1]; omega
/-- The same for the third output. -/
theorem cover6 (i : S16384x512.Idx) : ∃ t : Fin cfg0.N, (cfg0.win 6).flush t = true ∧ i ∈ ((cfg0.win 6).blk t).view.set := by
  refine ⟨ptOf i, flush0_6 _, ?_⟩
  rw [mem_blk6]
  obtain ⟨-, -, -, -, -, -, -, -, -, -, -, -, e0, e1⟩ := idx_facts (ptOf i)
  have h0 : (i 0).val < 16384 := (i 0).isLt
  have h1 : (i 1).val < 512 := (i 1).isLt
  have hp : (ptOf i).val = (i 0).val / 1024 := rfl
  intro a
  match a with
  | ⟨0, _⟩ => show win0_6.index (ptOf i) (0 : Fin 2) * 1024 ≤ (i 0).val ∧ (i 0).val < win0_6.index (ptOf i) (0 : Fin 2) * 1024 + 1024; rw [e0, hp]; omega
  | ⟨1, _⟩ => show win0_6.index (ptOf i) (1 : Fin 2) * 512 ≤ (i 1).val ∧ (i 1).val < win0_6.index (ptOf i) (1 : Fin 2) * 512 + 512; rw [e1]; omega

/-- The array function read at an index: the sum over the shared axis. -/
theorem GP_apply (X : S16384x512.Idx → EReal) (W : S512x512.Idx → EReal) (i : S16384x512.Idx) :
    GP X W i = ∑ d : Fin 512, X (ix2 (i 0) d) * W (ix2 d (i 1)) := rfl

/-- The first output array after all sixteen points: row r, column e is the sum over d of the activations' [r, d] times
    the first transposed weight's [d, e]. -/
theorem outQ_final (c : Dev nD) : (R0.dat0 (F := Ideal) V c).arrAt 4 cfg0.N = GP (V c main_v1) (V c main_v3) :=
  (R0.dat0 (F := Ideal) V c).arrAt_eq_of_cover 4 (GP (V c main_v1) (V c main_v3)) (fun t _ => flushedQ_eq V c t) cover4
/-- The second output array after all sixteen points, likewise with the second transposed weight. -/
theorem outK_final (c : Dev nD) : (R0.dat0 (F := Ideal) V c).arrAt 5 cfg0.N = GP (V c main_v1) (V c main_v5) :=
  (R0.dat0 (F := Ideal) V c).arrAt_eq_of_cover 5 (GP (V c main_v1) (V c main_v5)) (fun t _ => flushedK_eq V c t) cover5
/-- The third output array after all sixteen points, likewise with the third transposed weight. -/
theorem outV_final (c : Dev nD) : (R0.dat0 (F := Ideal) V c).arrAt 6 cfg0.N = GP (V c main_v1) (V c main_v7) :=
  (R0.dat0 (F := Ideal) V c).arrAt_eq_of_cover 6 (GP (V c main_v1) (V c main_v7)) (fun t _ => flushedV_eq V c t) cover6

end Cert.KernelIdeal.Val0

end
-- ==== Proof.KIVal1Pieces.lean ====
/-
  What the attention body's stores leave, read as the body's own arithmetic.  At a first-key-tile point the
  accumulators end at this tile's contribution added to the zero fill just stored; at a last-key-tile point they end at
  this tile's contribution added to what they held, and the output block is the accumulated output scaled by the
  reciprocal square root of the accumulated sum of squares.
-/
import proofs.«105555_j55413668053098_1_alg».proof.Proof.KIPieces1
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- After a first-key-tile point the sum-of-squares accumulator holds the zero fill plus this tile's row sums of squares. -/
theorem sA_0_eq (c : Dev nD) (t : Fin cfg1.N) (h0 : t.val % 2 = 0) :
    sA_0 V c t h0 = k1_pay5 (iblk1 V c 0 t) (iblk1 V c 1 t) (iblk1 V c 3 t) (k1_pay2 (F := F)) := by
  unfold sA_0
  rw [View.read_writes_eq_canon _ _ _ (scoverA_0 V c t h0)]
  unfold runA kernelRun1_A
  dsimp only
  sl_unfold_words
  rw [View.canon_cons_unit_zero (S := S1024x1) hz2, View.readCov_unit_zero (S := S1024x1) _ hz2]
  simp only [View.readAt_eq_ld, (hs1_0 t).read_unread, (hs1_1 t).read_unread, (hs1_2 t).read_unread, (hs1_3 t).read_unread, (Memref.isWhole_whole cc1_scratch0).read_unread, (Memref.isWhole_whole cc1_scratch1).read_unread, View.ld_unit_zero (S := S1x1024x512) hz3, View.ld_unit_zero (S := S1024x1024) hz2, View.ld_unit_zero (S := S1024x1) hz2, View.ld_unit_zero (S := S1024x512) hz2]

/-- … and the output accumulator the zero fill plus this tile's scores against its values. -/
theorem sA_1_eq (c : Dev nD) (t : Fin cfg1.N) (h0 : t.val % 2 = 0) :
    sA_1 V c t h0 = k1_pay6 (iblk1 V c 0 t) (iblk1 V c 1 t) (iblk1 V c 2 t) (iblk1 V c 3 t) (k1_pay3 (F := F)) := by
  unfold sA_1
  rw [View.read_writes_eq_canon _ _ _ (scoverA_1 V c t h0)]
  unfold runA kernelRun1_A
  dsimp only
  sl_unfold_words
  rw [View.canon_cons_unit_zero (S := S1024x512) hz2, View.readCov_unit_zero (S := S1024x512) _ hz2]
  simp only [View.readAt_eq_ld, (hs1_0 t).read_unread, (hs1_1 t).read_unread, (hs1_2 t).read_unread, (hs1_3 t).read_unread, (Memref.isWhole_whole cc1_scratch0).read_unread, (Memref.isWhole_whole cc1_scratch1).read_unread, View.ld_unit_zero (S := S1x1024x512) hz3, View.ld_unit_zero (S := S1024x1024) hz2, View.ld_unit_zero (S := S1024x1) hz2, View.ld_unit_zero (S := S1024x512) hz2]

/-- After a last-key-tile point each accumulator holds what it held plus this tile's contribution. -/
theorem sB_0_eq (c : Dev nD) (t : Fin cfg1.N) (h0 : ¬t.val % 2 = 0) (xs0 : Vec F S1024x1 .f32) (xs1 : Vec F S1024x512 .f32) :
    sB_0 V c t h0 xs0 xs1 = k1_pay5 (iblk1 V c 0 t) (iblk1 V c 1 t) (iblk1 V c 3 t) xs0 := by
  unfold sB_0
  rw [View.read_writes_eq_canon _ _ _ (scoverB_0 V c t h0 xs0 xs1)]
  unfold runB kernelRun1_B
  dsimp only
  sl_unfold_words
  rw [View.canon_unit_zero hz2]
  simp only [View.readAt_eq_ld, (hs1_0 t).read_unread, (hs1_1 t).read_unread, (hs1_2 t).read_unread, (hs1_3 t).read_unread, (Memref.isWhole_whole cc1_scratch0).read_unread, (Memref.isWhole_whole cc1_scratch1).read_unread, View.ld_unit_zero (S := S1x1024x512) hz3, View.ld_unit_zero (S := S1024x1024) hz2, View.ld_unit_zero (S := S1024x1) hz2, View.ld_unit_zero (S := S1024x512) hz2]
theorem sB_1_eq (c : Dev nD) (t : Fin cfg1.N) (h0 : ¬t.val % 2 = 0) (xs0 : Vec F S1024x1 .f32) (xs1 : Vec F S1024x512 .f32) :
    sB_1 V c t h0 xs0 xs1 = k1_pay6 (iblk1 V c 0 t) (iblk1 V c 1 t) (iblk1 V c 2 t) (iblk1 V c 3 t) xs1 := by
  unfold sB_1
  rw [View.read_writes_eq_canon _ _ _ (scoverB_1 V c t h0 xs0 xs1)]
  unfold runB kernelRun1_B
  dsimp only
  sl_unfold_words
  rw [View.canon_unit_zero hz2]
  simp only [View.readAt_eq_ld, (hs1_0 t).read_unread, (hs1_1 t).read_unread, (hs1_2 t).read_unread, (hs1_3 t).read_unread, (Memref.isWhole_whole cc1_scratch0).read_unread, (Memref.isWhole_whole cc1_scratch1).read_unread, View.ld_unit_zero (S := S1x1024x512) hz3, View.ld_unit_zero (S := S1024x1024) hz2, View.ld_unit_zero (S := S1024x1) hz2, View.ld_unit_zero (S := S1024x512) hz2]

/-- The output block stored at a last-key-tile point: the final output accumulator times the reciprocal square root
    of the final sum-of-squares accumulator, row by row. -/
theorem outB_4_eq (c : Dev nD) (t : Fin cfg1.N) (h0 : ¬t.val % 2 = 0) (xs0 : Vec F S1024x1 .f32) (xs1 : Vec F S1024x512 .f32) :
    outB_4 V c t h0 xs0 xs1 = k1_pay1 (k1_pay5 (iblk1 V c 0 t) (iblk1 V c 1 t) (iblk1 V c 3 t) xs0)
      (k1_pay6 (iblk1 V c 0 t) (iblk1 V c 1 t) (iblk1 V c 2 t) (iblk1 V c 3 t) xs1) := by
  unfold outB_4
  rw [View.read_writes_eq_canon _ _ _ (coverB_4 V c t h0 xs0 xs1)]
  unfold runB kernelRun1_B
  dsimp only
  sl_unfold_words
  rw [View.canon_unit_zero hz3]
  simp only [View.readCov_unit_zero (S := S1024x1) _ hz2, View.readCov_unit_zero (S := S1024x512) _ hz2, View.readAt_eq_ld, (hs1_0 t).read_unread, (hs1_1 t).read_unread, (hs1_2 t).read_unread, (hs1_3 t).read_unread, (Memref.isWhole_whole cc1_scratch0).read_unread, (Memref.isWhole_whole cc1_scratch1).read_unread, View.ld_unit_zero (S := S1x1024x512) hz3, View.ld_unit_zero (S := S1024x1024) hz2, View.ld_unit_zero (S := S1024x1) hz2, View.ld_unit_zero (S := S1024x512) hz2]

end Cert.KernelIdeal.R1

end
-- ==== Proof.KIVal1Blocks.lean ====
/-
  The attention call's blocks.  Point t of the grid has batch t / 4, query tile (t / 2) mod 2 and key tile t mod 2:
  the query block is rows [qtile * 1024, qtile * 1024 + 1024) of batch t / 4, the key and value blocks rows
  [ktile * 1024, …) of the same batch, the mask block the (qtile, ktile) square.  An odd point stores the output block
  of its batch and query tile, computed from its own blocks and from those of the even point just before it.
-/
import proofs.«105555_j55413668053098_1_alg».proof.Proof.KIVal1Pieces
import proofs.«105555_j55413668053098_1_alg».proof.Proof.KIFrame1
import Idealize.ShloMosaic.Lib.Pipeline.Value
import Idealize.ShloMosaic.Lib.ValueIdx

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The windows' block indices over the grid -/

theorem idx_facts1 : ∀ t : Fin cfg1.N,
    win1_0.index t (0 : Fin 3) = t.val / 4 ∧ win1_0.index t (1 : Fin 3) = t.val / 2 % 2 ∧ win1_0.index t (2 : Fin 3) = 0
    ∧ win1_1.index t (0 : Fin 3) = t.val / 4 ∧ win1_1.index t (1 : Fin 3) = t.val % 2 ∧ win1_1.index t (2 : Fin 3) = 0
    ∧ win1_2.index t (0 : Fin 3) = t.val / 4 ∧ win1_2.index t (1 : Fin 3) = t.val % 2 ∧ win1_2.index t (2 : Fin 3) = 0
    ∧ win1_3.index t (0 : Fin 2) = t.val / 2 % 2 ∧ win1_3.index t (1 : Fin 2) = t.val % 2
    ∧ win1_4.index t (0 : Fin 3) = t.val / 4 ∧ win1_4.index t (1 : Fin 3) = t.val / 2 % 2 ∧ win1_4.index t (2 : Fin 3) = 0 :=
  (by decide +kernel : ∀ t : Fin grid1.N, _)

/-! ## Each window's block read at an index -/

/-- The query block's entry (row n, feature e) is the query array's entry at batch t/4, row qtile*1024 + n. -/
theorem blk_q (c : Dev nD) (t : Fin cfg1.N) (n : Fin 1024) (e : Fin 512) :
    (iblk1 V c 0 t : S1x1024x512.Idx → EReal) (ix3 (0 : Fin 1) n e) = (V c main_v11) (ix3 (⟨t.val / 4, by have := lt_of_lt_of_eq t.isLt (show cfg1.N = 32 from N_1); omega⟩ : Fin 8) (⟨t.val / 2 % 2 * 1024 + n.val, by omega⟩ : Fin 2048) e) := by
  have hN : t.val < 32 := lt_of_lt_of_eq t.isLt (show cfg1.N = 32 from N_1)
  obtain ⟨q0, q1, q2, k0, k1, k2, v0, v1, v2, m0, m1, o0, o1, o2⟩ := idx_facts1 t
  show V c main_v11 (((cfg1.win 0).blk t).view.emb (ix3 (0 : Fin 1) n e)) = _
  refine congrArg _ ?_
  funext a; apply Fin.ext
  match a with
  | ⟨0, _⟩ => show win1_0.index t (0 : Fin 3) * 1 + 1 * 0 = t.val / 4; omega
  | ⟨1, _⟩ => show win1_0.index t (1 : Fin 3) * 1024 + 1 * n.val = t.val / 2 % 2 * 1024 + n.val; omega
  | ⟨2, _⟩ => show win1_0.index t (2 : Fin 3) * 512 + 1 * e.val = e.val; omega
/-- The key block's entry (row m, feature e) is the key array's entry at batch t/4, row ktile*1024 + m. -/
theorem blk_k (c : Dev nD) (t : Fin cfg1.N) (n : Fin 1024) (e : Fin 512) :
    (iblk1 V c 1 t : S1x1024x512.Idx → EReal) (ix3 (0 : Fin 1) n e) = (V c main_v12) (ix3 (⟨t.val / 4, by have := lt_of_lt_of_eq t.isLt (show cfg1.N = 32 from N_1); omega⟩ : Fin 8) (⟨t.val % 2 * 1024 + n.val, by omega⟩ : Fin 2048) e) := by
  have hN : t.val < 32 := lt_of_lt_of_eq t.isLt (show cfg1.N = 32 from N_1)
  obtain ⟨q0, q1, q2, k0, k1, k2, v0, v1, v2, m0, m1, o0, o1, o2⟩ := idx_facts1 t
  show V c main_v12 (((cfg1.win 1).blk t).view.emb (ix3 (0 : Fin 1) n e)) = _
  refine congrArg _ ?_
  funext a; apply Fin.ext
  match a with
  | ⟨0, _⟩ => show win1_1.index t (0 : Fin 3) * 1 + 1 * 0 = t.val / 4; omega
  | ⟨1, _⟩ => show win1_1.index t (1 : Fin 3) * 1024 + 1 * n.val = t.val % 2 * 1024 + n.val; omega
  | ⟨2, _⟩ => show win1_1.index t (2 : Fin 3) * 512 + 1 * e.val = e.val; omega
/-- The value block likewise. -/
theorem blk_v (c : Dev nD) (t : Fin cfg1.N) (n : Fin 1024) (e : Fin 512) :
    (iblk1 V c 2 t : S1x1024x512.Idx → EReal) (ix3 (0 : Fin 1) n e) = (V c main_v13) (ix3 (⟨t.val / 4, by have := lt_of_lt_of_eq t.isLt (show cfg1.N = 32 from N_1); omega⟩ : Fin 8) (⟨t.val % 2 * 1024 + n.val, by omega⟩ : Fin 2048) e) := by
  have hN : t.val < 32 := lt_of_lt_of_eq t.isLt (show cfg1.N = 32 from N_1)
  obtain ⟨q0, q1, q2, k0, k1, k2, v0, v1, v2, m0, m1, o0, o1, o2⟩ := idx_facts1 t
  show V c main_v13 (((cfg1.win 2).blk t).view.emb (ix3 (0 : Fin 1) n e)) = _
  refine congrArg _ ?_
  funext a; apply Fin.ext
  match a with
  | ⟨0, _⟩ => show win1_2.index t (0 : Fin 3) * 1 + 1 * 0 = t.val / 4; omega
  | ⟨1, _⟩ => show win1_2.index t (1 : Fin 3) * 1024 + 1 * n.val = t.val % 2 * 1024 + n.val; omega
  | ⟨2, _⟩ => show win1_2.index t (2 : Fin 3) * 512 + 1 * e.val = e.val; omega
/-- The mask block's entry (n, m) is the mask's entry (qtile*1024 + n, ktile*1024 + m). -/
theorem blk_m (c : Dev nD) (t : Fin cfg1.N) (n m : Fin 1024) :
    (iblk1 V c 3 t : S1024x1024.Idx → EReal) (ix2 n m) = (V c main_v9) (ix2 (⟨t.val / 2 % 2 * 1024 + n.val, by omega⟩ : Fin 2048) (⟨t.val % 2 * 1024 + m.val, by omega⟩ : Fin 2048)) := by
  have hN : t.val < 32 := lt_of_lt_of_eq t.isLt (show cfg1.N = 32 from N_1)
  obtain ⟨q0, q1, q2, k0, k1, k2, v0, v1, v2, m0, m1, o0, o1, o2⟩ := idx_facts1 t
  show V c main_v9 (((cfg1.win 3).blk t).view.emb (ix2 n m)) = _
  refine congrArg _ ?_
  funext a; apply Fin.ext
  match a with
  | ⟨0, _⟩ => show win1_3.index t (0 : Fin 2) * 1024 + 1 * n.val = t.val / 2 % 2 * 1024 + n.val; omega
  | ⟨1, _⟩ => show win1_3.index t (1 : Fin 2) * 1024 + 1 * m.val = t.val % 2 * 1024 + m.val; omega
/-! ## What an odd point stores -/

/-- The output block after an odd position, over that point's blocks and those of the even position before it. -/
theorem outAt_odd (c : Dev nD) (t : Fin cfg1.N) (h0 : ¬t.val % 2 = 0) (t' : Fin cfg1.N) (ht' : t'.val = t.val - 1) :
    outAt V c t.val t.isLt
      = k1_pay1 (k1_pay5 (iblk1 V c 0 t) (iblk1 V c 1 t) (iblk1 V c 3 t) (k1_pay5 (iblk1 V c 0 t') (iblk1 V c 1 t') (iblk1 V c 3 t') (k1_pay2 (F := Ideal))))
          (k1_pay6 (iblk1 V c 0 t) (iblk1 V c 1 t) (iblk1 V c 2 t) (iblk1 V c 3 t) (k1_pay6 (iblk1 V c 0 t') (iblk1 V c 1 t') (iblk1 V c 2 t') (iblk1 V c 3 t') (k1_pay3 (F := Ideal)))) := by
  have hp : (t.val - 1) % 2 = 0 := by omega
  obtain ⟨v, hv⟩ := t'
  dsimp only at ht'
  subst ht'
  rw [outAt_B V c t h0, scrAt_prev V c t h0 hp]
  dsimp only
  rw [outB_4_eq, sA_0_eq, sA_1_eq]

/-! ## The output window's blocks tile the result array -/

theorem mem_blk4 (t : Fin cfg1.N) (i : S8x2048x512.Idx) :
    i ∈ ((cfg1.win 4).blk t).view.set ↔ ∀ a : Fin 3, win1_4.index t a * S1x1024x512.size a ≤ (i a).val ∧ (i a).val < win1_4.index t a * S1x1024x512.size a + S1x1024x512.size a := by
  show i ∈ ((View.whole main_v14).slice (win1_4.rect t)).set ↔ _
  rw [View.set_slice_whole, Rect.mem_set_unit]
  exact Iff.rfl

/-- Every (batch, query tile) pair is some odd point's. -/
theorem idx_onto4 : ∀ (b : Fin 8) (q : Fin 2), ∃ t : Fin cfg1.N, t.val % 2 = 1 ∧ win1_4.index t = ![b.val, q.val, 0] :=
  (by decide +kernel : ∀ (b : Fin 8) (q : Fin 2), ∃ t : Fin grid1.N, t.val % 2 = 1 ∧ win1_4.index t = ![b.val, q.val, 0])

/-- Every index of the result array lies in the block some write-back writes. -/
theorem cover4 (i : S8x2048x512.Idx) : ∃ t : Fin cfg1.N, (cfg1.win 4).flush t = true ∧ i ∈ ((cfg1.win 4).blk t).view.set := by
  have hi0 : (i 0).val < 8 := (i 0).isLt
  have hi1 : (i 1).val < 2048 := (i 1).isLt
  have hi2 : (i 2).val < 512 := (i 2).isLt
  obtain ⟨t, hodd, ht⟩ := idx_onto4 ⟨(i 0).val, hi0⟩ ⟨(i 1).val / 1024, by omega⟩
  have e0 : win1_4.index t (0 : Fin 3) = (i 0).val := congrFun ht 0
  have e1 : win1_4.index t (1 : Fin 3) = (i 1).val / 1024 := congrFun ht 1
  have e2 : win1_4.index t (2 : Fin 3) = 0 := congrFun ht 2
  refine ⟨t, (flush1_4 t).mpr hodd, ?_⟩
  rw [mem_blk4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1024 ≤ (i 1).val ∧ (i 1).val < win1_4.index t (1 : Fin 3) * 1024 + 1024; omega
  | ⟨2, _⟩ => show win1_4.index t (2 : Fin 3) * 512 ≤ (i 2).val ∧ (i 2).val < win1_4.index t (2 : Fin 3) * 512 + 512; omega

end Cert.KernelIdeal.R1

end
-- ==== Proof.KIPay1.lean ====
/-
  The attention kernel body's arithmetic read at an index, at the ideal values (every float an extended real, every
  float operation exact, the format changes the identity).  One key tile's masked scores are the feature-axis dot
  product of a query row and a key row times the mask entry; the carried row sums of squares and the carried output
  grow by this tile's contribution; and the final output is the accumulated output scaled, row by row, by the
  reciprocal square root of the accumulated sum of squares.
-/
import proofs.«105555_j55413668053098_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay1

open Cert.KernelIdeal Cert.KernelIdeal.Gen Idealize.ShloMosaic Idealize.ShloMosaic.ValueIdx

/-! ## Column layouts read at an index -/

/-- A column `[a, 1]` broadcast along its unit axis to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The zero fills and the final scaling -/

/-- The sum-of-squares accumulator's fill is zero at every row. -/
theorem pay2_at (n : Fin 1024) : k1_pay2 (F := Ideal) (ix2 n (0 : Fin 1)) = 0 := by
  unfold k1_pay2
  rw [shapeCast_self]
  exact Ideal.ofBits_zero_f32

/-- The output accumulator's fill is zero at every entry. -/
theorem pay3_at (n : Fin 1024) (d : Fin 512) : k1_pay3 (F := Ideal) (ix2 n d) = 0 := by
  unfold k1_pay3
  rw [shapeCast_self]
  exact Ideal.ofBits_zero_f32

/-- The output block at `(0, n, d)` is the accumulated output at `(n, d)` times the reciprocal square root of row
    `n`'s accumulated sum of squares. -/
theorem pay1_at (v32 : Vec Ideal S1024x1 .f32) (v34 : Vec Ideal S1024x512 .f32) (n : Fin 1024) (d : Fin 512) :
    k1_pay1 (F := Ideal) v32 v34 (ix3 (0 : Fin 1) n d) = v34 (ix2 n d) * Ideal.rsqrt (v32 (ix2 n (0 : Fin 1))) := by
  unfold k1_pay1
  refine (shapeCast_ab_1ab_apply _ _ (0 : Fin 1) n d).trans ?_
  rw [mulf_apply]
  exact congrArg (v34 (ix2 n d) * ·) (broadcastTo_a1_ab_apply _ _ n d)

/-! ## One key tile's masked scores -/

/-- The scores' product contracts both operands' feature axis: its left operand is read at the query row … -/
theorem scores_lhs_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- … and the contracted feature, … -/
theorem scores_lhs_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
/-- … its right operand at the key row … -/
theorem scores_rhs_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- … and the same contracted feature. -/
theorem scores_rhs_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The scores' product of two `[1024, 512]` operands into the zero splat, at `(n, m)`: the sum over the feature
    `e` of the left operand at `(n, e)` times the right operand at `(m, e)`. -/
theorem scores_matmul_at (l r : FVec Ideal S1024x512 .bf16) (n m : Fin 1024) :
    matmul dot_S1024x512_S1024x512_S1024x1024_1_1_0_0_n_n none l r (constant (F := Ideal) S1024x1024 .f32 0x00000000#32) (ix2 n m)
      = ∑ e : Fin 512, l (ix2 n e) * r (ix2 m e) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 n m) ((contrEquiv1 dot_S1024x512_S1024x512_S1024x1024_1_1_0_0_n_n 512 rfl rfl).symm k) = ix2 n k := funext fun a => Fin.ext (by
    match a with
    | ⟨0, _⟩ => exact scores_lhs_0 _ _
    | ⟨1, _⟩ => exact (scores_lhs_1 _ _).trans hk)
  have er : dot_S1024x512_S1024x512_S1024x1024_1_1_0_0_n_n.rhsIdx (ix2 n m) ((contrEquiv1 dot_S1024x512_S1024x512_S1024x1024_1_1_0_0_n_n 512 rfl rfl).symm k) = ix2 m k := funext fun a => Fin.ext (by
    match a with
    | ⟨0, _⟩ => exact scores_rhs_0 _ _
    | ⟨1, _⟩ => exact (scores_rhs_1 _ _).trans hk)
  rw [el, er]

/-- One key tile's masked score at `(n, m)`: the dot product over the feature axis of query row `n` and key row `m`,
    times the mask entry. -/
theorem pay4_at (v3 v5 : Vec Ideal S1x1024x512 .bf16) (v9 : Vec Ideal S1024x1024 .bf16) (n m : Fin 1024) :
    k1_pay4 (F := Ideal) v3 v5 v9 (ix2 n m)
      = (∑ e : Fin 512, v3 (ix3 (0 : Fin 1) n e) * v5 (ix3 (0 : Fin 1) m e)) * v9 (ix2 n m) := by
  unfold k1_pay4
  rw [mulf_apply, extf_apply, shapeCast_self]
  refine congrArg (· * v9 (ix2 n m)) ?_
  refine (scores_matmul_at _ _ n m).trans ?_
  refine Finset.sum_congr rfl fun e _ => ?_
  rw [shapeCast_1ab_ab_apply, shapeCast_1ab_ab_apply]

/-! ## The carried accumulators' growth -/

/-- A sum along the key axis of a `[1024, 1024]` tile into the zero accumulator, at row `n`: the sum over the key
    column `m` of the tile at `(n, m)`. -/
theorem rowSum_at (src : FVec Ideal S1024x1024 .f32) (hφ : FKind.Formats .f32)
    (hacc : (0x00000000#32 : BitVec 32) = 0x00000000#32) (n : Fin 1024) :
    multiReduction (F := Ideal) .add [1] S1024 src 0x00000000#32 reduces_S1024x1024_S1024 hφ hacc (ix1 n)
      = ∑ m : Fin 1024, src (ix2 n m) := by
  refine (Ideal.multiReduction_add_single src 0x00000000#32 reduces_S1024x1024_S1024 hφ hacc (ix1 n)).trans ?_
  refine Finset.sum_congr rfl fun m _ => ?_
  refine congrArg src (funext fun a => Fin.ext ?_)
  match a with
  | ⟨0, _⟩ => rfl
  | ⟨1, _⟩ => rfl

/-- The carried row sum of squares at row `n` grows by the sum over this tile's keys of the squared masked scores. -/
theorem pay5_at (v3 v5 : Vec Ideal S1x1024x512 .bf16) (v9 : Vec Ideal S1024x1024 .bf16) (v14 : Vec Ideal S1024x1 .f32)
    (n : Fin 1024) :
    k1_pay5 (F := Ideal) v3 v5 v9 v14 (ix2 n (0 : Fin 1))
      = v14 (ix2 n (0 : Fin 1))
        + ∑ m : Fin 1024, k1_pay4 (F := Ideal) v3 v5 v9 (ix2 n m) * k1_pay4 (F := Ideal) v3 v5 v9 (ix2 n m) := by
  unfold k1_pay5
  rw [shapeCast_self, addf_apply]
  refine congrArg (v14 (ix2 n (0 : Fin 1)) + ·) ?_
  refine (shapeCast_a_a1_apply _ _ n (0 : Fin 1)).trans ?_
  exact rowSum_at _ _ _ n

/-- The output's product contracts the scores' key axis against the values' row axis: its left operand is read at the
    query row … -/
theorem out_lhs_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
/-- … and the contracted key, … -/
theorem out_lhs_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
/-- … its right operand at the same contracted key … -/
theorem out_rhs_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
/-- … and the output's feature column. -/
theorem out_rhs_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The output's product of a `[1024, 1024]` and a `[1024, 512]` operand into the zero splat, at `(n, d)`: the sum
    over the key `m` of the left operand at `(n, m)` times the right operand at `(m, d)`. -/
theorem out_matmul_at (l : FVec Ideal S1024x1024 .bf16) (r : FVec Ideal S1024x512 .bf16) (n : Fin 1024) (d : Fin 512) :
    matmul dot_S1024x1024_S1024x512_S1024x512_1_0_0_1_n_n none l r (constant (F := Ideal) S1024x512 .f32 0x00000000#32) (ix2 n d)
      = ∑ m : Fin 1024, l (ix2 n m) * r (ix2 m d) := by
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 n d) ((contrEquiv1 dot_S1024x1024_S1024x512_S1024x512_1_0_0_1_n_n 1024 rfl rfl).symm k) = ix2 n k := funext fun a => Fin.ext (by
    match a with
    | ⟨0, _⟩ => exact out_lhs_0 _ _
    | ⟨1, _⟩ => exact (out_lhs_1 _ _).trans hk)
  have er : dot_S1024x1024_S1024x512_S1024x512_1_0_0_1_n_n.rhsIdx (ix2 n d) ((contrEquiv1 dot_S1024x1024_S1024x512_S1024x512_1_0_0_1_n_n 1024 rfl rfl).symm k) = ix2 k d := funext fun a => Fin.ext (by
    match a with
    | ⟨0, _⟩ => exact (out_rhs_0 _ _).trans hk
    | ⟨1, _⟩ => exact out_rhs_1 _ _)
  rw [el, er]

/-- The carried output at `(n, d)` grows by the sum over this tile's keys of the masked score times the value row's
    entry. -/
theorem pay6_at (v3 v5 v7 : Vec Ideal S1x1024x512 .bf16) (v9 : Vec Ideal S1024x1024 .bf16) (v22 : Vec Ideal S1024x512 .f32)
    (n : Fin 1024) (d : Fin 512) :
    k1_pay6 (F := Ideal) v3 v5 v7 v9 v22 (ix2 n d)
      = v22 (ix2 n d) + ∑ m : Fin 1024, k1_pay4 (F := Ideal) v3 v5 v9 (ix2 n m) * v7 (ix3 (0 : Fin 1) m d) := by
  unfold k1_pay6
  rw [shapeCast_self, addf_apply]
  refine congrArg (v22 (ix2 n d) + ·) ?_
  refine (out_matmul_at _ _ n d).trans ?_
  refine Finset.sum_congr rfl fun m _ => ?_
  rw [truncf_apply, shapeCast_1ab_ab_apply]

end Cert.KernelIdeal.Pay1

end
-- ==== Proof.KerLoc.lean ====
/-
  The attention call's result as a function of ITS operand arrays: queries, keys, values (8 x 2048 x 512 each) and the
  mask (2048 x 2048).  The score of query position n against key position m is the inner product of their rows times
  the mask entry; a row's result is its scores summed against the values, times the reciprocal square root of the
  row's sum of squared scores.  The kernel walks the 2048 key positions as two tiles of 1024, so a sum over key
  positions is the sum over the first tile plus the sum over the second.
-/
import proofs.«105555_j55413668053098_1_alg».proof.Proof.Spec

noncomputable section

namespace Cert.Spec

open Idealize.ShloMosaic Idealize.ShloMosaic.ValueIdx

/-- The masked score from the call's operands: (q[b,n,:] · k[b,m,:]) · mask[n,m]. -/
def scLoc (Q K : Arr3) (MK : ArrN) (b : Fin 8) (n m : Fin 2048) : EReal :=
  (∑ e : Fin 512, Q (ix3 b n e) * K (ix3 b m e)) * MK (ix2 n m)

/-- The call's result at (b, n, d). -/
def kerLoc (Q K VV : Arr3) (MK : ArrN) (b : Fin 8) (n : Fin 2048) (d : Fin 512) : EReal :=
  (∑ m : Fin 2048, scLoc Q K MK b n m * VV (ix3 b m d)) * Ideal.rsqrt (∑ m : Fin 2048, scLoc Q K MK b n m * scLoc Q K MK b n m)

/-- With the operands the projections of the states and the mask the transposed adjacency, the call computes `kerAt`. -/
theorem kerLoc_eq_kerAt (x : Arr3) (adj : ArrN) (wq wk wv : ArrD) (Q K VV : Arr3) (MK : ArrN)
    (hQ : ∀ b n e, Q (ix3 b n e) = proj x wq b n e) (hK : ∀ b n e, K (ix3 b n e) = proj x wk b n e)
    (hV : ∀ b n e, VV (ix3 b n e) = proj x wv b n e) (hM : ∀ n m, MK (ix2 n m) = adj (ix2 m n))
    (b : Fin 8) (n : Fin 2048) (d : Fin 512) : kerLoc Q K VV MK b n d = kerAt x adj wq wk wv b n d := by
  have hs : ∀ m, scLoc Q K MK b n m = rel x adj wq wk b n m := fun m => by
    unfold scLoc rel score
    rw [hM, mul_comm]
    congr 1
    exact Finset.sum_congr rfl fun e _ => by rw [hQ, hK]
  unfold kerLoc kerAt sumsq
  simp only [hs, hV]

/-- A sum over the 2048 key positions is the sum over the first tile of 1024 plus the sum over the second. -/
theorem sum_two_tiles {M : Type} [AddCommMonoid M] (f : Fin 2048 → M) :
    ∑ m : Fin 2048, f m = (∑ j : Fin 1024, f ⟨j.val, by omega⟩) + ∑ j : Fin 1024, f ⟨1024 + j.val, by omega⟩ := by
  exact Fin.sum_univ_add (a := 1024) (b := 1024) (fun i : Fin (1024 + 1024) => f ⟨i.val, by omega⟩)

end Cert.Spec

end
-- ==== Proof.KIVal1Final.lean ====
/-
  The attention call's result array.  An odd point (key tile 1) of batch b and query tile qt stores, at row n and
  feature d, the sum over both key tiles of score times value, times the reciprocal square root of the sum over both
  key tiles of the squared scores — which is the call's function `kerLoc` at row qt * 1024 + n, the sum over the 2048
  key positions split into its two tiles.  The sixteen odd points' blocks tile the result array.
-/
import proofs.«105555_j55413668053098_1_alg».proof.Proof.KIVal1Blocks
import proofs.«105555_j55413668053098_1_alg».proof.Proof.KIPay1
import proofs.«105555_j55413668053098_1_alg».proof.Proof.KerLoc

set_option maxRecDepth 16384

noncomputable section

namespace Cert.KernelIdeal.R1

open Cert.KernelIdeal Cert.KernelIdeal.Gen Cert.KernelIdeal.Pay1 Cert.Spec
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The two-tile arithmetic over abstract blocks -/

/-- One key tile's masked score from its blocks. -/
def tileSc (q k : Vec Ideal S1x1024x512 .bf16) (mk : Vec Ideal S1024x1024 .bf16) (n m : Fin 1024) : EReal :=
  (∑ e : Fin 512, q (ix3 (0 : Fin 1) n e) * k (ix3 (0 : Fin 1) m e)) * mk (ix2 n m)

/-- The stored output block of a last-key-tile point over the blocks of both tiles, at row n and feature d. -/
theorem two_tiles_at (q0 k0 v0 : Vec Ideal S1x1024x512 .bf16) (m0 : Vec Ideal S1024x1024 .bf16)
    (q1 k1 v1 : Vec Ideal S1x1024x512 .bf16) (m1 : Vec Ideal S1024x1024 .bf16) (n : Fin 1024) (d : Fin 512) :
    k1_pay1 (F := Ideal) (k1_pay5 q1 k1 m1 (k1_pay5 q0 k0 m0 (k1_pay2 (F := Ideal))))
        (k1_pay6 q1 k1 v1 m1 (k1_pay6 q0 k0 v0 m0 (k1_pay3 (F := Ideal)))) (ix3 (0 : Fin 1) n d)
      = ((∑ m : Fin 1024, tileSc q0 k0 m0 n m * v0 (ix3 (0 : Fin 1) m d)) + ∑ m : Fin 1024, tileSc q1 k1 m1 n m * v1 (ix3 (0 : Fin 1) m d))
        * Ideal.rsqrt ((∑ m : Fin 1024, tileSc q0 k0 m0 n m * tileSc q0 k0 m0 n m) + ∑ m : Fin 1024, tileSc q1 k1 m1 n m * tileSc q1 k1 m1 n m) := by
  rw [pay1_at, pay6_at, pay6_at, pay3_at, pay5_at, pay5_at, pay2_at]
  simp only [pay4_at, zero_add, tileSc]

/-- The call's function at a row, from the two tiles' sums: the rows and batches may be spelt in any equal way, the
    key positions of tile 0 are 0 … 1023 and those of tile 1 are 1024 … 2047. -/
theorem kerLoc_of_tiles (Q K VV : Arr3) (MK : ArrN) (B : Fin 8) (N : Fin 2048) (D : Fin 512)
    (b0 b1 : Fin 8) (r0 r1 : Fin 2048) (c0 c1 : Fin 1024 → Fin 2048)
    (hb0 : b0 = B) (hb1 : b1 = B) (hr0 : r0 = N) (hr1 : r1 = N) (hc0 : ∀ j, (c0 j).val = j.val) (hc1 : ∀ j, (c1 j).val = 1024 + j.val) :
    ((∑ j : Fin 1024, ((∑ e : Fin 512, Q (ix3 b0 r0 e) * K (ix3 b0 (c0 j) e)) * MK (ix2 r0 (c0 j))) * VV (ix3 b0 (c0 j) D))
        + ∑ j : Fin 1024, ((∑ e : Fin 512, Q (ix3 b1 r1 e) * K (ix3 b1 (c1 j) e)) * MK (ix2 r1 (c1 j))) * VV (ix3 b1 (c1 j) D))
      * Ideal.rsqrt ((∑ j : Fin 1024, ((∑ e : Fin 512, Q (ix3 b0 r0 e) * K (ix3 b0 (c0 j) e)) * MK (ix2 r0 (c0 j))) * ((∑ e : Fin 512, Q (ix3 b0 r0 e) * K (ix3 b0 (c0 j) e)) * MK (ix2 r0 (c0 j))))
        + ∑ j : Fin 1024, ((∑ e : Fin 512, Q (ix3 b1 r1 e) * K (ix3 b1 (c1 j) e)) * MK (ix2 r1 (c1 j))) * ((∑ e : Fin 512, Q (ix3 b1 r1 e) * K (ix3 b1 (c1 j) e)) * MK (ix2 r1 (c1 j))))
      = kerLoc Q K VV MK B N D := by
  subst hb0 hb1 hr0 hr1
  obtain rfl : c0 = fun j => ⟨j.val, by omega⟩ := funext fun j => Fin.ext (hc0 j)
  obtain rfl : c1 = fun j => ⟨1024 + j.val, by omega⟩ := funext fun j => Fin.ext (hc1 j)
  unfold kerLoc scLoc
  rw [sum_two_tiles, sum_two_tiles]

/-! ## The result array -/

/-- The call's whole-array function of operand arrays. -/
def G1' (Q K VV : S8x2048x512.Idx → EReal) (MK : S2048x2048.Idx → EReal) : S8x2048x512.Idx → EReal := fun i =>
  kerLoc Q K VV MK (i 0) (i 1) (i 2)
theorem G1'_apply (Q K VV : S8x2048x512.Idx → EReal) (MK : S2048x2048.Idx → EReal) (i : S8x2048x512.Idx) :
    G1' Q K VV MK i = kerLoc Q K VV MK (i 0) (i 1) (i 2) := rfl
/-- … at the operand arrays as the region finds them. -/
def G1 (c : Dev nD) : S8x2048x512.Idx → EReal := G1' (V c main_v11) (V c main_v12) (V c main_v13) (V c main_v9)

set_option maxHeartbeats 800000 in
/-- What an odd point writes back is its block of that function. -/
theorem flushed4_eq (c : Dev nD) (t : Fin cfg1.N) (hf : (cfg1.win 4).flush t = true) :
    (dat1 V c).flushed 4 t = ((cfg1.win 4).blk t).view.read (Elt Ideal) (G1 V c) := by
  have hN : t.val < 32 := lt_of_lt_of_eq t.isLt (show cfg1.N = 32 from N_1)
  have hodd : t.val % 2 = 1 := (flush1_4 t).mp hf
  have h0 : ¬t.val % 2 = 0 := by omega
  obtain ⟨q0, q1, q2, k0, k1, k2, v0, v1, v2, m0, m1, o0, o1, o2⟩ := idx_facts1 t
  show (cfg1.win 4).cut (grid1.coords t) ((dat1 V c).after 4 t) = _
  rw [after1_4, outAt_odd V c t h0 ⟨t.val - 1, by omega⟩ rfl]
  funext j
  obtain ⟨z, n, d, rfl⟩ : ∃ (z : Fin 1) (n : Fin 1024) (d : Fin 512), j = ix3 z n d := ⟨j 0, j 1, j 2, eq_ix3 j⟩
  obtain rfl : z = 0 := Subsingleton.elim _ _
  show _ = G1 V c (((cfg1.win 4).blk t).view.emb (ix3 (0 : Fin 1) n d))
  refine (two_tiles_at (iblk1 V c 0 ⟨t.val - 1, by omega⟩) (iblk1 V c 1 ⟨t.val - 1, by omega⟩) (iblk1 V c 2 ⟨t.val - 1, by omega⟩) (iblk1 V c 3 ⟨t.val - 1, by omega⟩)
    (iblk1 V c 0 t) (iblk1 V c 1 t) (iblk1 V c 2 t) (iblk1 V c 3 t) n d).trans ?_
  simp only [tileSc, blk_q, blk_k, blk_v, blk_m]
  have hI : ((cfg1.win 4).blk t).view.emb (ix3 (0 : Fin 1) n d)
      = ix3 (⟨t.val / 4, by omega⟩ : Fin 8) (⟨t.val / 2 % 2 * 1024 + n.val, by omega⟩ : Fin 2048) d := by
    funext a; apply Fin.ext
    match a with
    | ⟨0, _⟩ => show win1_4.index t (0 : Fin 3) * 1 + 1 * 0 = t.val / 4; omega
    | ⟨1, _⟩ => show win1_4.index t (1 : Fin 3) * 1024 + 1 * n.val = t.val / 2 % 2 * 1024 + n.val; omega
    | ⟨2, _⟩ => show win1_4.index t (2 : Fin 3) * 512 + 1 * d.val = d.val; omega
  rw [hI]
  unfold G1
  rw [G1'_apply]
  exact kerLoc_of_tiles (V c main_v11) (V c main_v12) (V c main_v13) (V c main_v9)
    (⟨t.val / 4, by omega⟩ : Fin 8) (⟨t.val / 2 % 2 * 1024 + n.val, by omega⟩ : Fin 2048) d
    (⟨(t.val - 1) / 4, by omega⟩ : Fin 8) (⟨t.val / 4, by omega⟩ : Fin 8)
    (⟨(t.val - 1) / 2 % 2 * 1024 + n.val, by omega⟩ : Fin 2048) (⟨t.val / 2 % 2 * 1024 + n.val, by omega⟩ : Fin 2048)
    (fun j => (⟨(t.val - 1) % 2 * 1024 + j.val, by omega⟩ : Fin 2048)) (fun j => (⟨t.val % 2 * 1024 + j.val, by omega⟩ : Fin 2048))
    (Fin.ext (by show (t.val - 1) / 4 = t.val / 4; omega)) rfl
    (Fin.ext (by show (t.val - 1) / 2 % 2 * 1024 + n.val = t.val / 2 % 2 * 1024 + n.val; omega)) rfl
    (fun j => by show (t.val - 1) % 2 * 1024 + j.val = j.val; omega)
    (fun j => by show t.val % 2 * 1024 + j.val = 1024 + j.val; omega)

/-- So the result array ends holding the call's function of its operand arrays. -/
theorem final4 (c : Dev nD) : (dat1 V c).arrAt 4 cfg1.N = G1 V c :=
  (dat1 V c).arrAt_eq_of_cover 4 (G1 V c) (fun t hf => flushed4_eq V c t hf) (cover4)

end Cert.KernelIdeal.R1

end
-- ==== Proof.KIGlueA.lean ====
/-
  The host operations around the two kernel calls, read at an index over the extended reals, for any contents of the
  buffers they start from.  Before the first call the states are flattened from 8 x 2048 x 512 to 16384 x 512 (row
  r holds batch r / 2048, position r % 2048), each weight and the adjacency is transposed, and every result is rounded
  to the narrower float type, which over the extended reals changes nothing.  Between the calls the three 16384 x 512
  projections are unflattened (batch b, position n is row b · 2048 + n).  Together with the flattening's inverse
  arithmetic this identifies a row-times-transposed-weight product of the flattened arrays with the specification's
  projection.
-/
import proofs.«105555_j55413668053098_1_alg».proof.Proof.Gen.KernelIdeal.Launch
import proofs.«105555_j55413668053098_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Glue

open Cert.KernelIdeal Cert.KernelIdeal.Gen Idealize.ShloMosaic Idealize.ShloMosaic.ValueIdx
open Idealize.ShloMosaic.TcCoe Idealize.SL.Sem Idealize.ShloMosaic.StableHlo

/-! ## Before the first call -/

/-- The flattened, rounded states at row r, feature d: the states at batch r / 2048, position r % 2048, feature d. -/
theorem v1_at (W : Valuation τ sig (Elt Ideal)) (r : Fin 16384) (d : Fin 512) :
    (StableHlo.after (hostOps0 (F := Ideal)) W (Proc.devRef .tc main_v1) : S16384x512.Idx → EReal) (ix2 r d)
      = (W (Proc.devRef .tc main_arg0) : S8x2048x512.Idx → EReal)
          (ix3 ⟨r.val / 2048, by have := r.isLt; omega⟩ ⟨r.val % 2048, Nat.mod_lt _ (by decide)⟩ d) := by
  have e : (StableHlo.after (hostOps0 (F := Ideal)) W (Proc.devRef .tc main_v1) : S16384x512.Idx → EReal)
      = shapeCast S16384x512 (W (Proc.devRef .tc main_arg0) : S8x2048x512.Idx → EReal) shapeCasts_S8x2048x512_S16384x512 := by
    dsimp only [hostOps0]; after_results; rfl
  rw [e]
  exact shapeCast_apply _ _ (ix2 r d) _ (by
    show (Shape.rowMajor S8x2048x512 _).val = (Shape.rowMajor S16384x512 _).val
    rw [Shape.rowMajor_val_three, Shape.rowMajor_val_two]
    show (r.val / 2048 * 2048 + r.val % 2048) * 512 + d.val = r.val * 512 + d.val
    omega)

/-- The transposed, rounded query weight at (d, e): the weight at (e, d). -/
theorem v3_at (W : Valuation τ sig (Elt Ideal)) (d e : Fin 512) :
    (StableHlo.after (hostOps0 (F := Ideal)) W (Proc.devRef .tc main_v3) : S512x512.Idx → EReal) (ix2 d e)
      = (W (Proc.devRef .tc main_arg2) : S512x512.Idx → EReal) (ix2 e d) := by
  have e' : (StableHlo.after (hostOps0 (F := Ideal)) W (Proc.devRef .tc main_v3) : S512x512.Idx → EReal)
      = transpose S512x512 [1, 0] (W (Proc.devRef .tc main_arg2) : S512x512.Idx → EReal) transposes_S512x512_S512x512_1_0 := by
    dsimp only [hostOps0]; after_results; rfl
  rw [e']
  exact transpose_apply [1, 0] _ transposes_S512x512_S512x512_1_0 (ix2 d e) (ix2 e d) (fun b => match b with
    | ⟨0, _⟩ => rfl
    | ⟨1, _⟩ => rfl)

/-- The transposed, rounded key weight. -/
theorem v5_at (W : Valuation τ sig (Elt Ideal)) (d e : Fin 512) :
    (StableHlo.after (hostOps0 (F := Ideal)) W (Proc.devRef .tc main_v5) : S512x512.Idx → EReal) (ix2 d e)
      = (W (Proc.devRef .tc main_arg3) : S512x512.Idx → EReal) (ix2 e d) := by
  have e' : (StableHlo.after (hostOps0 (F := Ideal)) W (Proc.devRef .tc main_v5) : S512x512.Idx → EReal)
      = transpose S512x512 [1, 0] (W (Proc.devRef .tc main_arg3) : S512x512.Idx → EReal) transposes_S512x512_S512x512_1_0 := by
    dsimp only [hostOps0]; after_results; rfl
  rw [e']
  exact transpose_apply [1, 0] _ transposes_S512x512_S512x512_1_0 (ix2 d e) (ix2 e d) (fun b => match b with
    | ⟨0, _⟩ => rfl
    | ⟨1, _⟩ => rfl)

/-- The transposed, rounded value weight. -/
theorem v7_at (W : Valuation τ sig (Elt Ideal)) (d e : Fin 512) :
    (StableHlo.after (hostOps0 (F := Ideal)) W (Proc.devRef .tc main_v7) : S512x512.Idx → EReal) (ix2 d e)
      = (W (Proc.devRef .tc main_arg4) : S512x512.Idx → EReal) (ix2 e d) := by
  have e' : (StableHlo.after (hostOps0 (F := Ideal)) W (Proc.devRef .tc main_v7) : S512x512.Idx → EReal)
      = transpose S512x512 [1, 0] (W (Proc.devRef .tc main_arg4) : S512x512.Idx → EReal) transposes_S512x512_S512x512_1_0 := by
    dsimp only [hostOps0]; after_results; rfl
  rw [e']
  exact transpose_apply [1, 0] _ transposes_S512x512_S512x512_1_0 (ix2 d e) (ix2 e d) (fun b => match b with
    | ⟨0, _⟩ => rfl
    | ⟨1, _⟩ => rfl)

/-- The transposed, rounded adjacency at (n, m): the adjacency at (m, n). -/
theorem v9_at (W : Valuation τ sig (Elt Ideal)) (n m : Fin 2048) :
    (StableHlo.after (hostOps0 (F := Ideal)) W (Proc.devRef .tc main_v9) : S2048x2048.Idx → EReal) (ix2 n m)
      = (W (Proc.devRef .tc main_arg1) : S2048x2048.Idx → EReal) (ix2 m n) := by
  have e' : (StableHlo.after (hostOps0 (F := Ideal)) W (Proc.devRef .tc main_v9) : S2048x2048.Idx → EReal)
      = transpose S2048x2048 [1, 0] (W (Proc.devRef .tc main_arg1) : S2048x2048.Idx → EReal) transposes_S2048x2048_S2048x2048_1_0 := by
    dsimp only [hostOps0]; after_results; rfl
  rw [e']
  exact transpose_apply [1, 0] _ transposes_S2048x2048_S2048x2048_1_0 (ix2 n m) (ix2 m n) (fun b => match b with
    | ⟨0, _⟩ => rfl
    | ⟨1, _⟩ => rfl)

/-! ## Between the calls -/

/-- The unflattened query projection at (b, n, e): the flat projection at row b · 2048 + n, feature e. -/
theorem v11_at (W : Valuation τ sig (Elt Ideal)) (b : Fin 8) (n : Fin 2048) (e : Fin 512) :
    (StableHlo.after (hostOps1 (F := Ideal)) W (Proc.devRef .tc main_v11) : S8x2048x512.Idx → EReal) (ix3 b n e)
      = (W (Proc.devRef .tc main_v10_0) : S16384x512.Idx → EReal)
          (ix2 ⟨b.val * 2048 + n.val, by have := b.isLt; have := n.isLt; omega⟩ e) := by
  have e' : (StableHlo.after (hostOps1 (F := Ideal)) W (Proc.devRef .tc main_v11) : S8x2048x512.Idx → EReal)
      = shapeCast S8x2048x512 (W (Proc.devRef .tc main_v10_0) : S16384x512.Idx → EReal) shapeCasts_S16384x512_S8x2048x512 := by
    dsimp only [hostOps1]; after_results; rfl
  rw [e']
  exact shapeCast_apply _ _ (ix3 b n e) _ (by
    show (Shape.rowMajor S16384x512 _).val = (Shape.rowMajor S8x2048x512 _).val
    rw [Shape.rowMajor_val_three, Shape.rowMajor_val_two]
    rfl)

/-- The unflattened key projection. -/
theorem v12_at (W : Valuation τ sig (Elt Ideal)) (b : Fin 8) (n : Fin 2048) (e : Fin 512) :
    (StableHlo.after (hostOps1 (F := Ideal)) W (Proc.devRef .tc main_v12) : S8x2048x512.Idx → EReal) (ix3 b n e)
      = (W (Proc.devRef .tc main_v10_1) : S16384x512.Idx → EReal)
          (ix2 ⟨b.val * 2048 + n.val, by have := b.isLt; have := n.isLt; omega⟩ e) := by
  have e' : (StableHlo.after (hostOps1 (F := Ideal)) W (Proc.devRef .tc main_v12) : S8x2048x512.Idx → EReal)
      = shapeCast S8x2048x512 (W (Proc.devRef .tc main_v10_1) : S16384x512.Idx → EReal) shapeCasts_S16384x512_S8x2048x512 := by
    dsimp only [hostOps1]; after_results; rfl
  rw [e']
  exact shapeCast_apply _ _ (ix3 b n e) _ (by
    show (Shape.rowMajor S16384x512 _).val = (Shape.rowMajor S8x2048x512 _).val
    rw [Shape.rowMajor_val_three, Shape.rowMajor_val_two]
    rfl)

/-- The unflattened value projection. -/
theorem v13_at (W : Valuation τ sig (Elt Ideal)) (b : Fin 8) (n : Fin 2048) (e : Fin 512) :
    (StableHlo.after (hostOps1 (F := Ideal)) W (Proc.devRef .tc main_v13) : S8x2048x512.Idx → EReal) (ix3 b n e)
      = (W (Proc.devRef .tc main_v10_2) : S16384x512.Idx → EReal)
          (ix2 ⟨b.val * 2048 + n.val, by have := b.isLt; have := n.isLt; omega⟩ e) := by
  have e' : (StableHlo.after (hostOps1 (F := Ideal)) W (Proc.devRef .tc main_v13) : S8x2048x512.Idx → EReal)
      = shapeCast S8x2048x512 (W (Proc.devRef .tc main_v10_2) : S16384x512.Idx → EReal) shapeCasts_S16384x512_S8x2048x512 := by
    dsimp only [hostOps1]; after_results; rfl
  rw [e']
  exact shapeCast_apply _ _ (ix3 b n e) _ (by
    show (Shape.rowMajor S16384x512 _).val = (Shape.rowMajor S8x2048x512 _).val
    rw [Shape.rowMajor_val_three, Shape.rowMajor_val_two]
    rfl)

/-! ## The flat product is the projection -/

/-- For a flat array X1 holding the states x row by row and a matrix W3 holding the weight w transposed, the product of
    row b · 2048 + n of X1 with column e of W3 is the specification's projection of x by w at (b, n, e): dividing the
    row number by 2048 gives back b and the remainder n. -/
theorem proj_of_flat (x : Cert.Spec.Arr3) (w : Cert.Spec.ArrD) (X1 : S16384x512.Idx → EReal) (W3 : S512x512.Idx → EReal)
    (hX : ∀ (r : Fin 16384) (d : Fin 512), X1 (ix2 r d)
      = x (ix3 ⟨r.val / 2048, by have := r.isLt; omega⟩ ⟨r.val % 2048, Nat.mod_lt _ (by decide)⟩ d))
    (hW : ∀ d e : Fin 512, W3 (ix2 d e) = w (ix2 e d)) (b : Fin 8) (n : Fin 2048) (e : Fin 512) :
    (∑ d : Fin 512, X1 (ix2 ⟨b.val * 2048 + n.val, by have := b.isLt; have := n.isLt; omega⟩ d) * W3 (ix2 d e))
      = Cert.Spec.proj x w b n e := by
  unfold Cert.Spec.proj
  refine Finset.sum_congr rfl fun d _ => ?_
  rw [hX, hW]
  have hb : (⟨(b.val * 2048 + n.val) / 2048, by have := b.isLt; have := n.isLt; omega⟩ : Fin 8) = b :=
    Fin.ext (by show (b.val * 2048 + n.val) / 2048 = b.val; have := n.isLt; omega)
  have hn : (⟨(b.val * 2048 + n.val) % 2048, Nat.mod_lt _ (by decide)⟩ : Fin 2048) = n :=
    Fin.ext (by show (b.val * 2048 + n.val) % 2048 = n.val; have := n.isLt; omega)
  simp only [hb, hn]

end Cert.KernelIdeal.Glue

end
-- ==== Proof.KIValue.lean ====
/-
  The idealized kernel program's result as a function of its arguments.  The states are flattened to 16384 rows and
  the weights transposed; the projection call leaves q, k, v = (flattened states) · (transposed weight); they are
  unflattened to batches; the attention call leaves its function of q, k, v and the transposed adjacency.  Reading
  each step at an index: q, k, v are the specification's projections, the mask entry (n, m) is the adjacency entry
  (m, n), and the result is the specification's kernel-side array.
-/
import proofs.«105555_j55413668053098_1_alg».proof.Proof.KIMain
import proofs.«105555_j55413668053098_1_alg».proof.Proof.KIVal0
import proofs.«105555_j55413668053098_1_alg».proof.Proof.KIVal1Final
import proofs.«105555_j55413668053098_1_alg».proof.Proof.KIGlueA

set_option maxRecDepth 16384

noncomputable section

namespace Cert.KernelIdeal.Run

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The queries the attention call finds are the specification's projection of the states by the query weight. -/
theorem q_at (c : Dev nD) (b : Fin 8) (n : Fin 2048) (e : Fin 512) :
    (V3 m ρ c main_v11 : S8x2048x512.Idx → EReal) (ix3 b n e)
      = proj (m ((c : Thread nD τ).loc main_arg0)) (m ((c : Thread nD τ).loc main_arg2)) b n e := by
  refine (Glue.v11_at (W2 m ρ c) b n e).trans ?_
  have h := congrFun ((W2_arr m ρ c 4).trans (Val0.outQ_final (V1 m ρ) c)) (ix2 (⟨b.val * 2048 + n.val, by have := b.isLt; have := n.isLt; omega⟩ : Fin 16384) e)
  refine h.trans ?_
  exact Glue.proj_of_flat _ _ _ _ (fun r d => Glue.v1_at (W0 m ρ c) r d) (fun d e => Glue.v3_at (W0 m ρ c) d e) b n e

/-- The keys likewise, by the key weight. -/
theorem k_at (c : Dev nD) (b : Fin 8) (n : Fin 2048) (e : Fin 512) :
    (V3 m ρ c main_v12 : S8x2048x512.Idx → EReal) (ix3 b n e)
      = proj (m ((c : Thread nD τ).loc main_arg0)) (m ((c : Thread nD τ).loc main_arg3)) b n e := by
  refine (Glue.v12_at (W2 m ρ c) b n e).trans ?_
  have h := congrFun ((W2_arr m ρ c 5).trans (Val0.outK_final (V1 m ρ) c)) (ix2 (⟨b.val * 2048 + n.val, by have := b.isLt; have := n.isLt; omega⟩ : Fin 16384) e)
  refine h.trans ?_
  exact Glue.proj_of_flat _ _ _ _ (fun r d => Glue.v1_at (W0 m ρ c) r d) (fun d e => Glue.v5_at (W0 m ρ c) d e) b n e

/-- The values likewise, by the value weight. -/
theorem v_at (c : Dev nD) (b : Fin 8) (n : Fin 2048) (e : Fin 512) :
    (V3 m ρ c main_v13 : S8x2048x512.Idx → EReal) (ix3 b n e)
      = proj (m ((c : Thread nD τ).loc main_arg0)) (m ((c : Thread nD τ).loc main_arg4)) b n e := by
  refine (Glue.v13_at (W2 m ρ c) b n e).trans ?_
  have h := congrFun ((W2_arr m ρ c 6).trans (Val0.outV_final (V1 m ρ) c)) (ix2 (⟨b.val * 2048 + n.val, by have := b.isLt; have := n.isLt; omega⟩ : Fin 16384) e)
  refine h.trans ?_
  exact Glue.proj_of_flat _ _ _ _ (fun r d => Glue.v1_at (W0 m ρ c) r d) (fun d e => Glue.v7_at (W0 m ρ c) d e) b n e

/-- The mask the attention call finds at (n, m) is the adjacency at (m, n): the second host stretch and the projection
    call leave the transposed adjacency as the first host stretch wrote it. -/
theorem mk_at (c : Dev nD) (n mm : Fin 2048) :
    (V3 m ρ c main_v9 : S2048x2048.Idx → EReal) (ix2 n mm) = m ((c : Thread nD τ).loc main_arg1) (ix2 mm n) := by
  have h3 : W3 m ρ c (Proc.devRef .tc main_v9) = W2 m ρ c (Proc.devRef .tc main_v9) :=
    StableHlo.after_of_forall_not_mem (b := Proc.devRef .tc main_v9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide)))
  have h2 : W2 m ρ c (Proc.devRef .tc main_v9) = W1 m ρ c (Proc.devRef .tc main_v9) := W2_of_ne m ρ c main_v9 (by decide)
  have h := congrFun (h3.trans h2) (ix2 n mm)
  exact h.trans (Glue.v9_at (W0 m ρ c) n mm)

/-- THE RESULT: after the run the result buffer holds the specification's kernel-side array of the five arguments. -/
theorem result_eq (c : Dev nD) :
    W4 m ρ c (Proc.devRef .tc main_v14)
      = Gker (m ((c : Thread nD τ).loc main_arg0)) (m ((c : Thread nD τ).loc main_arg1)) (m ((c : Thread nD τ).loc main_arg2))
          (m ((c : Thread nD τ).loc main_arg3)) (m ((c : Thread nD τ).loc main_arg4)) := by
  refine ((W4_arr m ρ c 4).trans (R1.final4 (V3 m ρ) c)).trans ?_
  funext i
  obtain ⟨b, n, d, rfl⟩ : ∃ (b : Fin 8) (n : Fin 2048) (d : Fin 512), i = ix3 b n d := ⟨i 0, i 1, i 2, eq_ix3 i⟩
  show kerLoc _ _ _ _ b n d = kerAt _ _ _ _ _ b n d
  exact kerLoc_eq_kerAt _ _ _ _ _ _ _ _ _ (q_at m ρ c) (k_at m ρ c) (v_at m ρ c) (mk_at m ρ c) b n d

end Cert.KernelIdeal.Run

end
-- ==== Proof.RefValue.lean ====
/-
  The reference computes the specification's `Gref`: its result array, read at (b, n, d), is the sum over the key
  positions m of the masked score of n against m divided by the Euclidean norm of n's row of masked scores, times the
  value projection at (b, m, d).

  Read one operation at a time: each of the three projections is the sum over the input feature of state times
  weight; the raw score is the sum over the projected feature of query times key; the mask is the adjacency read
  transposed (a transpose followed by two broadcasts); the row's sum of squares is the zero initial value plus the sum
  over m of the squared masked scores; its square root is broadcast back along m; the quotient is taken entry by
  entry; and the last contraction sums the quotient against the value projection.
-/
import proofs.«105555_j55413668053098_1_alg».proof.Proof.Gen.ReferenceIdeal.Read
import proofs.«105555_j55413668053098_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo
open Cert.Spec

/-- The neuron states (and the result) as the reference holds them: 8 x 2048 x 512 extended reals. -/
abbrev X3 : Type := FVec Ideal S8x2048x512 .f32
/-- The adjacency matrix: 2048 x 2048. -/
abbrev XN : Type := FVec Ideal S2048x2048 .f32
/-- A projection weight: 512 x 512. -/
abbrev XD : Type := FVec Ideal S512x512 .f32

/-! ## The three projections -/

/-- The query projection at (b, n, e) is Σ_d x[b,n,d] · wq[e,d]. -/
theorem projQ_at (x : X3) (w : XD) (b : Fin 8) (n : Fin 2048) (e : Fin 512) :
    val_main_v0 (F := Ideal) x w (ix3 b n e) = proj x w b n e := by
  rw [val_main_v0_apply]
  unfold proj
  refine Finset.sum_congr rfl fun d _ => ?_
  have e1 : lidx_main_v0 (ix3 b n e) d = ix3 b n d :=
    funext fun a => Fin.ext (by match a with | ⟨0, _⟩ => rfl | ⟨1, _⟩ => rfl | ⟨2, _⟩ => rfl)
  have e2 : ridx_main_v0 (ix3 b n e) d = ix2 e d :=
    funext fun a => Fin.ext (by match a with | ⟨0, _⟩ => rfl | ⟨1, _⟩ => rfl)
  rw [e1, e2]

/-- The key projection, the same contraction against the second weight. -/
theorem projK_at (x : X3) (w : XD) (b : Fin 8) (n : Fin 2048) (e : Fin 512) :
    val_main_v1 (F := Ideal) x w (ix3 b n e) = proj x w b n e := by
  rw [val_main_v1_apply]
  unfold proj
  refine Finset.sum_congr rfl fun d _ => ?_
  have e1 : lidx_main_v1 (ix3 b n e) d = ix3 b n d :=
    funext fun a => Fin.ext (by match a with | ⟨0, _⟩ => rfl | ⟨1, _⟩ => rfl | ⟨2, _⟩ => rfl)
  have e2 : ridx_main_v1 (ix3 b n e) d = ix2 e d :=
    funext fun a => Fin.ext (by match a with | ⟨0, _⟩ => rfl | ⟨1, _⟩ => rfl)
  rw [e1, e2]

/-- The value projection, against the third weight. -/
theorem projV_at (x : X3) (w : XD) (b : Fin 8) (n : Fin 2048) (e : Fin 512) :
    val_main_v2 (F := Ideal) x w (ix3 b n e) = proj x w b n e := by
  rw [val_main_v2_apply]
  unfold proj
  refine Finset.sum_congr rfl fun d _ => ?_
  have e1 : lidx_main_v2 (ix3 b n e) d = ix3 b n d :=
    funext fun a => Fin.ext (by match a with | ⟨0, _⟩ => rfl | ⟨1, _⟩ => rfl | ⟨2, _⟩ => rfl)
  have e2 : ridx_main_v2 (ix3 b n e) d = ix2 e d :=
    funext fun a => Fin.ext (by match a with | ⟨0, _⟩ => rfl | ⟨1, _⟩ => rfl)
  rw [e1, e2]

/-! ## The masked scores -/

/-- The raw score of query position n against key position m: Σ_e q[b,n,e] · k[b,m,e]. -/
theorem score_at (x : X3) (wq wk : XD) (b : Fin 8) (n m : Fin 2048) :
    val_main_v3 (F := Ideal) x wq wk (ix3 b n m) = score x wq wk b n m := by
  rw [val_main_v3_apply]
  unfold score
  refine Finset.sum_congr rfl fun e _ => ?_
  have e1 : lidx_main_v3 (ix3 b n m) e = ix3 b n e :=
    funext fun a => Fin.ext (by match a with | ⟨0, _⟩ => rfl | ⟨1, _⟩ => rfl | ⟨2, _⟩ => rfl)
  have e2 : ridx_main_v3 (ix3 b n m) e = ix3 b m e :=
    funext fun a => Fin.ext (by match a with | ⟨0, _⟩ => rfl | ⟨1, _⟩ => rfl | ⟨2, _⟩ => rfl)
  rw [e1, e2, projQ_at, projK_at]

/-- The mask at (b, n, m) is the adjacency at (m, n): the transpose, broadcast over the batch. -/
theorem mask_at (adj : XN) (b : Fin 8) (n m : Fin 2048) :
    val_main_v6 (F := Ideal) adj (ix3 b n m) = adj (ix2 m n) := by
  rw [val_main_v6_apply, val_main_v5_apply, val_main_v4_apply]
  exact congrArg adj (funext fun a => Fin.ext (by match a with | ⟨0, _⟩ => rfl | ⟨1, _⟩ => rfl))

/-- The masked score at (b, n, m). -/
theorem rel_at (x : X3) (adj : XN) (wq wk : XD) (b : Fin 8) (n m : Fin 2048) :
    val_main_v7 (F := Ideal) x adj wq wk (ix3 b n m) = rel x adj wq wk b n m := by
  rw [val_main_v7_apply, Ideal.mulf_def, mask_at, score_at]
  rfl

/-! ## The row norm -/

/-- The row's sum of squares at (b, n): the zero initial value plus Σ_m of the squared masked scores. -/
theorem sumsq_at (x : X3) (adj : XN) (wq wk : XD) (b : Fin 8) (n : Fin 2048) :
    val_main_call0_v1 (F := Ideal) x adj wq wk (ix2 b n) = sumsq x adj wq wk b n := by
  rw [val_main_call0_v1_apply, val_main_call0_cst_apply, Ideal.ofBits_def, Ideal.ofBits_zero_f32, zero_add]
  unfold sumsq
  refine Finset.sum_congr rfl fun m _ => ?_
  have e1 : idx_main_call0_v1 (ix2 b n) m = ix3 b n m :=
    funext fun a => Fin.ext (by match a with | ⟨0, _⟩ => rfl | ⟨1, _⟩ => rfl | ⟨2, _⟩ => rfl)
  rw [e1, val_main_call0_v0_apply, Ideal.mulf_def, rel_at]

/-- The norm, broadcast back along the key positions: at (b, n, m) the square root of row (b, n)'s sum of squares. -/
theorem norm_at (x : X3) (adj : XN) (wq wk : XD) (b : Fin 8) (n m : Fin 2048) :
    val_main_v9 (F := Ideal) x adj wq wk (ix3 b n m) = Ideal.sqrt (sumsq x adj wq wk b n) := by
  rw [val_main_v9_apply, val_main_v8_apply, val_main_call0_v2_apply, Ideal.hostUnary_sqrt_def]
  have e1 : idx_main_call0_v2 (idx_main_v9 (ix3 b n m)) = ix2 b n :=
    funext fun a => Fin.ext (by match a with | ⟨0, _⟩ => rfl | ⟨1, _⟩ => rfl)
  rw [e1, sumsq_at]

/-- The normalised masked score at (b, n, m). -/
theorem normed_at (x : X3) (adj : XN) (wq wk : XD) (b : Fin 8) (n m : Fin 2048) :
    val_main_v10 (F := Ideal) x adj wq wk (ix3 b n m)
      = Ideal.div (rel x adj wq wk b n m) (Ideal.sqrt (sumsq x adj wq wk b n)) := by
  rw [val_main_v10_apply, Ideal.hostDivf_def, rel_at, norm_at]

/-! ## The result -/

/-- The reference's last stage is the specification's `Gref` of the five arguments. -/
theorem val_eq (a0 : X3) (a1 : XN) (a2 a3 a4 : XD) :
    val_main_v11 (F := Ideal) a0 a1 a2 a3 a4 = Gref a0 a1 a2 a3 a4 := by
  funext i
  obtain ⟨b, n, d, rfl⟩ : ∃ (b : Fin 8) (n : Fin 2048) (d : Fin 512), i = ix3 b n d := ⟨i 0, i 1, i 2, eq_ix3 i⟩
  rw [val_main_v11_apply]
  show _ = refAt a0 a1 a2 a3 a4 b n d
  unfold refAt
  refine Finset.sum_congr rfl fun m _ => ?_
  have e1 : lidx_main_v11 (ix3 b n d) m = ix3 b n m :=
    funext fun a => Fin.ext (by match a with | ⟨0, _⟩ => rfl | ⟨1, _⟩ => rfl | ⟨2, _⟩ => rfl)
  have e2 : ridx_main_v11 (ix3 b n d) m = ix3 b m d :=
    funext fun a => Fin.ext (by match a with | ⟨0, _⟩ => rfl | ⟨1, _⟩ => rfl | ⟨2, _⟩ => rfl)
  rw [e1, e2, normed_at, projV_at]

/-- So the term the reference's run leaves in its result buffer, as a function of the five argument arrays, is `Gref`. -/
theorem result_eq (a0 : X3) (a1 : XN) (a2 a3 a4 : XD) :
    Host.dotGeneral (F := Ideal) dot_S8x2048x2048_S8x2048x512_S8x2048x512_2_1_1_2_0_0 none (Host.divf (F := Ideal) (mulf (broadcastInDim S8x2048x2048 ![0, 1, 2] bcast_S1x2048x2048_S8x2048x2048_0_1_2 (broadcastInDim S1x2048x2048 ![1, 2] bcast_S2048x2048_S1x2048x2048_1_2 (transpose S2048x2048 [1, 0] a1 transposes_S2048x2048_S2048x2048_1_0))) (Host.dotGeneral (F := Ideal) dot_S8x2048x512_S8x2048x512_S8x2048x2048_2_2_1_1_0_0 none (Host.dotGeneral (F := Ideal) dot_S8x2048x512_S512x512_S8x2048x512_2_1_01_0_n_n none a0 a2) (Host.dotGeneral (F := Ideal) dot_S8x2048x512_S512x512_S8x2048x512_2_1_01_0_n_n none a0 a3))) (broadcastInDim S8x2048x2048 ![0, 1, 2] bcast_S8x2048x1_S8x2048x2048_0_1_2 (Host.sqrt (F := Ideal) (broadcastInDim S8x2048x1 ![0, 1] bcast_S8x2048_S8x2048x1_0_1 (Host.reduceAdd (F := Ideal) (mulf (mulf (broadcastInDim S8x2048x2048 ![0, 1, 2] bcast_S1x2048x2048_S8x2048x2048_0_1_2 (broadcastInDim S1x2048x2048 ![1, 2] bcast_S2048x2048_S1x2048x2048_1_2 (transpose S2048x2048 [1, 0] a1 transposes_S2048x2048_S2048x2048_1_0))) (Host.dotGeneral (F := Ideal) dot_S8x2048x512_S8x2048x512_S8x2048x2048_2_2_1_1_0_0 none (Host.dotGeneral (F := Ideal) dot_S8x2048x512_S512x512_S8x2048x512_2_1_01_0_n_n none a0 a2) (Host.dotGeneral (F := Ideal) dot_S8x2048x512_S512x512_S8x2048x512_2_1_01_0_n_n none a0 a3))) (mulf (broadcastInDim S8x2048x2048 ![0, 1, 2] bcast_S1x2048x2048_S8x2048x2048_0_1_2 (broadcastInDim S1x2048x2048 ![1, 2] bcast_S2048x2048_S1x2048x2048_1_2 (transpose S2048x2048 [1, 0] a1 transposes_S2048x2048_S2048x2048_1_0))) (Host.dotGeneral (F := Ideal) dot_S8x2048x512_S8x2048x512_S8x2048x2048_2_2_1_1_0_0 none (Host.dotGeneral (F := Ideal) dot_S8x2048x512_S512x512_S8x2048x512_2_1_01_0_n_n none a0 a2) (Host.dotGeneral (F := Ideal) dot_S8x2048x512_S512x512_S8x2048x512_2_1_01_0_n_n none a0 a3)))) (constant (F := Ideal) S_ .f32 0x00000000#32) reducesTo_S8x2048x2048_S8x2048_d2 h_S_))))) (Host.dotGeneral (F := Ideal) dot_S8x2048x512_S512x512_S8x2048x512_2_1_01_0_n_n none a0 a4)
      = Gref a0 a1 a2 a3 a4 :=
  (val_main_v11_eq (F := Ideal) a0 a1 a2 a3 a4).trans (val_eq a0 a1 a2 a3 a4)

end Cert.ReferenceIdeal.RefValue

end
-- ==== Proof.SpecLaw.lean ====
/-
  The algebra behind the value claim: on finite inputs whose every query row has a positive sum of squared masked
  scores, normalising each masked score before summing against the values (the reference's order) and summing first
  and scaling once by the reciprocal norm (the kernel's order) give the same extended real.

  With finite inputs every projection, score, masked score and row sum of squares is a real number, being a finite sum
  of products of reals.  For a positive real s the extended square root is the real square root σ ≠ 0, the extended
  reciprocal square root is σ⁻¹, and division by σ is multiplication by 1/σ; the claim is then the real identity
  Σ_m (r_m · (1/σ)) · v_m = (Σ_m r_m · v_m) · σ⁻¹.
-/
import proofs.«105555_j55413668053098_1_alg».proof.Proof.Spec

noncomputable section

namespace Cert.Spec

open Idealize.ShloMosaic Idealize.ShloMosaic.ValueIdx

/-! ## Real numbers inside the extended reals -/

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of two families of reals, taken in the extended reals, is a real number. -/
theorem sum_mul_coe {ι : Type*} [Fintype ι] (f g : ι → ℝ) :
    (∑ i, (f i : EReal) * (g i : EReal)) = ((∑ i, f i * g i : ℝ) : EReal) := by
  rw [coe_finset_sum]
  exact Finset.sum_congr rfl fun i _ => (EReal.coe_mul _ _).symm

/-- The law over the reals: scaling every term by 1/σ before summing against v is summing first and scaling by σ⁻¹. -/
theorem real_law {ι : Type*} [Fintype ι] (r v : ι → ℝ) (σ : ℝ) :
    (∑ m, r m * (1 / σ) * v m) = (∑ m, r m * v m) * σ⁻¹ := by
  rw [Finset.sum_mul]
  exact Finset.sum_congr rfl fun m _ => by ring

/-! ## The intermediate quantities are real on finite inputs -/

/-- A projection of finite states by a finite weight is a real number. -/
theorem proj_real (x : Arr3) (w : ArrD) (hx : ∀ i, ∃ r : ℝ, x i = (r : EReal)) (hw : ∀ i, ∃ r : ℝ, w i = (r : EReal))
    (b : Fin 8) (n : Fin 2048) (e : Fin 512) : ∃ r : ℝ, proj x w b n e = (r : EReal) := by
  choose xr hxr using hx
  choose wr hwr using hw
  refine ⟨∑ d : Fin 512, xr (ix3 b n d) * wr (ix2 e d), ?_⟩
  unfold proj
  simp only [hxr, hwr]
  exact sum_mul_coe _ _

/-- A raw score is a real number. -/
theorem score_real (x : Arr3) (wq wk : ArrD) (hx : ∀ i, ∃ r : ℝ, x i = (r : EReal)) (hwq : ∀ i, ∃ r : ℝ, wq i = (r : EReal))
    (hwk : ∀ i, ∃ r : ℝ, wk i = (r : EReal)) (b : Fin 8) (n m : Fin 2048) : ∃ r : ℝ, score x wq wk b n m = (r : EReal) := by
  choose qr hqr using fun e => proj_real x wq hx hwq b n e
  choose kr hkr using fun e => proj_real x wk hx hwk b m e
  refine ⟨∑ e : Fin 512, qr e * kr e, ?_⟩
  unfold score
  simp only [hqr, hkr]
  exact sum_mul_coe _ _

/-- A masked score is a real number. -/
theorem rel_real (x : Arr3) (adj : ArrN) (wq wk : ArrD) (hx : ∀ i, ∃ r : ℝ, x i = (r : EReal)) (hadj : ∀ i, ∃ r : ℝ, adj i = (r : EReal))
    (hwq : ∀ i, ∃ r : ℝ, wq i = (r : EReal)) (hwk : ∀ i, ∃ r : ℝ, wk i = (r : EReal)) (b : Fin 8) (n m : Fin 2048) :
    ∃ r : ℝ, rel x adj wq wk b n m = (r : EReal) := by
  obtain ⟨a, ha⟩ := hadj (ix2 m n)
  obtain ⟨s, hs⟩ := score_real x wq wk hx hwq hwk b n m
  exact ⟨a * s, by unfold rel; rw [ha, hs, EReal.coe_mul]⟩

/-! ## The two orders of normalisation agree -/

/-- At a finite input and a query row whose sum of squared masked scores is positive, the kernel's value is the
    reference's. -/
theorem kerAt_eq_refAt (x : Arr3) (adj : ArrN) (wq wk wv : ArrD)
    (hx : ∀ i, ∃ r : ℝ, x i = (r : EReal)) (hadj : ∀ i, ∃ r : ℝ, adj i = (r : EReal)) (hwq : ∀ i, ∃ r : ℝ, wq i = (r : EReal))
    (hwk : ∀ i, ∃ r : ℝ, wk i = (r : EReal)) (hwv : ∀ i, ∃ r : ℝ, wv i = (r : EReal))
    (b : Fin 8) (n : Fin 2048) (d : Fin 512) (hl : 0 < sumsq x adj wq wk b n) :
    kerAt x adj wq wk wv b n d = refAt x adj wq wk wv b n d := by
  choose R hR using fun m => rel_real x adj wq wk hx hadj hwq hwk b n m
  choose P hP using fun m => proj_real x wv hx hwv b m d
  -- the row's sum of squares is a positive real
  have hss : sumsq x adj wq wk b n = ((∑ m : Fin 2048, R m * R m : ℝ) : EReal) := by
    unfold sumsq; simp only [hR]; exact sum_mul_coe _ _
  set s : ℝ := ∑ m : Fin 2048, R m * R m with hs
  rw [hss] at hl
  have hs0 : 0 < s := by exact_mod_cast hl
  have hσ : Real.sqrt s ≠ 0 := (Real.sqrt_pos.2 hs0).ne'
  unfold kerAt refAt
  rw [hss, Ideal.sqrt_coe, Ideal.rsqrt_coe, if_neg (not_lt.2 hs0.le), if_neg (not_lt.2 hs0.le), if_neg hs0.ne']
  simp only [hR, hP, Ideal.div_coe hσ, ← EReal.coe_mul, ← coe_finset_sum]
  rw [real_law]

/-- So on finite inputs all of whose query rows have a positive sum of squared masked scores, the kernel's result
    array is the reference's. -/
theorem Gker_eq_Gref (x : Arr3) (adj : ArrN) (wq wk wv : ArrD)
    (hx : ∀ i, ∃ r : ℝ, x i = (r : EReal)) (hadj : ∀ i, ∃ r : ℝ, adj i = (r : EReal)) (hwq : ∀ i, ∃ r : ℝ, wq i = (r : EReal))
    (hwk : ∀ i, ∃ r : ℝ, wk i = (r : EReal)) (hwv : ∀ i, ∃ r : ℝ, wv i = (r : EReal))
    (hl : ∀ b n, 0 < sumsq x adj wq wk b n) : Gker x adj wq wk wv = Gref x adj wq wk wv := by
  funext i
  exact kerAt_eq_refAt x adj wq wk wv hx hadj hwq hwk hwv (i 0) (i 1) (i 2) (hl (i 0) (i 1))

end Cert.Spec

end
-- ==== Proof.PreFacts.lean ====
/-
  The precondition, decoded.  The printed predicate is the conjunction of six `all`s: for each of the five inputs that
  every entry's absolute value is below +∞, and that every query row's sum of squared masked scores is above zero.  At
  the extended reals an entry whose absolute value is below +∞ is a real number, and the row sums the predicate forms —
  by the same operations the reference uses — are the specification's `sumsq`.
-/
import proofs.«105555_j55413668053098_1_alg».proof.Pre_finite_inputs
import proofs.«105555_j55413668053098_1_alg».proof.Proof.Gen.Pre_finite_inputs
import proofs.«105555_j55413668053098_1_alg».proof.Proof.Spec
import Idealize.ShloMosaic.Lib.ReduceAll
import Idealize.ShloMosaic.Lib.Pipeline.Value
import Idealize.ShloMosaic.Lib.ValueIdx
import Idealize.ShloMosaic.PureOps.Ideal.Laws

noncomputable section

namespace Cert.PreFacts

open Cert.Pre_finite_inputs Cert.Pre_finite_inputs.Gen
open Idealize.ShloMosaic Idealize.ShloMosaic.ValueIdx
open Cert.Spec

/-- The scalar shape has one index. -/
instance : Subsingleton S_.Idx := ⟨fun a b => funext fun d => d.elim0⟩

/-! ## An entry below +∞ in absolute value is real -/

/-- The word 0x7F800000 denotes +∞. -/
theorem inf_word : Ideal.ofBits .f32 0x7F800000#32 = (⊤ : EReal) := by simp [Ideal.ofBits, Ideal.ieee]

/-- An extended real whose absolute value compares below +∞ is a real number. -/
theorem real_of_abs_lt (x : EReal) (h : Ideal.cmp .olt (max x (-x)) (Ideal.ofBits .f32 0x7F800000#32) = 1#1) :
    ∃ r : ℝ, x = (r : EReal) := by
  rw [inf_word] at h
  have hlt : max x (-x) < ⊤ := by
    by_contra hn
    simp [Ideal.cmp, hn] at h
  induction x using EReal.rec with
  | bot => exact absurd hlt (by simp)
  | coe r => exact ⟨r, rfl⟩
  | top => exact absurd hlt (by simp)

/-- A comparison "above zero" that holds says the extended real is positive. -/
theorem pos_of_cmp_gt (x : EReal) (h : Ideal.cmp .ogt x (Ideal.ofBits .f32 0x00000000#32) = 1#1) : 0 < x := by
  rw [Ideal.ofBits_zero_f32] at h
  by_contra hn
  simp [Ideal.cmp, hn] at h

/-! ## The predicate's operations read at an index -/

/-- A projection at (b, n, e): the contraction of the states' last axis with the weight's last axis. -/
theorem dotW_at (l : FVec Ideal S8x2048x512 .f32) (r : FVec Ideal S512x512 .f32) (b : Fin 8) (n : Fin 2048) (e : Fin 512) :
    Host.dotGeneral (F := Ideal) dot_S8x2048x512_S512x512_S8x2048x512_2_1_01_0_n_n none l r (ix3 b n e) = proj l r b n e := by
  simp only [Host.dotGeneral]
  rw [Ideal.dotGeneral_apply, ← Equiv.sum_comp (ValueIdx.contrEquiv1 dot_S8x2048x512_S512x512_S8x2048x512_2_1_01_0_n_n 512 rfl rfl).symm]
  unfold proj
  refine Finset.sum_congr rfl fun k _ => ?_
  have hk := ValueIdx.contrEquiv1_symm_val dot_S8x2048x512_S512x512_S8x2048x512_2_1_01_0_n_n 512 rfl rfl k
  have el : dot_S8x2048x512_S512x512_S8x2048x512_2_1_01_0_n_n.lhsIdx (ix3 b n e) ((ValueIdx.contrEquiv1 dot_S8x2048x512_S512x512_S8x2048x512_2_1_01_0_n_n 512 rfl rfl).symm k) = ix3 b n k := funext fun a => Fin.ext (by
    match a with
    | ⟨0, _⟩ =>
      show (dot_S8x2048x512_S512x512_S8x2048x512_2_1_01_0_n_n.lhsIdx (ix3 b n e) _ 0).val = b.val
      unfold DotDims.lhsIdx
      rw [dif_neg (show ¬(0 : Fin S8x2048x512.rank) ∈ dot_S8x2048x512_S512x512_S8x2048x512_2_1_01_0_n_n.lhsBatch by decide), dif_pos (show (0 : Fin S8x2048x512.rank) ∈ dot_S8x2048x512_S512x512_S8x2048x512_2_1_01_0_n_n.lhsNonContracting by decide)]
      rfl
    | ⟨1, _⟩ =>
      show (dot_S8x2048x512_S512x512_S8x2048x512_2_1_01_0_n_n.lhsIdx (ix3 b n e) _ 1).val = n.val
      unfold DotDims.lhsIdx
      rw [dif_neg (show ¬(1 : Fin S8x2048x512.rank) ∈ dot_S8x2048x512_S512x512_S8x2048x512_2_1_01_0_n_n.lhsBatch by decide), dif_pos (show (1 : Fin S8x2048x512.rank) ∈ dot_S8x2048x512_S512x512_S8x2048x512_2_1_01_0_n_n.lhsNonContracting by decide)]
      rfl
    | ⟨2, _⟩ => exact (dot_S8x2048x512_S512x512_S8x2048x512_2_1_01_0_n_n.lhsIdx_val_of_single rfl (ix3 b n e) _).trans hk)
  have er : dot_S8x2048x512_S512x512_S8x2048x512_2_1_01_0_n_n.rhsIdx (ix3 b n e) ((ValueIdx.contrEquiv1 dot_S8x2048x512_S512x512_S8x2048x512_2_1_01_0_n_n 512 rfl rfl).symm k) = ix2 e k := funext fun a => Fin.ext (by
    match a with
    | ⟨0, _⟩ =>
      show (dot_S8x2048x512_S512x512_S8x2048x512_2_1_01_0_n_n.rhsIdx (ix3 b n e) _ 0).val = e.val
      unfold DotDims.rhsIdx
      rw [dif_neg (show ¬(0 : Fin S512x512.rank) ∈ dot_S8x2048x512_S512x512_S8x2048x512_2_1_01_0_n_n.rhsBatch by decide), dif_pos (show (0 : Fin S512x512.rank) ∈ dot_S8x2048x512_S512x512_S8x2048x512_2_1_01_0_n_n.rhsNonContracting by decide)]
      rfl
    | ⟨1, _⟩ => exact (dot_S8x2048x512_S512x512_S8x2048x512_2_1_01_0_n_n.rhsIdx_val_of_single rfl (ix3 b n e) _).trans hk)
  rw [el, er]

/-- The raw score at (b, n, m): the contraction of the two projections' feature axes, batched over b. -/
theorem dotQK_at (l r : FVec Ideal S8x2048x512 .f32) (b : Fin 8) (n m : Fin 2048) :
    Host.dotGeneral (F := Ideal) dot_S8x2048x512_S8x2048x512_S8x2048x2048_2_2_1_1_0_0 none l r (ix3 b n m) = ∑ e : Fin 512, l (ix3 b n e) * r (ix3 b m e) := by
  simp only [Host.dotGeneral]
  rw [Ideal.dotGeneral_apply, ← Equiv.sum_comp (ValueIdx.contrEquiv1 dot_S8x2048x512_S8x2048x512_S8x2048x2048_2_2_1_1_0_0 512 rfl rfl).symm]
  refine Finset.sum_congr rfl fun k _ => ?_
  have hk := ValueIdx.contrEquiv1_symm_val dot_S8x2048x512_S8x2048x512_S8x2048x2048_2_2_1_1_0_0 512 rfl rfl k
  have el : dot_S8x2048x512_S8x2048x512_S8x2048x2048_2_2_1_1_0_0.lhsIdx (ix3 b n m) ((ValueIdx.contrEquiv1 dot_S8x2048x512_S8x2048x512_S8x2048x2048_2_2_1_1_0_0 512 rfl rfl).symm k) = ix3 b n k := funext fun a => Fin.ext (by
    match a with
    | ⟨0, _⟩ =>
      show (dot_S8x2048x512_S8x2048x512_S8x2048x2048_2_2_1_1_0_0.lhsIdx (ix3 b n m) _ 0).val = b.val
      unfold DotDims.lhsIdx
      rw [dif_pos (show (0 : Fin S8x2048x512.rank) ∈ dot_S8x2048x512_S8x2048x512_S8x2048x2048_2_2_1_1_0_0.lhsBatch by decide)]
      rfl
    | ⟨1, _⟩ =>
      show (dot_S8x2048x512_S8x2048x512_S8x2048x2048_2_2_1_1_0_0.lhsIdx (ix3 b n m) _ 1).val = n.val
      unfold DotDims.lhsIdx
      rw [dif_neg (show ¬(1 : Fin S8x2048x512.rank) ∈ dot_S8x2048x512_S8x2048x512_S8x2048x2048_2_2_1_1_0_0.lhsBatch by decide), dif_pos (show (1 : Fin S8x2048x512.rank) ∈ dot_S8x2048x512_S8x2048x512_S8x2048x2048_2_2_1_1_0_0.lhsNonContracting by decide)]
      rfl
    | ⟨2, _⟩ => exact (dot_S8x2048x512_S8x2048x512_S8x2048x2048_2_2_1_1_0_0.lhsIdx_val_of_single rfl (ix3 b n m) _).trans hk)
  have er : dot_S8x2048x512_S8x2048x512_S8x2048x2048_2_2_1_1_0_0.rhsIdx (ix3 b n m) ((ValueIdx.contrEquiv1 dot_S8x2048x512_S8x2048x512_S8x2048x2048_2_2_1_1_0_0 512 rfl rfl).symm k) = ix3 b m k := funext fun a => Fin.ext (by
    match a with
    | ⟨0, _⟩ =>
      show (dot_S8x2048x512_S8x2048x512_S8x2048x2048_2_2_1_1_0_0.rhsIdx (ix3 b n m) _ 0).val = b.val
      unfold DotDims.rhsIdx
      rw [dif_pos (show (0 : Fin S8x2048x512.rank) ∈ dot_S8x2048x512_S8x2048x512_S8x2048x2048_2_2_1_1_0_0.rhsBatch by decide)]
      rfl
    | ⟨1, _⟩ =>
      show (dot_S8x2048x512_S8x2048x512_S8x2048x2048_2_2_1_1_0_0.rhsIdx (ix3 b n m) _ 1).val = m.val
      unfold DotDims.rhsIdx
      rw [dif_neg (show ¬(1 : Fin S8x2048x512.rank) ∈ dot_S8x2048x512_S8x2048x512_S8x2048x2048_2_2_1_1_0_0.rhsBatch by decide), dif_pos (show (1 : Fin S8x2048x512.rank) ∈ dot_S8x2048x512_S8x2048x512_S8x2048x2048_2_2_1_1_0_0.rhsNonContracting by decide)]
      rfl
    | ⟨2, _⟩ => exact (dot_S8x2048x512_S8x2048x512_S8x2048x2048_2_2_1_1_0_0.rhsIdx_val_of_single rfl (ix3 b n m) _).trans hk)
  rw [el, er]

/-- The mask at (b, n, m): the adjacency read at (m, n) — its transpose, broadcast over the batch. -/
theorem mask_at (adj : FVec Ideal S2048x2048 .f32) (b : Fin 8) (n m : Fin 2048) :
    broadcastInDim S8x2048x2048 ![0, 1, 2] Facts.bcast_S1x2048x2048_S8x2048x2048_0_1_2
      (broadcastInDim S1x2048x2048 ![1, 2] Facts.bcast_S2048x2048_S1x2048x2048_1_2
        (transpose S2048x2048 [1, 0] adj Facts.transposes_S2048x2048_S2048x2048_1_0)) (ix3 b n m) = adj (ix2 m n) := by
  rw [broadcastInDim_apply _ Facts.bcast_S1x2048x2048_S8x2048x2048_0_1_2 _ (ix3 b n m) (ix3 (0 : Fin 1) n m) (fun a => match a with
    | ⟨0, _⟩ => by show 0 = if (1 : Nat) = 1 then 0 else b.val; rw [if_pos rfl]
    | ⟨1, _⟩ => by show n.val = if (2048 : Nat) = 1 then 0 else n.val; rw [if_neg (by decide)]
    | ⟨2, _⟩ => by show m.val = if (2048 : Nat) = 1 then 0 else m.val; rw [if_neg (by decide)])]
  rw [broadcastInDim_apply _ Facts.bcast_S2048x2048_S1x2048x2048_1_2 _ (ix3 (0 : Fin 1) n m) (ix2 n m) (fun a => match a with
    | ⟨0, _⟩ => by show n.val = if (2048 : Nat) = 1 then 0 else n.val; rw [if_neg (by decide)]
    | ⟨1, _⟩ => by show m.val = if (2048 : Nat) = 1 then 0 else m.val; rw [if_neg (by decide)])]
  exact transpose_apply [1, 0] adj Facts.transposes_S2048x2048_S2048x2048_1_0 (ix2 n m) (ix2 m n) (fun b => match b with
    | ⟨0, _⟩ => rfl
    | ⟨1, _⟩ => rfl)

/-- A row sum at (b, n): the initial value plus the sum over the last axis. -/
theorem rowsum_at (y : FVec Ideal S8x2048x2048 .f32) (init : FVec Ideal S_ .f32) (b : Fin 8) (n : Fin 2048) :
    Host.reduceAdd (F := Ideal) y init Facts.reducesTo_S8x2048x2048_S8x2048_d2 Facts.h_S_ (ix2 b n)
      = init (Shape.Idx.first Facts.h_S_) + ∑ m : Fin 2048, y (ix3 b n m) := by
  simp only [Host.reduceAdd, Ideal.hostReduceAdd_def]
  rw [Ideal.hostReduceAdd_single Facts.reducesTo_S8x2048x2048_S8x2048_d2 (by decide)]
  refine congrArg (_ + ·) (Finset.sum_congr rfl fun k _ => ?_)
  exact congrArg y (funext fun a => Fin.ext (by match a with | ⟨0, _⟩ => rfl | ⟨1, _⟩ => rfl | ⟨2, _⟩ => rfl))

/-! ## The masked scores and their row sums, as the predicate forms them -/

/-- The array of masked scores the predicate forms from the states, the adjacency and the query and key weights. -/
abbrev relArr (a0 : FVec Ideal S8x2048x512 .f32) (a1 : FVec Ideal S2048x2048 .f32) (a2 a3 : FVec Ideal S512x512 .f32) :
    FVec Ideal S8x2048x2048 .f32 :=
  mulf (broadcastInDim S8x2048x2048 ![0, 1, 2] Facts.bcast_S1x2048x2048_S8x2048x2048_0_1_2
      (broadcastInDim S1x2048x2048 ![1, 2] Facts.bcast_S2048x2048_S1x2048x2048_1_2
        (transpose S2048x2048 [1, 0] a1 Facts.transposes_S2048x2048_S2048x2048_1_0)))
    (Host.dotGeneral (F := Ideal) dot_S8x2048x512_S8x2048x512_S8x2048x2048_2_2_1_1_0_0 none
      (Host.dotGeneral (F := Ideal) dot_S8x2048x512_S512x512_S8x2048x512_2_1_01_0_n_n none a0 a2) (Host.dotGeneral (F := Ideal) dot_S8x2048x512_S512x512_S8x2048x512_2_1_01_0_n_n none a0 a3))

/-- Its entry at (b, n, m) is the specification's masked score. -/
theorem relArr_at (a0 : FVec Ideal S8x2048x512 .f32) (a1 : FVec Ideal S2048x2048 .f32) (a2 a3 : FVec Ideal S512x512 .f32)
    (b : Fin 8) (n m : Fin 2048) : relArr a0 a1 a2 a3 (ix3 b n m) = rel a0 a1 a2 a3 b n m := by
  unfold relArr
  rw [mulf_apply, mask_at, dotQK_at]
  unfold rel score
  simp only [dotW_at]

/-- The row sum of its squares at (b, n), from the zero initial value, is the specification's `sumsq`. -/
theorem rowsq_at (a0 : FVec Ideal S8x2048x512 .f32) (a1 : FVec Ideal S2048x2048 .f32) (a2 a3 : FVec Ideal S512x512 .f32)
    (b : Fin 8) (n : Fin 2048) :
    Host.reduceAdd (F := Ideal) (mulf (relArr a0 a1 a2 a3) (relArr a0 a1 a2 a3)) (constant (F := Ideal) S_ .f32 0x00000000#32)
        Facts.reducesTo_S8x2048x2048_S8x2048_d2 Facts.h_S_ (ix2 b n) = sumsq a0 a1 a2 a3 b n := by
  rw [rowsum_at, constant_apply, Ideal.ofBits_zero_f32, zero_add]
  unfold sumsq
  refine Finset.sum_congr rfl fun m _ => ?_
  rw [mulf_apply, relArr_at]

/-! ## The precondition's content -/

/-- Where the printed predicate holds, every entry of the five inputs is a real number and every query row's sum of
    squared masked scores is positive. -/
theorem of_pre (a0 : FVec Ideal S8x2048x512 .f32) (a1 : FVec Ideal S2048x2048 .f32) (a2 a3 a4 : FVec Ideal S512x512 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal))
      ∧ ∀ b n, 0 < sumsq a0 a1 a2 a3 b n := by
  have h0 := congrFun h ValueIdx.ix0
  dsimp only [fn, fn_part1, fn_part2] at h0
  simp only [Idealize.ShloMosaic.andi, IntOp.andi_eq_one] at h0
  obtain ⟨⟨⟨⟨⟨h10, h14⟩, h19⟩, h24⟩, h29⟩, h35⟩ := h0
  refine ⟨fun i => real_of_abs_lt _ (Host.reduce_andi_all _ _ _ _ _ h10 i),
    fun i => real_of_abs_lt _ (Host.reduce_andi_all _ _ _ _ _ h14 i),
    fun i => real_of_abs_lt _ (Host.reduce_andi_all _ _ _ _ _ h19 i),
    fun i => real_of_abs_lt _ (Host.reduce_andi_all _ _ _ _ _ h24 i),
    fun i => real_of_abs_lt _ (Host.reduce_andi_all _ _ _ _ _ h29 i), fun b n => ?_⟩
  have hc : Ideal.cmp .ogt (Host.reduceAdd (F := Ideal) (mulf (relArr a0 a1 a2 a3) (relArr a0 a1 a2 a3))
      (constant (F := Ideal) S_ .f32 0x00000000#32) Facts.reducesTo_S8x2048x2048_S8x2048_d2 Facts.h_S_ (ix2 b n))
      (Ideal.ofBits .f32 0x00000000#32) = 1#1 := Host.reduce_andi_all _ _ _ _ _ h35 (ix2 b n)
  rw [rowsq_at] at hc
  exact pos_of_cmp_gt _ hc

end Cert.PreFacts

end
-- ==== Proof.lean ====
/-
  The certificate: the word-level kernel program, its idealization and the idealized reference each run to the end
  without fault and leave their five arguments unchanged; the idealization rewrote nothing; and at the exact instance
  the idealized kernel and the idealized reference end with equal results.

  The mathematics of the last claim.  With x the neuron states, q = x Wqᵀ, k = x Wkᵀ, v = x Wvᵀ, the masked score of
  query position n against key position m is r[n,m] = adjacency[m,n] · (q[n] · k[m]), and s[n] = Σ_m r[n,m]² is the row's
  sum of squares.  The reference computes Σ_m (r[n,m] / √s[n]) · v[m,d]; the kernel computes (Σ_m r[n,m] · v[m,d]) · s[n]^(-1/2),
  accumulating both sums over two tiles of key positions.  Under the precondition every input is a real number and
  every s[n] is positive, so √s[n] is a nonzero real and the factor 1/√s[n] moves out of the finite sum: the two
  results are equal.  (Without positivity they are not: at s[n] = 0 the reference's 0/0 is the extended reals' junk
  value −∞ while the kernel's 0 · ∞ is 0.)
-/
import proofs.«105555_j55413668053098_1_alg».proof.Defs
import proofs.«105555_j55413668053098_1_alg».proof.Proof.Gen.Kernel
import proofs.«105555_j55413668053098_1_alg».proof.Proof.Gen.KernelIdeal
import proofs.«105555_j55413668053098_1_alg».proof.Proof.Gen.ReferenceIdeal
import proofs.«105555_j55413668053098_1_alg».proof.Proof.Gen.ReferenceIdeal.Read
import proofs.«105555_j55413668053098_1_alg».proof.Proof.Gen.Pre_finite_inputs
import proofs.«105555_j55413668053098_1_alg».proof.Proof.KMain
import proofs.«105555_j55413668053098_1_alg».proof.Proof.KIMain
import proofs.«105555_j55413668053098_1_alg».proof.Proof.KIValue
import proofs.«105555_j55413668053098_1_alg».proof.Proof.RefValue
import proofs.«105555_j55413668053098_1_alg».proof.Proof.SpecLaw
import proofs.«105555_j55413668053098_1_alg».proof.Proof.PreFacts
import Idealize.ShloMosaic.Adequacy
import Idealize.ShloMosaic.Init

noncomputable section

namespace Cert.Proof

open Idealize.ShloMosaic Idealize.SL.Sem

/-- The word-level program runs to the end and keeps its arguments: its run through the two kernel calls. -/
theorem frame_k : @Cert.frame_Kernel Cert.Kernel.Gen.facts Cert.Pre_finite_inputs.Gen.facts :=
  fun m ρ _ => Cert.Kernel.Run.frame (F := Bits) m ρ

/-- The idealized program likewise. -/
theorem frame_ki : @Cert.frame_KernelIdeal Cert.KernelIdeal.Gen.facts Cert.Pre_finite_inputs.Gen.facts :=
  fun m ρ _ => Cert.KernelIdeal.Run.frame (F := Ideal) m ρ

/-- The reference is host operations only: its run, with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the exact instance both programs end at the same array: the kernel's run ends at the kernel-side array of the
    specification, the reference's at the reference-side array, and under the precondition (real inputs, positive
    row sums of squares) the two arrays are equal. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Spec.Gker (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Run.run_all (F := Ideal) m ρ)
    exact ⟨(h c _ (Cert.KernelIdeal.Run.mem_uc Cert.KernelIdeal.main_v14 (by decide))).trans (Cert.KernelIdeal.Run.result_eq m ρ c),
      (h c _ (Cert.KernelIdeal.Run.mem_uc Cert.KernelIdeal.main_arg0 (by decide))).trans (Cert.KernelIdeal.Run.W4_main_arg0 m ρ c),
      (h c _ (Cert.KernelIdeal.Run.mem_uc Cert.KernelIdeal.main_arg1 (by decide))).trans (Cert.KernelIdeal.Run.W4_main_arg1 m ρ c),
      (h c _ (Cert.KernelIdeal.Run.mem_uc Cert.KernelIdeal.main_arg2 (by decide))).trans (Cert.KernelIdeal.Run.W4_main_arg2 m ρ c),
      (h c _ (Cert.KernelIdeal.Run.mem_uc Cert.KernelIdeal.main_arg3 (by decide))).trans (Cert.KernelIdeal.Run.W4_main_arg3 m ρ c),
      (h c _ (Cert.KernelIdeal.Run.mem_uc Cert.KernelIdeal.main_arg4 (by decide))).trans (Cert.KernelIdeal.Run.W4_main_arg4 m ρ c)⟩
  · refine (θ_run Cert.ReferenceIdeal.defs _ _).mono (fun r h c => ⟨?_, (h c).2⟩) (Cert.ReferenceIdeal.Value.run (F := Ideal) m' ρ')
    obtain ⟨hx, hadj, hwq, hwk, hwv, hl⟩ := Cert.PreFacts.of_pre _ _ _ _ _ (hpre c)
    rw [(h c).1, Cert.ReferenceIdeal.RefValue.result_eq, (hagree c).1, (hagree c).2.1, (hagree c).2.2.1, (hagree c).2.2.2.1, (hagree c).2.2.2.2]
    exact (Cert.Spec.Gker_eq_Gref _ _ _ _ _ hx hadj hwq hwk hwv hl).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
